-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S100000x128 .f32) (main_arg2 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 99999#32
  let main_v11 : IVec S16384 32 := broadcastInDim S16384 ![] bcast_S_S16384 main_c_3
  let main_v12 : IVec S16384 1 := cmpi .sle main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384 : Shape := ⟨1, ![16384]⟩
abbrev S100000x128 : Shape := ⟨2, ![100000, 128]⟩
abbrev S256x64 : Shape := ⟨2, ![256, 64]⟩
abbrev S16384x128 : Shape := ⟨2, ![16384, 128]⟩
abbrev S8x64 : Shape := ⟨2, ![8, 64]⟩
abbrev S8x64x128 : Shape := ⟨3, ![8, 64, 128]⟩
abbrev S_ : Shape := ⟨0, ![]⟩
abbrev S1x64x128 : Shape := ⟨3, ![1, 64, 128]⟩
abbrev S64x128 : Shape := ⟨2, ![64, 128]⟩
abbrev S1x64 : Shape := ⟨2, ![1, 64]⟩
abbrev S64 : Shape := ⟨1, ![64]⟩

abbrev nBuf : Table → Nat
  | .hbm => 6
  | .local .scVector .vmem => 2
  | _ => 0

abbrev bufTy : (tb : Table) → Fin (nBuf tb) → BufTy
  | .hbm, ⟨0, _⟩ => ⟨S16384, .i32⟩
  | .hbm, ⟨1, _⟩ => ⟨S100000x128, .f32⟩
  | .hbm, ⟨2, _⟩ => ⟨S100000x128, .f32⟩
  | .hbm, ⟨3, _⟩ => ⟨S256x64, .i32⟩
  | .hbm, ⟨4, _⟩ => ⟨S16384x128, .f32⟩
  | .hbm, ⟨5, _⟩ => ⟨S16384x128, .f32⟩
  | .local .scVector .vmem, ⟨0, _⟩ => ⟨S8x64, .i32⟩
  | .local .scVector .vmem, ⟨1, _⟩ => ⟨S8x64x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_0_scv : Ref sig .scVector := ⟨.hbm, 4, rfl⟩
abbrev main_v1_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v3 : BitVec 32 := Scalar.muli v1 c8_i32
  let c0_i32_450_r0 : BitVec 32 := 0#32
  ![v3.toNat, 0]
def k0_off2 (i : grid0.Coords) (c0_i32_50 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v44 : BitVec 32 := Scalar.addi v2 c0_i32_50
  let c0_i32_54 : BitVec 32 := 0#32
  ![v44.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384_S256x64 : S16384.ShapeCasts S256x64
  inb_S8x64x128_S1x64x128_0_0_0 : ∀ a, (![0, 0, 0] : Fin 3 → Nat) a + S1x64x128.size a ≤ S8x64x128.size a
  squeezes_S1x64x128_S64x128 : S1x64x128.Squeezes S64x128
  inb_S8x64_S1x64_0_0 : ∀ a, (![0, 0] : Fin 2 → Nat) a + S1x64.size a ≤ S8x64.size a
  squeezes_S1x64_S64 : S1x64.Squeezes S64
  inb_S100000x128_S100000x128_0_0 : ∀ a, (![0, 0] : Fin 2 → Nat) a + S100000x128.size a ≤ S100000x128.size a
  gathers_S100000x128_S64x128 : S100000x128.Gathers 0 S64x128
  inb_S8x64x128_S1x64x128_1_0_0 : ∀ a, (![1, 0, 0] : Fin 3 → Nat) a + S1x64x128.size a ≤ S8x64x128.size a
  inb_S8x64_S1x64_1_0 : ∀ a, (![1, 0] : Fin 2 → Nat) a + S1x64.size a ≤ S8x64.size a
  inb_S8x64x128_S1x64x128_2_0_0 : ∀ a, (![2, 0, 0] : Fin 3 → Nat) a + S1x64x128.size a ≤ S8x64x128.size a
  inb_S8x64_S1x64_2_0 : ∀ a, (![2, 0] : Fin 2 → Nat) a + S1x64.size a ≤ S8x64.size a
  inb_S8x64x128_S1x64x128_3_0_0 : ∀ a, (![3, 0, 0] : Fin 3 → Nat) a + S1x64x128.size a ≤ S8x64x128.size a
  inb_S8x64_S1x64_3_0 : ∀ a, (![3, 0] : Fin 2 → Nat) a + S1x64.size a ≤ S8x64.size a
  inb_S8x64x128_S1x64x128_4_0_0 : ∀ a, (![4, 0, 0] : Fin 3 → Nat) a + S1x64x128.size a ≤ S8x64x128.size a
  inb_S8x64_S1x64_4_0 : ∀ a, (![4, 0] : Fin 2 → Nat) a + S1x64.size a ≤ S8x64.size a
  inb_S8x64x128_S1x64x128_5_0_0 : ∀ a, (![5, 0, 0] : Fin 3 → Nat) a + S1x64x128.size a ≤ S8x64x128.size a
  inb_S8x64_S1x64_5_0 : ∀ a, (![5, 0] : Fin 2 → Nat) a + S1x64.size a ≤ S8x64.size a
  inb_S8x64x128_S1x64x128_6_0_0 : ∀ a, (![6, 0, 0] : Fin 3 → Nat) a + S1x64x128.size a ≤ S8x64x128.size a
  inb_S8x64_S1x64_6_0 : ∀ a, (![6, 0] : Fin 2 → Nat) a + S1x64.size a ≤ S8x64.size a
  inb_S8x64x128_S1x64x128_7_0_0 : ∀ a, (![7, 0, 0] : Fin 3 → Nat) a + S1x64x128.size a ≤ S8x64x128.size a
  inb_S8x64_S1x64_7_0 : ∀ a, (![7, 0] : Fin 2 → Nat) a + S1x64.size a ≤ S8x64.size a
  hcc0_scratch2 : 0 + S_.numel ≤ 17
  hcc0_scratch3 : 1 + S_.numel ≤ 17
  hcc0_scratch4 : 2 + S_.numel ≤ 17
  hcc0_scratch5 : 3 + S_.numel ≤ 17
  hcc0_scratch6 : 4 + S_.numel ≤ 17
  hcc0_scratch7 : 5 + S_.numel ≤ 17
  hcc0_scratch8 : 6 + S_.numel ≤ 17
  hcc0_scratch9 : 7 + S_.numel ≤ 17
  hcc0_scratch10 : 8 + S_.numel ≤ 17
  hcc0_scratch11 : 9 + S_.numel ≤ 17
  hcc0_scratch12 : 10 + S_.numel ≤ 17
  hcc0_scratch13 : 11 + S_.numel ≤ 17
  hcc0_scratch14 : 12 + S_.numel ≤ 17
  hcc0_scratch15 : 13 + S_.numel ≤ 17
  hcc0_scratch16 : 14 + S_.numel ≤ 17
  hcc0_scratch17 : 15 + S_.numel ≤ 17
  hcc0_scoped0 : 16 + S_.numel ≤ 17
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S8x64.size a ≤ S256x64.size a
  k0_off2_inb : ∀ i : grid0.Coords, ∀ (r : Fin 8), ∀ a, (k0_off2 i (BitVec.ofNat 32 (64 * r.val))) a + S64x128.size a ≤ S16384x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scratch10 : DmaSems sig S_ := SemArray.consecutive 8 S_ hcc0_scratch10
abbrev cc0_scratch11 : DmaSems sig S_ := SemArray.consecutive 9 S_ hcc0_scratch11
abbrev cc0_scratch12 : DmaSems sig S_ := SemArray.consecutive 10 S_ hcc0_scratch12
abbrev cc0_scratch13 : DmaSems sig S_ := SemArray.consecutive 11 S_ hcc0_scratch13
abbrev cc0_scratch14 : DmaSems sig S_ := SemArray.consecutive 12 S_ hcc0_scratch14
abbrev cc0_scratch15 : DmaSems sig S_ := SemArray.consecutive 13 S_ hcc0_scratch15
abbrev cc0_scratch16 : DmaSems sig S_ := SemArray.consecutive 14 S_ hcc0_scratch16
abbrev cc0_scratch17 : DmaSems sig S_ := SemArray.consecutive 15 S_ hcc0_scratch17
abbrev cc0_scoped0 : DmaSems sig S_ := SemArray.consecutive 16 S_ hcc0_scoped0

class Facts : Prop extends Facts₀ where

variable [Facts]
-- ==== ReferenceIdeal.lean ====
abbrev S16384 : Shape := ⟨1, ![16384]⟩
abbrev S100000x128 : Shape := ⟨2, ![100000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 49
  | .vmem => 0
  | .smem => 0
  | _ => 0

abbrev bufTy : (tb : Table) → Fin (tcTables nBuf tb) → BufTy
  | .hbm, ⟨0, _⟩ => ⟨S16384, .i32⟩
  | .hbm, ⟨1, _⟩ => ⟨S100000x128, .f32⟩
  | .hbm, ⟨2, _⟩ => ⟨S100000x128, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x128, .f32⟩
  | .hbm, ⟨22, _⟩ => ⟨S16384x128, .i1⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S16384x128, .f32⟩
  | .hbm, ⟨45, _⟩ => ⟨S16384x128, .i1⟩
  | .hbm, ⟨46, _⟩ => ⟨S_, .f32⟩
  | .hbm, ⟨47, _⟩ => ⟨S16384x128, .f32⟩
  | .hbm, ⟨48, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S100000x128_S16384x1_S16384x128_1_0_n_n_0_1_1128_wf : GatherDims.WF S100000x128 S16384x1 S16384x128 [1] [0] [] [0] [] 1 ![1, 128]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

class Facts : Prop extends Facts₀ where

variable [Facts]
-- ==== Proof.Spec.lean ====
/-
  The lookup both programs compute, as one function of the argument arrays: row `b` of the result is the table's row
  whose number is the `b`-th id. An id is a 32-bit word; under the precondition every id lies in `[0, 99999]` and so
  names a row by its own value; outside that range this function clamps to the last row, which no claim depends on.
-/
import Idealize.ShloMosaic.Lib.ValueIdx

namespace Cert.Spec

open Idealize.ShloMosaic Idealize.ShloMosaic.ValueIdx

abbrev SIds : Shape := ⟨1, ![16384]⟩
abbrev STab : Shape := ⟨2, ![100000, 128]⟩
abbrev SOut : Shape := ⟨2, ![16384, 128]⟩

/-- The table row a 32-bit id names: itself when below 100000, the last row otherwise. -/
def rowOf (w : BitVec 32) : Fin 100000 := ⟨min w.toNat 99999, by omega⟩

theorem rowOf_val_of_lt {w : BitVec 32} (h : w.toNat < 100000) : (rowOf w).val = w.toNat := by
  show min w.toNat 99999 = w.toNat
  omega

/-- The lookup: element `(b, l)` of the result is element `(rowOf ids[b], l)` of the table. -/
def take {α : Type} (ids : SIds.Idx → BitVec 32) (tab : STab.Idx → α) : SOut.Idx → α :=
  fun y => tab (ix2 (rowOf (ids (ix1 (⟨(y 0).val, idx2_lt0 y⟩ : Fin 16384)))) (⟨(y 1).val, idx2_lt1 y⟩ : Fin 128))

/-- Every id is a row number: non-negative as a signed word and at most 99999. -/
def InRange (ids : SIds.Idx → BitVec 32) : Prop := ∀ j, 0 ≤ (ids j).toInt ∧ (ids j).toNat < 100000

end Cert.Spec
-- ==== Proof.KIBase.lean ====
/-
  The lookup kernel as the launch theorem sees it, and the vocabulary of its proof: the device's arrays (the ids
  reshaped to 256 rows of 64, the two tables, the two results), a tile's two scratch arrays (its 8 rows of ids; 8
  slots of 64 table rows) and its seventeen DMA semaphores, all held at zero when a task starts.
-/
import proofs.«204537_g11269994185187_cont_sun_m_1261_11_alg».proof.KernelIdeal
import proofs.«204537_g11269994185187_cont_sun_m_1261_11_alg».proof.Proof.Gen.KernelIdeal
import proofs.«204537_g11269994185187_cont_sun_m_1261_11_alg».proof.Proof.Gen.KernelIdeal.Skeleton
import proofs.«204537_g11269994185187_cont_sun_m_1261_11_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev aLoc (d : Dev nD) : Loc nD τ sig := (SparseCore.T d).loc main_arg0
abbrev iLoc (d : Dev nD) : Loc nD τ sig := (SparseCore.T d).loc main_v0
abbrev t1Loc (d : Dev nD) : Loc nD τ sig := (SparseCore.T d).loc main_arg1
abbrev t2Loc (d : Dev nD) : Loc nD τ sig := (SparseCore.T d).loc main_arg2
abbrev o1Loc (d : Dev nD) : Loc nD τ sig := (SparseCore.T d).loc main_v1_0
abbrev o2Loc (d : Dev nD) : Loc nD τ sig := (SparseCore.T d).loc main_v1_1

/-! ## A tile's own semaphores and scratch arrays -/

section Own
variable (d : Dev nD) (c : Fin τ.nSC) (i : Fin τ.nSub)

/-- A tile's scoped cells are its seventeen DMA semaphores (the four launch semaphores are not scoped). -/
theorem ownCells_V :
    (ownCells (V d c i) : Finset (GSem nD τ sig))
      = Finset.univ.map ⟨fun k : DmaSem sig => ((V d c i, SemLoc.dma k) : GSem nD τ sig), by intro a b e; exact SemLoc.dma.inj (Prod.mk.inj e).2⟩ := by
  ext ⟨thr, sm⟩
  simp only [mem_ownCells, Finset.mem_map, Finset.mem_univ, true_and, Function.Embedding.coeFn_mk]
  constructor
  · rintro ⟨rfl, hs⟩
    cases sm with
    | reg r =>
      have hr : (SemLoc.reg r : SemLoc sig).isScoped .scVector = false := (show ∀ r : Sem sig, (SemLoc.reg r : SemLoc sig).isScoped .scVector = false by decide) r
      exact absurd (show (SemLoc.reg r : SemLoc sig).isScoped .scVector = true from hs) (by rw [hr]; exact Bool.false_ne_true)
    | dma k => exact ⟨k, rfl⟩
  · rintro ⟨k, hk⟩
    obtain ⟨rfl, rfl⟩ := Prod.mk.inj hk
    exact ⟨rfl, (show ∀ k : DmaSem sig, (SemLoc.dma k : SemLoc sig).isScoped .scVector = true by decide) k⟩

theorem ownSems0_V :
    (ownSems0 (V d c i) : sProp 𝕄)
      = iprop(semVal ((V d c i, SemLoc.dma cc0_scratch2.sem) : GSem nD τ sig) 0
          ∗ semVal ((V d c i, SemLoc.dma cc0_scratch3.sem) : GSem nD τ sig) 0
          ∗ semVal ((V d c i, SemLoc.dma cc0_scratch4.sem) : GSem nD τ sig) 0
          ∗ semVal ((V d c i, SemLoc.dma cc0_scratch5.sem) : GSem nD τ sig) 0
          ∗ semVal ((V d c i, SemLoc.dma cc0_scratch6.sem) : GSem nD τ sig) 0
          ∗ semVal ((V d c i, SemLoc.dma cc0_scratch7.sem) : GSem nD τ sig) 0
          ∗ semVal ((V d c i, SemLoc.dma cc0_scratch8.sem) : GSem nD τ sig) 0
          ∗ semVal ((V d c i, SemLoc.dma cc0_scratch9.sem) : GSem nD τ sig) 0
          ∗ semVal ((V d c i, SemLoc.dma cc0_scratch10.sem) : GSem nD τ sig) 0
          ∗ semVal ((V d c i, SemLoc.dma cc0_scratch11.sem) : GSem nD τ sig) 0
          ∗ semVal ((V d c i, SemLoc.dma cc0_scratch12.sem) : GSem nD τ sig) 0
          ∗ semVal ((V d c i, SemLoc.dma cc0_scratch13.sem) : GSem nD τ sig) 0
          ∗ semVal ((V d c i, SemLoc.dma cc0_scratch14.sem) : GSem nD τ sig) 0
          ∗ semVal ((V d c i, SemLoc.dma cc0_scratch15.sem) : GSem nD τ sig) 0
          ∗ semVal ((V d c i, SemLoc.dma cc0_scratch16.sem) : GSem nD τ sig) 0
          ∗ semVal ((V d c i, SemLoc.dma cc0_scratch17.sem) : GSem nD τ sig) 0
          ∗ semVal ((V d c i, SemLoc.dma cc0_scoped0.sem) : GSem nD τ sig) 0) := by
  unfold SparseCore.Cfg.ownSems0
  rw [ownCells_V, bigSep_map]
  rw [show (Finset.univ : Finset (DmaSem sig)) = {0, 1, 2, 3, 4, 5, 6, 7, 8, 9, 10, 11, 12, 13, 14, 15, 16} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The two scratch arrays are among the tile's own buffers: they, at some contents, and the rest. -/
theorem ownBufs_V :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase
              ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

end Own

end Cert.Proof.KI

end
-- ==== Proof.Spec2.lean ====
/-
  The same lookup over the ids laid out as 256 rows of 64 (the kernel's view of them): id number `b` sits at row
  `b / 64`, column `b % 64`. When the 256×64 array is the row-major reshape of the flat ids, the two lookups are one
  function.
-/
import proofs.«204537_g11269994185187_cont_sun_m_1261_11_alg».proof.Proof.Spec

namespace Cert.Spec

open Idealize.ShloMosaic Idealize.ShloMosaic.ValueIdx

abbrev SIds2 : Shape := ⟨2, ![256, 64]⟩

theorem div64_lt {n : Nat} (h : n < 16384) : n / 64 < 256 := by omega
theorem mod64_lt (n : Nat) : n % 64 < 64 := by omega

/-- The lookup through the 256×64 layout of the ids. -/
def take2 {α : Type} (ids2 : SIds2.Idx → BitVec 32) (tab : STab.Idx → α) : SOut.Idx → α :=
  fun y => tab (ix2 (rowOf (ids2 (ix2 (⟨(y 0).val / 64, div64_lt (idx2_lt0 y)⟩ : Fin 256) (⟨(y 0).val % 64, mod64_lt _⟩ : Fin 64))))
    (⟨(y 1).val, idx2_lt1 y⟩ : Fin 128))

theorem take2_eq_take {α : Type} (ids : SIds.Idx → BitVec 32) (ids2 : SIds2.Idx → BitVec 32) (tab : STab.Idx → α)
    (h : ∀ (r : Fin 256) (c : Fin 64), ids2 (ix2 r c) = ids (ix1 (⟨64 * r.val + c.val, by omega⟩ : Fin 16384))) :
    take2 ids2 tab = take ids tab := by
  funext y
  unfold take2 take
  rw [h]
  have e : 64 * ((y 0).val / 64) + (y 0).val % 64 = (y 0).val := Nat.div_add_mod _ _
  simp only [e]

end Cert.Spec
-- ==== Proof.KIRes.lean ====
/-
  What a tile is handed and hands back. Tile `(c, i)` (SparseCore `c`, subcore `i`) is worker `2·i + c`; it reads
  its eight rows of the 256×64 ids and both tables through read shares of the whole arrays (one share per worker),
  and owns the eight 64-row chunks `[512·w + 64·j, +64)` of each result, `w` its worker number.
-/
import proofs.«204537_g11269994185187_cont_sun_m_1261_11_alg».proof.Proof.KIBase
import proofs.«204537_g11269994185187_cont_sun_m_1261_11_alg».proof.Proof.Spec2

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The worker number of a grid point: `2·subcore + core`. -/
def wid (L : grid0.Coords) : ℕ := 2 * (L 1).val + (L 0).val

/-- Worker `w`'s read share of an array read by all 32 workers. -/
abbrev tq (w : ℕ) : PosShare TreeShare := Transfers.shareTokN fullShare w

/-- The eight 64-row chunks of a result that the tile at `L` writes, as the program slices them. -/
abbrev oR0 (L : grid0.Coords) : Rect S16384x128 := Rect.unit (s := S16384x128) (k0_off2 L 0#32) S64x128.size (k0_off2_inb L 0)
abbrev oR1 (L : grid0.Coords) : Rect S16384x128 := Rect.unit (s := S16384x128) (k0_off2 L 64#32) S64x128.size (k0_off2_inb L 1)
abbrev oR2 (L : grid0.Coords) : Rect S16384x128 := Rect.unit (s := S16384x128) (k0_off2 L 128#32) S64x128.size (k0_off2_inb L 2)
abbrev oR3 (L : grid0.Coords) : Rect S16384x128 := Rect.unit (s := S16384x128) (k0_off2 L 192#32) S64x128.size (k0_off2_inb L 3)
abbrev oR4 (L : grid0.Coords) : Rect S16384x128 := Rect.unit (s := S16384x128) (k0_off2 L 256#32) S64x128.size (k0_off2_inb L 4)
abbrev oR5 (L : grid0.Coords) : Rect S16384x128 := Rect.unit (s := S16384x128) (k0_off2 L 320#32) S64x128.size (k0_off2_inb L 5)
abbrev oR6 (L : grid0.Coords) : Rect S16384x128 := Rect.unit (s := S16384x128) (k0_off2 L 384#32) S64x128.size (k0_off2_inb L 6)
abbrev oR7 (L : grid0.Coords) : Rect S16384x128 := Rect.unit (s := S16384x128) (k0_off2 L 448#32) S64x128.size (k0_off2_inb L 7)

/-- The result arrays' common final contents: the lookup through the 256×64 ids. -/
def G1 (m : (ℓ : Loc nD τ sig) → Buf (Elt F) ℓ) (d : Dev nD) (fi : Buf (Elt F) (iLoc d)) : Buf (Elt F) (o1Loc d) :=
  Cert.Spec.take2 fi (m (t1Loc d))
def G2 (m : (ℓ : Loc nD τ sig) → Buf (Elt F) ℓ) (d : Dev nD) (fi : Buf (Elt F) (iLoc d)) : Buf (Elt F) (o2Loc d) :=
  Cert.Spec.take2 fi (m (t2Loc d))

/-- The tile's eight chunks of the first result at contents `f`; -/
def chunks1 (d : Dev nD) (L : grid0.Coords) (f : Buf (Elt F) (o1Loc d)) : sProp 𝕄 :=
  iprop((o1Loc d ↦[(oR0 L).set]{fullShare} f)
    ∗ (o1Loc d ↦[(oR1 L).set]{fullShare} f)
    ∗ (o1Loc d ↦[(oR2 L).set]{fullShare} f)
    ∗ (o1Loc d ↦[(oR3 L).set]{fullShare} f)
    ∗ (o1Loc d ↦[(oR4 L).set]{fullShare} f)
    ∗ (o1Loc d ↦[(oR5 L).set]{fullShare} f)
    ∗ (o1Loc d ↦[(oR6 L).set]{fullShare} f)
    ∗ (o1Loc d ↦[(oR7 L).set]{fullShare} f))
/-- and of the second. -/
def chunks2 (d : Dev nD) (L : grid0.Coords) (f : Buf (Elt F) (o2Loc d)) : sProp 𝕄 :=
  iprop((o2Loc d ↦[(oR0 L).set]{fullShare} f)
    ∗ (o2Loc d ↦[(oR1 L).set]{fullShare} f)
    ∗ (o2Loc d ↦[(oR2 L).set]{fullShare} f)
    ∗ (o2Loc d ↦[(oR3 L).set]{fullShare} f)
    ∗ (o2Loc d ↦[(oR4 L).set]{fullShare} f)
    ∗ (o2Loc d ↦[(oR5 L).set]{fullShare} f)
    ∗ (o2Loc d ↦[(oR6 L).set]{fullShare} f)
    ∗ (o2Loc d ↦[(oR7 L).set]{fullShare} f))

/-- What the tile at `L` is handed: its read shares of the ids and the tables, its chunks of the results. -/
def tileIn (m : (ℓ : Loc nD τ sig) → Buf (Elt F) ℓ) (d : Dev nD) (fi : Buf (Elt F) (iLoc d)) (L : grid0.Coords) : sProp 𝕄 :=
  iprop((iLoc d ↦{tq (wid L)} fi) ∗ (t1Loc d ↦{tq (wid L)} m (t1Loc d)) ∗ (t2Loc d ↦{tq (wid L)} m (t2Loc d))
    ∗ chunks1 d L (m (o1Loc d)) ∗ chunks2 d L (m (o2Loc d)))
/-- What it hands back: the same, its chunks of the results at the lookup. -/
def tileOut (m : (ℓ : Loc nD τ sig) → Buf (Elt F) ℓ) (d : Dev nD) (fi : Buf (Elt F) (iLoc d)) (L : grid0.Coords) : sProp 𝕄 :=
  iprop((iLoc d ↦{tq (wid L)} fi) ∗ (t1Loc d ↦{tq (wid L)} m (t1Loc d)) ∗ (t2Loc d ↦{tq (wid L)} m (t2Loc d))
    ∗ chunks1 d L (G1 m d fi) ∗ chunks2 d L (G2 m d fi))

/-! ## The ids as the kernel sees them: the row-major reshape of the flat ids -/

abbrev a' : DevRef τ sig := Proc.devRef .tc (main_arg0 : Ref sig .tc)
abbrev i' : DevRef τ sig := Proc.devRef .tc (main_v0 : Ref sig .tc)
abbrev t1' : DevRef τ sig := Proc.devRef .tc (main_arg1 : Ref sig .tc)
abbrev t2' : DevRef τ sig := Proc.devRef .tc (main_arg2 : Ref sig .tc)
abbrev o1' : DevRef τ sig := Proc.devRef .tc (main_v1_0 : Ref sig .tc)
abbrev o2' : DevRef τ sig := Proc.devRef .tc (main_v1_1 : Ref sig .tc)
/-- @main's one host operation: the ids reshaped to 256 rows of 64. -/
abbrev opR : HloOp τ sig (Elt F) := StableHlo.reshape main_arg0 main_v0 rfl shapeCasts_S16384_S256x64

/-- The launch valuation of device `d`'s arrays. -/
def V0 (m : (ℓ : Loc nD τ sig) → Buf (Elt F) ℓ) (d : Dev nD) : Valuation τ sig (Elt F) := fun b => m (d, b)
/-- The reshaped ids: what the 256×64 array holds once @main's reshape has run. -/
def ids2 (m : (ℓ : Loc nD τ sig) → Buf (Elt F) ℓ) (d : Dev nD) : Buf (Elt F) (iLoc d) := (opR (F := F)).result (V0 m d) i'

end Cert.Proof.KI

end
-- ==== Proof.KIPay.lean ====
/-
  What the launch's handshakes carry for the one call. The TensorCore hands SparseCore `c` what its 16 tiles are handed
  (`tileIn` at each subcore) and gets back what they hand back (`tileOut`); the sequencer hands tile `(c, i)` its
  `tileIn` and gets its `tileOut`. A SparseCore's operands are exactly its tiles' operands, so the split among the
  tiles is a re-indexing. The kernel makes only local copies and waits for them: beside the handshakes' rounds the
  ghost state keeps the transfers' counters, which the launch sets aside.
-/
import proofs.«204537_g11269994185187_cont_sun_m_1261_11_alg».proof.Proof.KIRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The call runs on SparseCores `[0, 2)`, -/
theorem nCore_bound (q : Fin 1) : (K (F := F)).nCore q = grid0.bound 0 := match q with | 0 => rfl
/-- on vector subcores `[0, 16)`. -/
theorem nSub_bound (q : Fin 1) : (K (F := F)).nSub q = grid0.bound 1 := match q with | 0 => rfl

/-- The one call: a SparseCore takes and returns its sixteen tiles' operands and results, a tile its own. -/
def P : (K (F := F)).Pay (nD := nD) (Val := Elt F) (Name := ℕ) (U := UU) where
  st := fun q d c => bigSep Finset.univ fun i : Fin (grid0.bound 1) => tileIn m d (ids2 m d) (coordsV (Fin.cast (nCore_bound q) c) i)
  dn := fun q d c => bigSep Finset.univ fun i : Fin (grid0.bound 1) => tileOut m d (ids2 m d) (coordsV (Fin.cast (nCore_bound q) c) i)
  go := fun q d c i => tileIn m d (ids2 m d) (coordsV (Fin.cast (nCore_bound q) c) (Fin.cast (nSub_bound q) i))
  td := fun q d c i => tileOut m d (ids2 m d) (coordsV (Fin.cast (nCore_bound q) c) (Fin.cast (nSub_bound q) i))
  x := fun _ _ => iprop(emp)

theorem P_st (q : Fin 1) (d : Dev nD) (c : Fin ((K (F := F)).nCore q)) :
    (P m).st q d c = bigSep Finset.univ fun i : Fin (grid0.bound 1) => tileIn m d (ids2 m d) (coordsV (Fin.cast (nCore_bound q) c) i) := rfl
theorem P_dn (q : Fin 1) (d : Dev nD) (c : Fin ((K (F := F)).nCore q)) :
    (P m).dn q d c = bigSep Finset.univ fun i : Fin (grid0.bound 1) => tileOut m d (ids2 m d) (coordsV (Fin.cast (nCore_bound q) c) i) := rfl
theorem P_go (q : Fin 1) (d : Dev nD) (c : Fin ((K (F := F)).nCore q)) (i : Fin ((K (F := F)).nSub q)) :
    (P m).go q d c i = tileIn m d (ids2 m d) (coordsV (Fin.cast (nCore_bound q) c) (Fin.cast (nSub_bound q) i)) := rfl
theorem P_td (q : Fin 1) (d : Dev nD) (c : Fin ((K (F := F)).nCore q)) (i : Fin ((K (F := F)).nSub q)) :
    (P m).td q d c i = tileOut m d (ids2 m d) (coordsV (Fin.cast (nCore_bound q) c) (Fin.cast (nSub_bound q) i)) := rfl
theorem P_x (q : Fin 1) (thr : Thread nD τ) : (P m).x q thr = iprop(emp) := rfl

instance tileIn_storable (d : Dev nD) (fi : Buf (Elt F) (iLoc d)) (L : grid0.Coords) :
    BI.Storable (upEmb : UEmb _ 𝕄) (tileIn m d fi L) := by
  unfold tileIn chunks1 chunks2; infer_instance
instance tileOut_storable (d : Dev nD) (fi : Buf (Elt F) (iLoc d)) (L : grid0.Coords) :
    BI.Storable (upEmb : UEmb _ 𝕄) (tileOut m d fi L) := by
  unfold tileOut chunks1 chunks2; infer_instance

instance P_storable : (P (F := F) m).IsStorable where
  st q d c := by rw [P_st]; infer_instance
  dn q d c := by rw [P_dn]; infer_instance
  go q d c i := by rw [P_go]; infer_instance
  td q d c i := by rw [P_td]; infer_instance

/-! ## A SparseCore's operands are its tiles' -/

/-- A separating conjunction over the call's subcores is one over the grid's second axis. -/
theorem bigSep_tasks (Φ : Fin (grid0.bound 1) → sProp 𝕄) :
    (bigSep Finset.univ fun i : Fin ((K (F := F)).nSub 0) => Φ (Fin.cast (nSub_bound 0) i)) = bigSep Finset.univ Φ :=
  bigSep_congr fun _ _ => congrArg Φ (Fin.ext rfl)

/-- A separating conjunction over the call's SparseCores is one over the grid's first axis. -/
theorem bigSep_cores (Φ : Fin (grid0.bound 0) → sProp 𝕄) :
    (bigSep Finset.univ fun c : Fin ((K (F := F)).nCore 0) => Φ (Fin.cast (nCore_bound 0) c)) = bigSep Finset.univ Φ :=
  bigSep_congr fun _ _ => congrArg Φ (Fin.ext rfl)

theorem vecSplit : (K (F := F)).VecSplit' (P m) 0 := by
  intro d c
  rw [P_st, P_dn]
  simp only [P_go, P_td]
  rw [bigSep_tasks (F := F) (fun i => tileIn m d (ids2 m d) (coordsV (Fin.cast (nCore_bound 0) c) i)),
    bigSep_tasks (F := F) (fun i => tileOut m d (ids2 m d) (coordsV (Fin.cast (nCore_bound 0) c) i))]
  iintro H; imodintro
  isplitl [H]; · iexact H
  iintro H; iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.KI

end
-- ==== Proof.KIViews.lean ====
/-
  The memrefs the tile's body slices, named: its eight rows of the ids in HBM, a row of its list scratch, a table
  sliced whole, a 64-row slot of its row scratch, a 64-row chunk of a result.
-/
import proofs.«204537_g11269994185187_cont_sun_m_1261_11_alg».proof.Proof.KIRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S256x64 EltTy.i32)
local notation "t1V" => (Memref.whole Cert.KernelIdeal.main_arg1_scv : Memref Cert.KernelIdeal.sig Kind.scVector Space.hbm Cert.KernelIdeal.S100000x128 EltTy.f32)
local notation "t2V" => (Memref.whole Cert.KernelIdeal.main_arg2_scv : Memref Cert.KernelIdeal.sig Kind.scVector Space.hbm Cert.KernelIdeal.S100000x128 EltTy.f32)
local notation "o1V" => (Memref.whole Cert.KernelIdeal.main_v1_0_scv : Memref Cert.KernelIdeal.sig Kind.scVector Space.hbm Cert.KernelIdeal.S16384x128 EltTy.f32)
local notation "o2V" => (Memref.whole Cert.KernelIdeal.main_v1_1_scv : Memref Cert.KernelIdeal.sig Kind.scVector Space.hbm Cert.KernelIdeal.S16384x128 EltTy.f32)
local notation "sI" => (Memref.whole Cert.KernelIdeal.cc0_scratch0 : Memref Cert.KernelIdeal.sig Kind.scVector Space.vmem Cert.KernelIdeal.S8x64 EltTy.i32)
local notation "sB" => (Memref.whole Cert.KernelIdeal.cc0_scratch1 : Memref Cert.KernelIdeal.sig Kind.scVector Space.vmem Cert.KernelIdeal.S8x64x128 EltTy.f32)

/-- The tile's eight rows of the 256×64 ids (rows `8·w … 8·w + 7`, `w` its worker number), as its fetch slices them. -/
abbrev iRowsK (L : grid0.Coords) : Memref sig .scVector .hbm S8x64 .i32 :=
  (iV).slice (Rect.unit (s := S256x64) (k0_off1 L) S8x64.size (k0_off1_inb L)) (fun _ => rfl)

/-- Row `off 0` of the list scratch, as a gather names its offset list. -/
abbrev listM (off : Fin 2 → Nat) (inb : ∀ a, off a + S1x64.size a ≤ S8x64.size a) : Memref sig .scVector .vmem S64 .i32 :=
  ((sI).slice (Rect.unit (s := S8x64) off S1x64.size inb) (fun _ => rfl)).squeeze S64 squeezes_S1x64_S64

/-- A table as a gather names its source: sliced whole. -/
abbrev tab1M : Memref sig .scVector .hbm S100000x128 .f32 :=
  (t1V).slice (Rect.unit (s := S100000x128) ![0, 0] S100000x128.size inb_S100000x128_S100000x128_0_0) (fun _ => rfl)
abbrev tab2M : Memref sig .scVector .hbm S100000x128 .f32 :=
  (t2V).slice (Rect.unit (s := S100000x128) ![0, 0] S100000x128.size inb_S100000x128_S100000x128_0_0) (fun _ => rfl)

/-- The eight 64-row slots of the row scratch. -/
abbrev slot0 : Memref sig .scVector .vmem S64x128 .f32 := ((sB).slice (Rect.unit (s := S8x64x128) ![0, 0, 0] S1x64x128.size inb_S8x64x128_S1x64x128_0_0_0) (fun _ => rfl)).squeeze S64x128 squeezes_S1x64x128_S64x128
abbrev slot1 : Memref sig .scVector .vmem S64x128 .f32 := ((sB).slice (Rect.unit (s := S8x64x128) ![1, 0, 0] S1x64x128.size inb_S8x64x128_S1x64x128_1_0_0) (fun _ => rfl)).squeeze S64x128 squeezes_S1x64x128_S64x128
abbrev slot2 : Memref sig .scVector .vmem S64x128 .f32 := ((sB).slice (Rect.unit (s := S8x64x128) ![2, 0, 0] S1x64x128.size inb_S8x64x128_S1x64x128_2_0_0) (fun _ => rfl)).squeeze S64x128 squeezes_S1x64x128_S64x128
abbrev slot3 : Memref sig .scVector .vmem S64x128 .f32 := ((sB).slice (Rect.unit (s := S8x64x128) ![3, 0, 0] S1x64x128.size inb_S8x64x128_S1x64x128_3_0_0) (fun _ => rfl)).squeeze S64x128 squeezes_S1x64x128_S64x128
abbrev slot4 : Memref sig .scVector .vmem S64x128 .f32 := ((sB).slice (Rect.unit (s := S8x64x128) ![4, 0, 0] S1x64x128.size inb_S8x64x128_S1x64x128_4_0_0) (fun _ => rfl)).squeeze S64x128 squeezes_S1x64x128_S64x128
abbrev slot5 : Memref sig .scVector .vmem S64x128 .f32 := ((sB).slice (Rect.unit (s := S8x64x128) ![5, 0, 0] S1x64x128.size inb_S8x64x128_S1x64x128_5_0_0) (fun _ => rfl)).squeeze S64x128 squeezes_S1x64x128_S64x128
abbrev slot6 : Memref sig .scVector .vmem S64x128 .f32 := ((sB).slice (Rect.unit (s := S8x64x128) ![6, 0, 0] S1x64x128.size inb_S8x64x128_S1x64x128_6_0_0) (fun _ => rfl)).squeeze S64x128 squeezes_S1x64x128_S64x128
abbrev slot7 : Memref sig .scVector .vmem S64x128 .f32 := ((sB).slice (Rect.unit (s := S8x64x128) ![7, 0, 0] S1x64x128.size inb_S8x64x128_S1x64x128_7_0_0) (fun _ => rfl)).squeeze S64x128 squeezes_S1x64x128_S64x128

/-- The eight chunks of each result the tile at `L` writes. -/
abbrev o1c0 (L : grid0.Coords) : Memref sig .scVector .hbm S64x128 .f32 := (o1V).slice (oR0 L) (fun _ => rfl)
abbrev o2c0 (L : grid0.Coords) : Memref sig .scVector .hbm S64x128 .f32 := (o2V).slice (oR0 L) (fun _ => rfl)
abbrev o1c1 (L : grid0.Coords) : Memref sig .scVector .hbm S64x128 .f32 := (o1V).slice (oR1 L) (fun _ => rfl)
abbrev o2c1 (L : grid0.Coords) : Memref sig .scVector .hbm S64x128 .f32 := (o2V).slice (oR1 L) (fun _ => rfl)
abbrev o1c2 (L : grid0.Coords) : Memref sig .scVector .hbm S64x128 .f32 := (o1V).slice (oR2 L) (fun _ => rfl)
abbrev o2c2 (L : grid0.Coords) : Memref sig .scVector .hbm S64x128 .f32 := (o2V).slice (oR2 L) (fun _ => rfl)
abbrev o1c3 (L : grid0.Coords) : Memref sig .scVector .hbm S64x128 .f32 := (o1V).slice (oR3 L) (fun _ => rfl)
abbrev o2c3 (L : grid0.Coords) : Memref sig .scVector .hbm S64x128 .f32 := (o2V).slice (oR3 L) (fun _ => rfl)
abbrev o1c4 (L : grid0.Coords) : Memref sig .scVector .hbm S64x128 .f32 := (o1V).slice (oR4 L) (fun _ => rfl)
abbrev o2c4 (L : grid0.Coords) : Memref sig .scVector .hbm S64x128 .f32 := (o2V).slice (oR4 L) (fun _ => rfl)
abbrev o1c5 (L : grid0.Coords) : Memref sig .scVector .hbm S64x128 .f32 := (o1V).slice (oR5 L) (fun _ => rfl)
abbrev o2c5 (L : grid0.Coords) : Memref sig .scVector .hbm S64x128 .f32 := (o2V).slice (oR5 L) (fun _ => rfl)
abbrev o1c6 (L : grid0.Coords) : Memref sig .scVector .hbm S64x128 .f32 := (o1V).slice (oR6 L) (fun _ => rfl)
abbrev o2c6 (L : grid0.Coords) : Memref sig .scVector .hbm S64x128 .f32 := (o2V).slice (oR6 L) (fun _ => rfl)
abbrev o1c7 (L : grid0.Coords) : Memref sig .scVector .hbm S64x128 .f32 := (o1V).slice (oR7 L) (fun _ => rfl)
abbrev o2c7 (L : grid0.Coords) : Memref sig .scVector .hbm S64x128 .f32 := (o2V).slice (oR7 L) (fun _ => rfl)

end Cert.Proof.KI

end
-- ==== Proof.KIVal.lean ====
/-
  The values: what one indirect gather fetched and what one 64-row chunk of a result holds, by chasing an index
  through the views (a row of the list scratch squeezed to a 64-vector, a table sliced whole, a 64-row chunk of a
  result). Row `x` of the gather by list row `j` at the tile of grid point `L` is the table row named by the id at row
  `16·(L 1) + 8·(L 0) + j`, column `x` of the 256×64 ids; the chunk it is copied to starts at row
  `1024·(L 1) + 512·(L 0) + 64·j` of the result, so there the result is the lookup.
-/
import proofs.«204537_g11269994185187_cont_sun_m_1261_11_alg».proof.Proof.KIViews
import Idealize.ShloMosaic.Lib.Writes
import Idealize.ShloMosaic.Lib.ValueIdx
import Idealize.ShloMosaic.Lib.SparseCore.Stream

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S256x64 EltTy.i32)
local notation "t1V" => (Memref.whole Cert.KernelIdeal.main_arg1_scv : Memref Cert.KernelIdeal.sig Kind.scVector Space.hbm Cert.KernelIdeal.S100000x128 EltTy.f32)
local notation "t2V" => (Memref.whole Cert.KernelIdeal.main_arg2_scv : Memref Cert.KernelIdeal.sig Kind.scVector Space.hbm Cert.KernelIdeal.S100000x128 EltTy.f32)
local notation "o1V" => (Memref.whole Cert.KernelIdeal.main_v1_0_scv : Memref Cert.KernelIdeal.sig Kind.scVector Space.hbm Cert.KernelIdeal.S16384x128 EltTy.f32)
local notation "o2V" => (Memref.whole Cert.KernelIdeal.main_v1_1_scv : Memref Cert.KernelIdeal.sig Kind.scVector Space.hbm Cert.KernelIdeal.S16384x128 EltTy.f32)
local notation "sI" => (Memref.whole Cert.KernelIdeal.cc0_scratch0 : Memref Cert.KernelIdeal.sig Kind.scVector Space.vmem Cert.KernelIdeal.S8x64 EltTy.i32)
local notation "sB" => (Memref.whole Cert.KernelIdeal.cc0_scratch1 : Memref Cert.KernelIdeal.sig Kind.scVector Space.vmem Cert.KernelIdeal.S8x64x128 EltTy.f32)

/-- After a list of writes through a view whose last write covers the whole shape, the view reads that write's payload. -/
theorem slot_read {κ : Kind} {sp : Space} {e : EltTy} (v : View sig κ sp S64x128 e) (fb : v.ty.Contents (Elt F))
    (w : (Rect.whole S64x128).shape.Idx → Elt F e) (rest : List (View.Piece (Elt F) S64x128 e)) :
    (ReadAs.same : ReadAs (Elt F) S64x128 e S64x128 e).apply (v.read (Elt F) (v.writes (Elt F) fb (⟨Rect.whole S64x128, w⟩ :: rest))) = w := by
  funext x
  have h := View.read_writes_cons_emb v fb (Rect.whole S64x128) w rest x
  rw [Rect.emb_whole_apply] at h
  exact h

/-- Every word of a row of the list scratch, once the tile's eight rows of the ids have been written over it whole, is
    an id, hence below 100000 under the precondition. -/
theorem inb_of_pre (d : Dev nD) (L : grid0.Coords) (fi : Buf (Elt F) (iLoc d)) (hpre : ∀ y, (fi y).toNat < 100000)
    (g : Buf (Elt F) ((V d (cV L) (jV L)).loc cc0_scratch0))
    (pay : S8x64.Idx → Elt F .i32) (hpay : pay = (iRowsK L).view.read (Elt F) fi) (off : Fin 2 → Nat)
    (inb : ∀ a, off a + S1x64.size a ≤ S8x64.size a) :
    ∀ x, ((listM off inb).view.read (Elt F) (View.write (Elt F) (sI).view g pay Finset.univ) x).toNat < 100000 := by
  intro x
  subst hpay
  rw [View.read_apply]
  erw [View.write_whole_univ]
  rw [cast_eq, View.read_apply, cast_eq]
  exact hpre _

/-! ## Bounds -/
theorem L0_lt (L : grid0.Coords) : (L 0).val < 2 := (L 0).isLt
theorem L1_lt (L : grid0.Coords) : (L 1).val < 16 := (L 1).isLt
/-- Row `j` of the tile's eight rows of the ids is a row of the 256. -/
theorem listRow_lt (L : grid0.Coords) {j : ℕ} (hj : j < 8) : 16 * (L 1).val + 8 * (L 0).val + j < 256 := by
  have h0 := L0_lt L; have h1 := L1_lt L; omega

/-- what slot/chunk row x of list row j names -/
def rowVal {α : Type} (L : grid0.Coords) (fi : Cert.Spec.SIds2.Idx → BitVec 32) (hfi : ∀ y, (fi y).toNat < 100000)
    (tab : Cert.Spec.STab.Idx → α) (j : ℕ) (hj : j < 8) : S64x128.Idx → α :=
  fun x => tab (ix2 (⟨(fi (ix2 (⟨16 * (L 1).val + 8 * (L 0).val + j, listRow_lt L hj⟩ : Fin 256) (⟨(x 0).val, idx2_lt0 x⟩ : Fin 64))).toNat, hfi _⟩ : Fin 100000)
    (⟨(x 1).val, idx2_lt1 x⟩ : Fin 128))

/-- The index of a 64-vector matched with a 1×64 index is that index behind the coordinate 0. -/
theorem sq64_coord0 (h : S64.numel = S1x64.numel) (z : S64.Idx) : ((Shape.reshapeEquiv h z) 0).val = 0 := by
  have h1 := Shape.rowMajor_reshapeEquiv h z
  rw [Shape.rowMajor_val_two, Shape.rowMajor_val_one] at h1
  have h2 := idx2_lt0 (Shape.reshapeEquiv h z)
  omega
theorem sq64_coord1 (h : S64.numel = S1x64.numel) (z : S64.Idx) : ((Shape.reshapeEquiv h z) 1).val = (z 0).val := by
  have h1 := Shape.rowMajor_reshapeEquiv h z
  rw [Shape.rowMajor_val_two, Shape.rowMajor_val_one] at h1
  have h2 := idx2_lt0 (Shape.reshapeEquiv h z)
  have h3 : (![1, 64] : Fin 2 → ℕ) 1 = 64 := rfl
  rw [h3] at h1
  omega

/-- The `k`-th index of a 64-vector in row-major order has coordinate `k`. -/
theorem rm64_symm_val (k : Fin S64.numel) : ((S64.rowMajor.symm k) 0).val = k.val := by
  have h := Shape.rowMajor_val_one (S64.rowMajor.symm k)
  rw [Equiv.apply_symm_apply] at h
  exact h.symm

/-- A word of row `j` of the list scratch, once the tile's eight rows of the ids are written over it whole: the id at
    row `16·(L 1) + 8·(L 0) + j` of the 256×64 ids, same column. -/
theorem list_read (d : Dev nD) (L : grid0.Coords) (fi : Buf (Elt F) (iLoc d))
    (g : Buf (Elt F) ((V d (cV L) (jV L)).loc cc0_scratch0)) (j : ℕ) (hj : j < 8)
    (inb : ∀ a, (![j, 0] : Fin 2 → Nat) a + S1x64.size a ≤ S8x64.size a) (z : S64.Idx) (n : ℕ) (hn : (z 0).val = n) (hn' : n < 64) :
    (listM ![j, 0] inb).view.read (Elt F) (View.write (Elt F) (sI).view g (ReadAs.same.apply ((iRowsK L).view.read (Elt F) fi)) Finset.univ) z
      = fi (ix2 (⟨16 * (L 1).val + 8 * (L 0).val + j, listRow_lt L hj⟩ : Fin 256) (⟨n, hn'⟩ : Fin 64)) := by
  rw [View.read_apply]
  erw [View.write_whole_univ]
  rw [cast_eq]
  show (iRowsK L).view.read (Elt F) fi _ = _
  rw [View.read_apply, cast_eq]
  refine congrArg fi (funext fun a => Fin.ext ?_)
  match a with
  | ⟨0, _⟩ =>
    show k0_off1 L 0 + 1 * (![j, 0] 0 + 1 * ((Shape.reshapeEquiv _ z) 0).val) = 16 * (L 1).val + 8 * (L 0).val + j
    rw [sq64_coord0, k0_off1_eq]
    show 16 * (L 1).val + 8 * (L 0).val + 1 * (j + 1 * 0) = _
    omega
  | ⟨1, _⟩ =>
    show k0_off1 L 1 + 1 * (![j, 0] 1 + 1 * ((Shape.reshapeEquiv _ z) 1).val) = n
    rw [sq64_coord1, k0_off1_eq, hn]
    show 0 + 1 * (0 + 1 * n) = n
    omega

/-- What the gather of table 1 by row `j` of the list scratch fetched. -/
theorem gather1_val (d : Dev nD) (L : grid0.Coords) (fi : Buf (Elt F) (iLoc d)) (hfi : ∀ y, (fi y).toNat < 100000)
    (tab : Buf (Elt F) (t1Loc d)) (g : Buf (Elt F) ((V d (cV L) (jV L)).loc cc0_scratch0)) (j : ℕ) (hj : j < 8)
    (inb : ∀ a, (![j, 0] : Fin 2 → Nat) a + S1x64.size a ≤ S8x64.size a)
    (hn : S64.numel = S64x128.size (Facts₀.gathers_S100000x128_S64x128).axis')
    (hin : ∀ x, ((listM ![j, 0] inb).view.read (Elt F) (View.write (Elt F) (sI).view g (ReadAs.same.apply ((iRowsK L).view.read (Elt F) fi)) Finset.univ) x).toNat < 100000)
    (x : S64x128.Idx) :
    SparseCore.gatherPayload Facts₀.gathers_S100000x128_S64x128 ((tab1M).view.read (Elt F) tab)
        (SparseCore.rows ((listM ![j, 0] inb).view.read (Elt F) (View.write (Elt F) (sI).view g (ReadAs.same.apply ((iRowsK L).view.read (Elt F) fi)) Finset.univ)) hn hin) x
      = rowVal L fi hfi tab j hj x := by
  unfold SparseCore.gatherPayload rowVal
  rw [View.read_apply, cast_eq]
  refine congrArg tab (funext fun a => Fin.ext ?_)
  match a with
  | ⟨0, _⟩ =>
    have e0 := Shape.Gathers.idx_axis Facts₀.gathers_S100000x128_S64x128
      (SparseCore.rows ((listM ![j, 0] inb).view.read (Elt F) (View.write (Elt F) (sI).view g (ReadAs.same.apply ((iRowsK L).view.read (Elt F) fi)) Finset.univ)) hn hin) x
    show 0 + 1 * ((Facts₀.gathers_S100000x128_S64x128).idx _ x (Facts₀.gathers_S100000x128_S64x128).axis).val = _
    rw [e0]
    show 0 + 1 * ((listM ![j, 0] inb).view.read (Elt F) _ (S64.rowMajor.symm _)).toNat = _
    have hz : ((S64.rowMajor.symm (Fin.cast hn.symm (x (Facts₀.gathers_S100000x128_S64x128).axis'))) 0).val = (x 0).val :=
      rm64_symm_val _
    rw [list_read d L fi g j hj inb _ (x 0).val hz (idx2_lt0 x)]
    show 0 + 1 * (fi _).toNat = (fi _).toNat
    omega
  | ⟨1, _⟩ =>
    have e1 := Shape.Gathers.idx_of_ne Facts₀.gathers_S100000x128_S64x128
      (SparseCore.rows ((listM ![j, 0] inb).view.read (Elt F) (View.write (Elt F) (sI).view g (ReadAs.same.apply ((iRowsK L).view.read (Elt F) fi)) Finset.univ)) hn hin) x
      (1 : Fin 2) (by decide)
    show 0 + 1 * ((Facts₀.gathers_S100000x128_S64x128).idx _ x 1).val = (x 1).val
    rw [e1]
    show 0 + 1 * (x 1).val = (x 1).val
    omega

/-- What the gather of table 2 by row `j` of the list scratch fetched. -/
theorem gather2_val (d : Dev nD) (L : grid0.Coords) (fi : Buf (Elt F) (iLoc d)) (hfi : ∀ y, (fi y).toNat < 100000)
    (tab : Buf (Elt F) (t2Loc d)) (g : Buf (Elt F) ((V d (cV L) (jV L)).loc cc0_scratch0)) (j : ℕ) (hj : j < 8)
    (inb : ∀ a, (![j, 0] : Fin 2 → Nat) a + S1x64.size a ≤ S8x64.size a)
    (hn : S64.numel = S64x128.size (Facts₀.gathers_S100000x128_S64x128).axis')
    (hin : ∀ x, ((listM ![j, 0] inb).view.read (Elt F) (View.write (Elt F) (sI).view g (ReadAs.same.apply ((iRowsK L).view.read (Elt F) fi)) Finset.univ) x).toNat < 100000)
    (x : S64x128.Idx) :
    SparseCore.gatherPayload Facts₀.gathers_S100000x128_S64x128 ((tab2M).view.read (Elt F) tab)
        (SparseCore.rows ((listM ![j, 0] inb).view.read (Elt F) (View.write (Elt F) (sI).view g (ReadAs.same.apply ((iRowsK L).view.read (Elt F) fi)) Finset.univ)) hn hin) x
      = rowVal L fi hfi tab j hj x := by
  unfold SparseCore.gatherPayload rowVal
  rw [View.read_apply, cast_eq]
  refine congrArg tab (funext fun a => Fin.ext ?_)
  match a with
  | ⟨0, _⟩ =>
    have e0 := Shape.Gathers.idx_axis Facts₀.gathers_S100000x128_S64x128
      (SparseCore.rows ((listM ![j, 0] inb).view.read (Elt F) (View.write (Elt F) (sI).view g (ReadAs.same.apply ((iRowsK L).view.read (Elt F) fi)) Finset.univ)) hn hin) x
    show 0 + 1 * ((Facts₀.gathers_S100000x128_S64x128).idx _ x (Facts₀.gathers_S100000x128_S64x128).axis).val = _
    rw [e0]
    show 0 + 1 * ((listM ![j, 0] inb).view.read (Elt F) _ (S64.rowMajor.symm _)).toNat = _
    have hz : ((S64.rowMajor.symm (Fin.cast hn.symm (x (Facts₀.gathers_S100000x128_S64x128).axis'))) 0).val = (x 0).val :=
      rm64_symm_val _
    rw [list_read d L fi g j hj inb _ (x 0).val hz (idx2_lt0 x)]
    show 0 + 1 * (fi _).toNat = (fi _).toNat
    omega
  | ⟨1, _⟩ =>
    have e1 := Shape.Gathers.idx_of_ne Facts₀.gathers_S100000x128_S64x128
      (SparseCore.rows ((listM ![j, 0] inb).view.read (Elt F) (View.write (Elt F) (sI).view g (ReadAs.same.apply ((iRowsK L).view.read (Elt F) fi)) Finset.univ)) hn hin) x
      (1 : Fin 2) (by decide)
    show 0 + 1 * ((Facts₀.gathers_S100000x128_S64x128).idx _ x 1).val = (x 1).val
    rw [e1]
    show 0 + 1 * (x 1).val = (x 1).val
    omega

/-! ## A chunk of a result -/

/-- The lookup read at an index whose row is `64·R + C` and whose column is `l`, the id there in range. -/
theorem take2_at {α : Type} (fi : Cert.Spec.SIds2.Idx → BitVec 32) (tab : Cert.Spec.STab.Idx → α) (y : Cert.Spec.SOut.Idx)
    (R : Fin 256) (C : Fin 64) (l : Fin 128) (hR : (y 0).val / 64 = R.val) (hC : (y 0).val % 64 = C.val) (hl : (y 1).val = l.val)
    (h : (fi (ix2 R C)).toNat < 100000) :
    Cert.Spec.take2 fi tab y = tab (ix2 (⟨(fi (ix2 R C)).toNat, h⟩ : Fin 100000) l) := by
  unfold Cert.Spec.take2
  have e1 : (⟨(y 0).val / 64, Cert.Spec.div64_lt (idx2_lt0 y)⟩ : Fin 256) = R := Fin.ext hR
  have e2 : (⟨(y 0).val % 64, Cert.Spec.mod64_lt _⟩ : Fin 64) = C := Fin.ext hC
  have e3 : (⟨(y 1).val, idx2_lt1 y⟩ : Fin 128) = l := Fin.ext hl
  rw [e1, e2, e3]
  exact congrArg (fun r => tab (ix2 r l)) (Fin.ext (Cert.Spec.rowOf_val_of_lt h))

/-- Chunk `j` of the first result that the tile at `L` writes, the chunk's number a variable. -/
abbrev o1cN (L : grid0.Coords) (j : ℕ) (hj : j < 8) : Memref sig .scVector .hbm S64x128 .f32 :=
  (o1V).slice (Rect.unit (s := S16384x128) (k0_off2 L (BitVec.ofNat 32 (64 * j))) S64x128.size (k0_off2_inb L ⟨j, hj⟩)) (fun _ => rfl)
/-- The same of the second result. -/
abbrev o2cN (L : grid0.Coords) (j : ℕ) (hj : j < 8) : Memref sig .scVector .hbm S64x128 .f32 :=
  (o2V).slice (Rect.unit (s := S16384x128) (k0_off2 L (BitVec.ofNat 32 (64 * j))) S64x128.size (k0_off2_inb L ⟨j, hj⟩)) (fun _ => rfl)

theorem off2_eq (L : grid0.Coords) (j : ℕ) (hj : j < 8) :
    k0_off2 L (BitVec.ofNat 32 (64 * j)) = ![1024 * (L 1).val + 512 * (L 0).val + 64 * j, 0] := k0_off2_eq L ⟨j, hj⟩

/-- Chunk `j` of the first result, written whole with what list row `j` names, holds the lookup. -/
theorem chunk1_val (d : Dev nD) (L : grid0.Coords) (fi : Buf (Elt F) (iLoc d)) (hfi : ∀ y, (fi y).toNat < 100000)
    (f0 : Buf (Elt F) (o1Loc d)) (tab : Buf (Elt F) (t1Loc d)) (j : ℕ) (hj : j < 8) (pay : S64x128.Idx → Elt F .f32)
    (hpay : ∀ x, pay x = rowVal L fi hfi tab j hj x) :
    ∀ i ∈ (o1cN L j hj).view.set, (o1cN L j hj).view.writes (Elt F) f0 [⟨Rect.whole S64x128, pay⟩] i = Cert.Spec.take2 fi tab i := by
  intro i hi
  obtain ⟨x, -, rfl⟩ := Finset.mem_map.mp hi
  have hoff := off2_eq L j hj
  have h0 := L0_lt L
  have h1 := L1_lt L
  have hx0 : (x 0).val < 64 := idx2_lt0 x
  rw [View.writes_singleton]
  have e : (o1cN L j hj).view.emb x = ((o1cN L j hj).view.slice (Rect.whole S64x128)).emb x := by
    show _ = (o1cN L j hj).view.emb ((Rect.whole S64x128).emb x)
    rw [Rect.emb_whole_apply]
  rw [e, View.write_emb_of_mem _ _ (Finset.mem_univ _), cast_eq, hpay, ← e]
  refine (take2_at fi tab ((o1cN L j hj).view.emb x) ⟨16 * (L 1).val + 8 * (L 0).val + j, listRow_lt L hj⟩ ⟨(x 0).val, idx2_lt0 x⟩
    ⟨(x 1).val, idx2_lt1 x⟩ ?_ ?_ ?_ (hfi _)).symm
  · show (k0_off2 L (BitVec.ofNat 32 (64 * j)) 0 + 1 * (x 0).val) / 64 = 16 * (L 1).val + 8 * (L 0).val + j
    rw [hoff]
    show (1024 * (L 1).val + 512 * (L 0).val + 64 * j + 1 * (x 0).val) / 64 = _
    omega
  · show (k0_off2 L (BitVec.ofNat 32 (64 * j)) 0 + 1 * (x 0).val) % 64 = (x 0).val
    rw [hoff]
    show (1024 * (L 1).val + 512 * (L 0).val + 64 * j + 1 * (x 0).val) % 64 = _
    omega
  · show k0_off2 L (BitVec.ofNat 32 (64 * j)) 1 + 1 * (x 1).val = (x 1).val
    rw [hoff]
    show 0 + 1 * (x 1).val = _
    omega
/-- Chunk `j` of the second result, written whole with what list row `j` names, holds the lookup. -/
theorem chunk2_val (d : Dev nD) (L : grid0.Coords) (fi : Buf (Elt F) (iLoc d)) (hfi : ∀ y, (fi y).toNat < 100000)
    (f0 : Buf (Elt F) (o2Loc d)) (tab : Buf (Elt F) (t2Loc d)) (j : ℕ) (hj : j < 8) (pay : S64x128.Idx → Elt F .f32)
    (hpay : ∀ x, pay x = rowVal L fi hfi tab j hj x) :
    ∀ i ∈ (o2cN L j hj).view.set, (o2cN L j hj).view.writes (Elt F) f0 [⟨Rect.whole S64x128, pay⟩] i = Cert.Spec.take2 fi tab i := by
  intro i hi
  obtain ⟨x, -, rfl⟩ := Finset.mem_map.mp hi
  have hoff := off2_eq L j hj
  have h0 := L0_lt L
  have h1 := L1_lt L
  have hx0 : (x 0).val < 64 := idx2_lt0 x
  rw [View.writes_singleton]
  have e : (o2cN L j hj).view.emb x = ((o2cN L j hj).view.slice (Rect.whole S64x128)).emb x := by
    show _ = (o2cN L j hj).view.emb ((Rect.whole S64x128).emb x)
    rw [Rect.emb_whole_apply]
  rw [e, View.write_emb_of_mem _ _ (Finset.mem_univ _), cast_eq, hpay, ← e]
  refine (take2_at fi tab ((o2cN L j hj).view.emb x) ⟨16 * (L 1).val + 8 * (L 0).val + j, listRow_lt L hj⟩ ⟨(x 0).val, idx2_lt0 x⟩
    ⟨(x 1).val, idx2_lt1 x⟩ ?_ ?_ ?_ (hfi _)).symm
  · show (k0_off2 L (BitVec.ofNat 32 (64 * j)) 0 + 1 * (x 0).val) / 64 = 16 * (L 1).val + 8 * (L 0).val + j
    rw [hoff]
    show (1024 * (L 1).val + 512 * (L 0).val + 64 * j + 1 * (x 0).val) / 64 = _
    omega
  · show (k0_off2 L (BitVec.ofNat 32 (64 * j)) 0 + 1 * (x 0).val) % 64 = (x 0).val
    rw [hoff]
    show (1024 * (L 1).val + 512 * (L 0).val + 64 * j + 1 * (x 0).val) % 64 = _
    omega
  · show k0_off2 L (BitVec.ofNat 32 (64 * j)) 1 + 1 * (x 1).val = (x 1).val
    rw [hoff]
    show 0 + 1 * (x 1).val = _
    omega

end Cert.Proof.KI

end
-- ==== Proof.KISlots.lean ====
/-
  The row scratch (8×64×128) as its eight 64-row slots: the slots partition it by the first coordinate, so the whole
  array at one contents is the eight slots at those contents, and the eight slots at contents of their own join to
  the whole array at some contents.
-/
import proofs.«204537_g11269994185187_cont_sun_m_1261_11_alg».proof.Proof.KIViews
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S256x64 EltTy.i32)
local notation "t1V" => (Memref.whole Cert.KernelIdeal.main_arg1_scv : Memref Cert.KernelIdeal.sig Kind.scVector Space.hbm Cert.KernelIdeal.S100000x128 EltTy.f32)
local notation "t2V" => (Memref.whole Cert.KernelIdeal.main_arg2_scv : Memref Cert.KernelIdeal.sig Kind.scVector Space.hbm Cert.KernelIdeal.S100000x128 EltTy.f32)
local notation "o1V" => (Memref.whole Cert.KernelIdeal.main_v1_0_scv : Memref Cert.KernelIdeal.sig Kind.scVector Space.hbm Cert.KernelIdeal.S16384x128 EltTy.f32)
local notation "o2V" => (Memref.whole Cert.KernelIdeal.main_v1_1_scv : Memref Cert.KernelIdeal.sig Kind.scVector Space.hbm Cert.KernelIdeal.S16384x128 EltTy.f32)
local notation "sI" => (Memref.whole Cert.KernelIdeal.cc0_scratch0 : Memref Cert.KernelIdeal.sig Kind.scVector Space.vmem Cert.KernelIdeal.S8x64 EltTy.i32)
local notation "sB" => (Memref.whole Cert.KernelIdeal.cc0_scratch1 : Memref Cert.KernelIdeal.sig Kind.scVector Space.vmem Cert.KernelIdeal.S8x64x128 EltTy.f32)

/-! ## The eight slots partition the row scratch by the first coordinate -/

theorem slot_inb (b : Fin 8) : ∀ a, (![b.val, 0, 0] : Fin 3 → Nat) a + S1x64x128.size a ≤ S8x64x128.size a := by
  intro a
  have hb := b.isLt
  match a with
  | ⟨0, _⟩ => show b.val + 1 ≤ 8; omega
  | ⟨1, _⟩ => show 0 + 64 ≤ 64; omega
  | ⟨2, _⟩ => show 0 + 128 ≤ 128; omega

/-- Slot `b`'s elements of the 8×64×128 scratch. -/
def slotSet (b : Fin 8) : Finset S8x64x128.Idx :=
  (Rect.unit (s := S8x64x128) ![b.val, 0, 0] S1x64x128.size (slot_inb b)).set

/-- An index lies in slot `b` exactly when its first coordinate is `b`. -/
theorem mem_slotSet (b : Fin 8) (y : S8x64x128.Idx) : y ∈ slotSet b ↔ (y 0).val = b.val := by
  unfold slotSet
  rw [Rect.mem_set_unit]
  constructor
  · intro h
    have h0 := h 0
    change b.val ≤ (y 0).val ∧ (y 0).val < b.val + 1 at h0
    omega
  · intro h a
    match a with
    | ⟨0, _⟩ => show b.val ≤ (y 0).val ∧ (y 0).val < b.val + 1; omega
    | ⟨1, _⟩ =>
      have h1 : (y 1).val < 64 := (y 1).isLt
      show 0 ≤ (y 1).val ∧ (y 1).val < 0 + 64; omega
    | ⟨2, _⟩ =>
      have h2 : (y 2).val < 128 := (y 2).isLt
      show 0 ≤ (y 2).val ∧ (y 2).val < 0 + 128; omega

theorem slot_disjoint :
    ∀ t ∈ (Finset.univ : Finset (Fin 8)), ∀ t' ∈ (Finset.univ : Finset (Fin 8)), t ≠ t' → Disjoint (slotSet t) (slotSet t') := by
  intro t _ t' _ hne
  rw [Finset.disjoint_left]
  intro y hy hy'
  rw [mem_slotSet] at hy hy'
  exact hne (Fin.ext (hy.symm.trans hy'))

theorem slot_cover : (Finset.univ : Finset (Fin 8)).biUnion slotSet = Finset.univ := by
  ext y
  simp only [Finset.mem_biUnion, Finset.mem_univ, true_and, iff_true]
  have h0 : (y 0).val < 8 := (y 0).isLt
  exact ⟨⟨(y 0).val, h0⟩, (mem_slotSet _ y).mpr rfl⟩

/-- A separating conjunction over the eight slot numbers, written out. -/
theorem bigSep_slots8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem set_slot0 : (slot0).view.set = slotSet 0 := (View.set_reshape _ _).trans (View.set_slice_whole _ _)
theorem set_slot1 : (slot1).view.set = slotSet 1 := (View.set_reshape _ _).trans (View.set_slice_whole _ _)
theorem set_slot2 : (slot2).view.set = slotSet 2 := (View.set_reshape _ _).trans (View.set_slice_whole _ _)
theorem set_slot3 : (slot3).view.set = slotSet 3 := (View.set_reshape _ _).trans (View.set_slice_whole _ _)
theorem set_slot4 : (slot4).view.set = slotSet 4 := (View.set_reshape _ _).trans (View.set_slice_whole _ _)
theorem set_slot5 : (slot5).view.set = slotSet 5 := (View.set_reshape _ _).trans (View.set_slice_whole _ _)
theorem set_slot6 : (slot6).view.set = slotSet 6 := (View.set_reshape _ _).trans (View.set_slice_whole _ _)
theorem set_slot7 : (slot7).view.set = slotSet 7 := (View.set_reshape _ _).trans (View.set_slice_whole _ _)

section Slots
variable (d : Dev nD) (c : Fin τ.nSC) (i : Fin τ.nSub)

/-- The row scratch, whole, is its eight slots. -/
theorem sB_split (f : Buf (Elt F) ((sB).view.loc (V d c i))) :
    ((sB).view.loc (V d c i) ↦{fullShare} f : sProp 𝕄)
      = iprop(((slot0).view.loc (V d c i) ↦[(slot0).view.set]{fullShare} f) ∗ ((slot1).view.loc (V d c i) ↦[(slot1).view.set]{fullShare} f)
        ∗ ((slot2).view.loc (V d c i) ↦[(slot2).view.set]{fullShare} f) ∗ ((slot3).view.loc (V d c i) ↦[(slot3).view.set]{fullShare} f)
        ∗ ((slot4).view.loc (V d c i) ↦[(slot4).view.set]{fullShare} f) ∗ ((slot5).view.loc (V d c i) ↦[(slot5).view.set]{fullShare} f)
        ∗ ((slot6).view.loc (V d c i) ↦[(slot6).view.set]{fullShare} f) ∗ ((slot7).view.loc (V d c i) ↦[(slot7).view.set]{fullShare} f)) := by
  rw [set_slot0, set_slot1, set_slot2, set_slot3, set_slot4, set_slot5, set_slot6, set_slot7]
  refine Eq.trans ?_ (bigSep_slots8 (F := F) fun b => ((sB).view.loc (V d c i) ↦[slotSet b]{fullShare} f : sProp 𝕄))
  rw [← pointsTo_biUnion Finset.univ (ℓ := (sB).view.loc (V d c i)) slotSet slot_disjoint, slot_cover]

/-- The eight slots, each at contents of its own, are the row scratch whole at some contents. -/
theorem sB_join (f0 f1 f2 f3 f4 f5 f6 f7 : Buf (Elt F) ((sB).view.loc (V d c i))) :
    iprop(((slot0).view.loc (V d c i) ↦[(slot0).view.set]{fullShare} f0) ∗ ((slot1).view.loc (V d c i) ↦[(slot1).view.set]{fullShare} f1)
        ∗ ((slot2).view.loc (V d c i) ↦[(slot2).view.set]{fullShare} f2) ∗ ((slot3).view.loc (V d c i) ↦[(slot3).view.set]{fullShare} f3)
        ∗ ((slot4).view.loc (V d c i) ↦[(slot4).view.set]{fullShare} f4) ∗ ((slot5).view.loc (V d c i) ↦[(slot5).view.set]{fullShare} f5)
        ∗ ((slot6).view.loc (V d c i) ↦[(slot6).view.set]{fullShare} f6) ∗ ((slot7).view.loc (V d c i) ↦[(slot7).view.set]{fullShare} f7))
      ⊢ (iprop(∃ g, (V d c i).loc cc0_scratch1 ↦{fullShare} g) : sProp 𝕄) := by
  rw [set_slot0, set_slot1, set_slot2, set_slot3, set_slot4, set_slot5, set_slot6, set_slot7]
  have hj : bigSep (Finset.univ : Finset (Fin 8)) (fun t => ((sB).view.loc (V d c i) ↦[slotSet t]{fullShare}
        (![f0, f1, f2, f3, f4, f5, f6, f7] : Fin 8 → Buf (Elt F) ((sB).view.loc (V d c i))) t : sProp 𝕄))
      ⊢ (iprop(∃ g, ⌜∀ t ∈ (Finset.univ : Finset (Fin 8)), ∀ i' ∈ slotSet t,
            g i' = (![f0, f1, f2, f3, f4, f5, f6, f7] : Fin 8 → Buf (Elt F) ((sB).view.loc (V d c i))) t i'⌝
          ∗ (sB).view.loc (V d c i) ↦[(Finset.univ : Finset (Fin 8)).biUnion slotSet]{fullShare} g) : sProp 𝕄) :=
    pointsTo_biUnion_join _ _ _ f0 slot_disjoint
  rw [bigSep_slots8, slot_cover] at hj
  refine hj.trans ?_
  iintro ⟨%g, -, H⟩
  iexists g
  iexact H

end Slots

end Cert.Proof.KI

end
-- ==== Proof.KITile.lean ====
/-
  One tile's task, at a symbolic grid point `L` (SparseCore `L 0`, subcore `L 1`; worker `w = 2·(L 1) + (L 0)`).

  The task fetches rows `8w … 8w+7` of the 256×64 ids into its list scratch, then moves sixteen 64-row pieces —
  for each table, for each list row `j` — through a ring of eight 64×128 slots: an indirect gather of the table rows
  the list row names into a slot, then a copy of the slot out to rows `[512w + 64j, +64)` of that table's result.
  Seven gathers are in flight before the first wait; a slot is gathered into again only after its copy out has been
  waited for, and every semaphore carries at most one transfer at a time, so the run needs no schedule: each
  transfer's wait hands back exactly what its issue lent.

  Held while it runs: a read share of the ids and of each table (the tables' split once more into one token per
  gather semaphore, so that several gathers read a table at once), the list scratch whole, the row scratch slot by
  slot, and the tile's eight chunks of each result, each by exactly its own elements. What the run leaves in chunk
  `j` of a result is the slot's contents when the copy was issued, that is the gather's payload: element `(x₀, x₁)`
  is the table at row `ids2[8w + j, x₀]`, column `x₁`, and `(512w + 64j + x₀) / 64 = 8w + j`, `… % 64 = x₀`: the
  lookup at that element of the result.
-/
import proofs.«204537_g11269994185187_cont_sun_m_1261_11_alg».proof.Proof.KIViews
import proofs.«204537_g11269994185187_cont_sun_m_1261_11_alg».proof.Proof.KIVal
import proofs.«204537_g11269994185187_cont_sun_m_1261_11_alg».proof.Proof.KISlots

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S256x64 EltTy.i32)
local notation "t1V" => (Memref.whole Cert.KernelIdeal.main_arg1_scv : Memref Cert.KernelIdeal.sig Kind.scVector Space.hbm Cert.KernelIdeal.S100000x128 EltTy.f32)
local notation "t2V" => (Memref.whole Cert.KernelIdeal.main_arg2_scv : Memref Cert.KernelIdeal.sig Kind.scVector Space.hbm Cert.KernelIdeal.S100000x128 EltTy.f32)
local notation "o1V" => (Memref.whole Cert.KernelIdeal.main_v1_0_scv : Memref Cert.KernelIdeal.sig Kind.scVector Space.hbm Cert.KernelIdeal.S16384x128 EltTy.f32)
local notation "o2V" => (Memref.whole Cert.KernelIdeal.main_v1_1_scv : Memref Cert.KernelIdeal.sig Kind.scVector Space.hbm Cert.KernelIdeal.S16384x128 EltTy.f32)
local notation "sI" => (Memref.whole Cert.KernelIdeal.cc0_scratch0 : Memref Cert.KernelIdeal.sig Kind.scVector Space.vmem Cert.KernelIdeal.S8x64 EltTy.i32)
local notation "sB" => (Memref.whole Cert.KernelIdeal.cc0_scratch1 : Memref Cert.KernelIdeal.sig Kind.scVector Space.vmem Cert.KernelIdeal.S8x64x128 EltTy.f32)

variable (m : (ℓ : Loc nD τ sig) → Buf (Elt F) ℓ)
variable [FloatOps F]

omit [FloatOps F] in
/-- A points-to at a share is what remains after eight read tokens are split off, and the eight tokens. -/
theorem pts_tok8 {ℓ : Loc nD τ sig} (q : PosShare TreeShare) (f : Buf (Elt F) ℓ) :
    (ℓ ↦{q} f : sProp 𝕄) ⊣⊢ iprop((ℓ ↦{Transfers.shareDrop q 8} f) ∗ (ℓ ↦{Transfers.shareTokN q 0} f) ∗ (ℓ ↦{Transfers.shareTokN q 1} f)
      ∗ (ℓ ↦{Transfers.shareTokN q 2} f) ∗ (ℓ ↦{Transfers.shareTokN q 3} f) ∗ (ℓ ↦{Transfers.shareTokN q 4} f) ∗ (ℓ ↦{Transfers.shareTokN q 5} f)
      ∗ (ℓ ↦{Transfers.shareTokN q 6} f) ∗ (ℓ ↦{Transfers.shareTokN q 7} f)) := by
  have h := Transfers.pointsTo_toks_range (nD := nD) (τ := τ) (sig := sig) (Ix := HIx 1) (Val := Elt F) (Name := ℕ) (U := UU) (Lvl := ℕ) (ℓ := ℓ) (S := Finset.univ) (f := f) q 8
  rw [show Finset.range 8 = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton] at h
  exact h

omit [FloatOps F] in
/-- A wait recorded at the kernel's own index keeps the record within what the launch allows. -/
theorem waits_ins {W' W : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

section Tile
variable (d : Dev nD) (L : grid0.Coords)

set_option maxHeartbeats 4000000 in
/-- The task: from its read shares and its chunks of the results at their launch contents, to the same with the
    chunks at the lookup; its scratch arrays and semaphores back as it found them (the semaphores at zero). -/
theorem tile_body (hF : (K (F := F)).Facts) (fi : Buf (Elt F) (iLoc d)) (hpre : ∀ y, (fi y).toNat < 100000)
    (O : CellTallies nD τ sig (HIx 1)) (W : Waits sig (HIx 1)) (hO : ∀ g, O g none = 0) :
    iprop(levAts (K (F := F)).L (K (F := F)).lev ∗ emp
        ∗ tileIn m d fi L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__dual_gather L iV (Memref.isWhole_whole _) t1V (Memref.isWhole_whole _) t2V (Memref.isWhole_whole _) o1V (Memref.isWhole_whole _) o2V (Memref.isWhole_whole _)
            sI (Memref.isWhole_whole _) sB (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0)
          fun _ => iprop(tileOut m d fi L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__dual_gather_eq_skeleton]; unfold cc0__dual_gather_skel
  rw [(K (F := F)).scopedBufs_V hF d (cV L) (jV L), SparseCore.Cfg.scopedSems0_V (Val := Elt F) d (cV L) (jV L), ownSems0_V, ownBufs_V]
  unfold tileIn tileOut chunks1 chunks2
  iintro ⟨#Hlv, -, ⟨Hi, Ht1, Ht2, ⟨Ha0, Ha1, Ha2, Ha3, Ha4, Ha5, Ha6, Ha7⟩, ⟨Hb0, Hb1, Hb2, Hb3, Hb4, Hb5, Hb6, Hb7⟩⟩, ⟨⟨%fs, Hs⟩, ⟨%fb, Hb⟩, Hbufs⟩, ⟨Hsem0, Hsem1, Hsem2, Hsem3, Hsem4, Hsem5, Hsem6, Hsem7, Hsem8, Hsem9, Hsem10, Hsem11, Hsem12, Hsem13, Hsem14, Hsem15, Hsem16⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the buffers, respelt as the tile's memrefs address them; the row scratch slot by slot
  ihave Hs' := (Entails.of_eq (show ((V d (cV L) (jV L)).loc cc0_scratch0 ↦{fullShare} fs : sProp 𝕄) = (sI).view.loc (V d (cV L) (jV L)) ↦{fullShare} fs from rfl)) $$ Hs
  ihave Hb' := (Entails.of_eq ((show ((V d (cV L) (jV L)).loc cc0_scratch1 ↦{fullShare} fb : sProp 𝕄) = (sB).view.loc (V d (cV L) (jV L)) ↦{fullShare} fb from rfl).trans (sB_split d (cV L) (jV L) fb))) $$ Hb
  icases Hb' with ⟨Hsl0, Hsl1, Hsl2, Hsl3, Hsl4, Hsl5, Hsl6, Hsl7⟩
  ihave Hi' := (Entails.of_eq (show (iLoc d ↦{tq (wid L)} fi : sProp 𝕄) = (iV).view.loc (V d (cV L) (jV L)) ↦{tq (wid L)} fi from rfl)) $$ Hi
  ihave Ht1' := (Entails.of_eq (show (t1Loc d ↦{tq (wid L)} m (t1Loc d) : sProp 𝕄) = (t1V).view.loc (V d (cV L) (jV L)) ↦{tq (wid L)} m (t1Loc d) from rfl)) $$ Ht1
  ihave Ht2' := (Entails.of_eq (show (t2Loc d ↦{tq (wid L)} m (t2Loc d) : sProp 𝕄) = (t2V).view.loc (V d (cV L) (jV L)) ↦{tq (wid L)} m (t2Loc d) from rfl)) $$ Ht2
  ihave Ha0' := (Entails.of_eq (show (o1Loc d ↦[(oR0 L).set]{fullShare} m (o1Loc d) : sProp 𝕄) = (o1c0 L).view.loc (V d (cV L) (jV L)) ↦[(o1c0 L).view.set]{fullShare} m (o1Loc d) from by rw [show (o1c0 L).view.set = (oR0 L).set from View.set_slice_whole _ _])) $$ Ha0
  ihave Ha1' := (Entails.of_eq (show (o1Loc d ↦[(oR1 L).set]{fullShare} m (o1Loc d) : sProp 𝕄) = (o1c1 L).view.loc (V d (cV L) (jV L)) ↦[(o1c1 L).view.set]{fullShare} m (o1Loc d) from by rw [show (o1c1 L).view.set = (oR1 L).set from View.set_slice_whole _ _])) $$ Ha1
  ihave Ha2' := (Entails.of_eq (show (o1Loc d ↦[(oR2 L).set]{fullShare} m (o1Loc d) : sProp 𝕄) = (o1c2 L).view.loc (V d (cV L) (jV L)) ↦[(o1c2 L).view.set]{fullShare} m (o1Loc d) from by rw [show (o1c2 L).view.set = (oR2 L).set from View.set_slice_whole _ _])) $$ Ha2
  ihave Ha3' := (Entails.of_eq (show (o1Loc d ↦[(oR3 L).set]{fullShare} m (o1Loc d) : sProp 𝕄) = (o1c3 L).view.loc (V d (cV L) (jV L)) ↦[(o1c3 L).view.set]{fullShare} m (o1Loc d) from by rw [show (o1c3 L).view.set = (oR3 L).set from View.set_slice_whole _ _])) $$ Ha3
  ihave Ha4' := (Entails.of_eq (show (o1Loc d ↦[(oR4 L).set]{fullShare} m (o1Loc d) : sProp 𝕄) = (o1c4 L).view.loc (V d (cV L) (jV L)) ↦[(o1c4 L).view.set]{fullShare} m (o1Loc d) from by rw [show (o1c4 L).view.set = (oR4 L).set from View.set_slice_whole _ _])) $$ Ha4
  ihave Ha5' := (Entails.of_eq (show (o1Loc d ↦[(oR5 L).set]{fullShare} m (o1Loc d) : sProp 𝕄) = (o1c5 L).view.loc (V d (cV L) (jV L)) ↦[(o1c5 L).view.set]{fullShare} m (o1Loc d) from by rw [show (o1c5 L).view.set = (oR5 L).set from View.set_slice_whole _ _])) $$ Ha5
  ihave Ha6' := (Entails.of_eq (show (o1Loc d ↦[(oR6 L).set]{fullShare} m (o1Loc d) : sProp 𝕄) = (o1c6 L).view.loc (V d (cV L) (jV L)) ↦[(o1c6 L).view.set]{fullShare} m (o1Loc d) from by rw [show (o1c6 L).view.set = (oR6 L).set from View.set_slice_whole _ _])) $$ Ha6
  ihave Ha7' := (Entails.of_eq (show (o1Loc d ↦[(oR7 L).set]{fullShare} m (o1Loc d) : sProp 𝕄) = (o1c7 L).view.loc (V d (cV L) (jV L)) ↦[(o1c7 L).view.set]{fullShare} m (o1Loc d) from by rw [show (o1c7 L).view.set = (oR7 L).set from View.set_slice_whole _ _])) $$ Ha7
  ihave Hb0' := (Entails.of_eq (show (o2Loc d ↦[(oR0 L).set]{fullShare} m (o2Loc d) : sProp 𝕄) = (o2c0 L).view.loc (V d (cV L) (jV L)) ↦[(o2c0 L).view.set]{fullShare} m (o2Loc d) from by rw [show (o2c0 L).view.set = (oR0 L).set from View.set_slice_whole _ _])) $$ Hb0
  ihave Hb1' := (Entails.of_eq (show (o2Loc d ↦[(oR1 L).set]{fullShare} m (o2Loc d) : sProp 𝕄) = (o2c1 L).view.loc (V d (cV L) (jV L)) ↦[(o2c1 L).view.set]{fullShare} m (o2Loc d) from by rw [show (o2c1 L).view.set = (oR1 L).set from View.set_slice_whole _ _])) $$ Hb1
  ihave Hb2' := (Entails.of_eq (show (o2Loc d ↦[(oR2 L).set]{fullShare} m (o2Loc d) : sProp 𝕄) = (o2c2 L).view.loc (V d (cV L) (jV L)) ↦[(o2c2 L).view.set]{fullShare} m (o2Loc d) from by rw [show (o2c2 L).view.set = (oR2 L).set from View.set_slice_whole _ _])) $$ Hb2
  ihave Hb3' := (Entails.of_eq (show (o2Loc d ↦[(oR3 L).set]{fullShare} m (o2Loc d) : sProp 𝕄) = (o2c3 L).view.loc (V d (cV L) (jV L)) ↦[(o2c3 L).view.set]{fullShare} m (o2Loc d) from by rw [show (o2c3 L).view.set = (oR3 L).set from View.set_slice_whole _ _])) $$ Hb3
  ihave Hb4' := (Entails.of_eq (show (o2Loc d ↦[(oR4 L).set]{fullShare} m (o2Loc d) : sProp 𝕄) = (o2c4 L).view.loc (V d (cV L) (jV L)) ↦[(o2c4 L).view.set]{fullShare} m (o2Loc d) from by rw [show (o2c4 L).view.set = (oR4 L).set from View.set_slice_whole _ _])) $$ Hb4
  ihave Hb5' := (Entails.of_eq (show (o2Loc d ↦[(oR5 L).set]{fullShare} m (o2Loc d) : sProp 𝕄) = (o2c5 L).view.loc (V d (cV L) (jV L)) ↦[(o2c5 L).view.set]{fullShare} m (o2Loc d) from by rw [show (o2c5 L).view.set = (oR5 L).set from View.set_slice_whole _ _])) $$ Hb5
  ihave Hb6' := (Entails.of_eq (show (o2Loc d ↦[(oR6 L).set]{fullShare} m (o2Loc d) : sProp 𝕄) = (o2c6 L).view.loc (V d (cV L) (jV L)) ↦[(o2c6 L).view.set]{fullShare} m (o2Loc d) from by rw [show (o2c6 L).view.set = (oR6 L).set from View.set_slice_whole _ _])) $$ Hb6
  ihave Hb7' := (Entails.of_eq (show (o2Loc d ↦[(oR7 L).set]{fullShare} m (o2Loc d) : sProp 𝕄) = (o2c7 L).view.loc (V d (cV L) (jV L)) ↦[(o2c7 L).view.set]{fullShare} m (o2Loc d) from by rw [show (o2c7 L).view.set = (oR7 L).set from View.set_slice_whole _ _])) $$ Hb7
  -- the fetch of the tile's eight rows of ids
  sl_exec_parts
  -- every word the fetch landed is an id, whatever the list scratch held before
  have hidx0 := fun g => inb_of_pre d L fi hpre g (tile_body.sl.dma0 d L fi) rfl ![0, 0] inb_S8x64_S1x64_0_0
  have hidx1 := fun g => inb_of_pre d L fi hpre g (tile_body.sl.dma0 d L fi) rfl ![1, 0] inb_S8x64_S1x64_1_0
  have hidx2 := fun g => inb_of_pre d L fi hpre g (tile_body.sl.dma0 d L fi) rfl ![2, 0] inb_S8x64_S1x64_2_0
  have hidx3 := fun g => inb_of_pre d L fi hpre g (tile_body.sl.dma0 d L fi) rfl ![3, 0] inb_S8x64_S1x64_3_0
  have hidx4 := fun g => inb_of_pre d L fi hpre g (tile_body.sl.dma0 d L fi) rfl ![4, 0] inb_S8x64_S1x64_4_0
  have hidx5 := fun g => inb_of_pre d L fi hpre g (tile_body.sl.dma0 d L fi) rfl ![5, 0] inb_S8x64_S1x64_5_0
  have hidx6 := fun g => inb_of_pre d L fi hpre g (tile_body.sl.dma0 d L fi) rfl ![6, 0] inb_S8x64_S1x64_6_0
  have hidx7 := fun g => inb_of_pre d L fi hpre g (tile_body.sl.dma0 d L fi) rfl ![7, 0] inb_S8x64_S1x64_7_0
  -- one read share of each table per gather semaphore
  ihave Ht1s := (pts_tok8 (tq (wid L)) _).1 $$ Ht1'
  icases Ht1s with ⟨Ht1r, Ht1_0, Ht1_1, Ht1_2, Ht1_3, Ht1_4, Ht1_5, Ht1_6, Ht1_7⟩
  ihave Ht2s := (pts_tok8 (tq (wid L)) _).1 $$ Ht2'
  icases Ht2s with ⟨Ht2r, Ht2_0, Ht2_1, Ht2_2, Ht2_3, Ht2_4, Ht2_5, Ht2_6, Ht2_7⟩
  -- the sixteen gathers, their waits, the sixteen copies out and theirs
  sl_exec_parts
  sl_step
  -- what each chunk holds is the lookup there
  have key1_0 : ∀ i ∈ (o1c0 L).view.set, (o1c0 L).view.writes (Elt F) (m (o1Loc d)) [⟨Rect.whole S64x128, tile_body.sl.dma0_1 m d L fi fs fb hidx0⟩] i = G1 m d fi i :=
    chunk1_val d L fi hpre (m (o1Loc d)) (m (t1Loc d)) 0 (by omega) _ (fun x => by
      show tile_body.sl.dma0_1 m d L fi fs fb hidx0 x = _
      unfold tile_body.sl.dma0_1
      rw [slot_read]
      unfold tile_body.sl.gather0
      exact gather1_val d L fi hpre (m (t1Loc d)) fs 0 (by omega) _ _ _ x)
  have key2_0 : ∀ i ∈ (o2c0 L).view.set, (o2c0 L).view.writes (Elt F) (m (o2Loc d)) [⟨Rect.whole S64x128, tile_body.sl.dma0_9 m d L fi fs fb hidx0⟩] i = G2 m d fi i :=
    chunk2_val d L fi hpre (m (o2Loc d)) (m (t2Loc d)) 0 (by omega) _ (fun x => by
      show tile_body.sl.dma0_9 m d L fi fs fb hidx0 x = _
      unfold tile_body.sl.dma0_9
      rw [slot_read]
      unfold tile_body.sl.gather10
      exact gather2_val d L fi hpre (m (t2Loc d)) fs 0 (by omega) _ _ _ x)
  have key1_1 : ∀ i ∈ (o1c1 L).view.set, (o1c1 L).view.writes (Elt F) (m (o1Loc d)) [⟨Rect.whole S64x128, tile_body.sl.dma0_2 m d L fi fs fb hidx1⟩] i = G1 m d fi i :=
    chunk1_val d L fi hpre (m (o1Loc d)) (m (t1Loc d)) 1 (by omega) _ (fun x => by
      show tile_body.sl.dma0_2 m d L fi fs fb hidx1 x = _
      unfold tile_body.sl.dma0_2
      rw [slot_read]
      unfold tile_body.sl.gather1
      exact gather1_val d L fi hpre (m (t1Loc d)) fs 1 (by omega) _ _ _ x)
  have key2_1 : ∀ i ∈ (o2c1 L).view.set, (o2c1 L).view.writes (Elt F) (m (o2Loc d)) [⟨Rect.whole S64x128, tile_body.sl.dma0_10 m d L fi fs fb hidx1⟩] i = G2 m d fi i :=
    chunk2_val d L fi hpre (m (o2Loc d)) (m (t2Loc d)) 1 (by omega) _ (fun x => by
      show tile_body.sl.dma0_10 m d L fi fs fb hidx1 x = _
      unfold tile_body.sl.dma0_10
      rw [slot_read]
      unfold tile_body.sl.gather12
      exact gather2_val d L fi hpre (m (t2Loc d)) fs 1 (by omega) _ _ _ x)
  have key1_2 : ∀ i ∈ (o1c2 L).view.set, (o1c2 L).view.writes (Elt F) (m (o1Loc d)) [⟨Rect.whole S64x128, tile_body.sl.dma0_3 m d L fi fs fb hidx2⟩] i = G1 m d fi i :=
    chunk1_val d L fi hpre (m (o1Loc d)) (m (t1Loc d)) 2 (by omega) _ (fun x => by
      show tile_body.sl.dma0_3 m d L fi fs fb hidx2 x = _
      unfold tile_body.sl.dma0_3
      rw [slot_read]
      unfold tile_body.sl.gather2
      exact gather1_val d L fi hpre (m (t1Loc d)) fs 2 (by omega) _ _ _ x)
  have key2_2 : ∀ i ∈ (o2c2 L).view.set, (o2c2 L).view.writes (Elt F) (m (o2Loc d)) [⟨Rect.whole S64x128, tile_body.sl.dma0_11 m d L fi fs fb hidx2⟩] i = G2 m d fi i :=
    chunk2_val d L fi hpre (m (o2Loc d)) (m (t2Loc d)) 2 (by omega) _ (fun x => by
      show tile_body.sl.dma0_11 m d L fi fs fb hidx2 x = _
      unfold tile_body.sl.dma0_11
      rw [slot_read]
      unfold tile_body.sl.gather14
      exact gather2_val d L fi hpre (m (t2Loc d)) fs 2 (by omega) _ _ _ x)
  have key1_3 : ∀ i ∈ (o1c3 L).view.set, (o1c3 L).view.writes (Elt F) (m (o1Loc d)) [⟨Rect.whole S64x128, tile_body.sl.dma0_4 m d L fi fs fb hidx3⟩] i = G1 m d fi i :=
    chunk1_val d L fi hpre (m (o1Loc d)) (m (t1Loc d)) 3 (by omega) _ (fun x => by
      show tile_body.sl.dma0_4 m d L fi fs fb hidx3 x = _
      unfold tile_body.sl.dma0_4
      rw [slot_read]
      unfold tile_body.sl.gather3
      exact gather1_val d L fi hpre (m (t1Loc d)) fs 3 (by omega) _ _ _ x)
  have key2_3 : ∀ i ∈ (o2c3 L).view.set, (o2c3 L).view.writes (Elt F) (m (o2Loc d)) [⟨Rect.whole S64x128, tile_body.sl.dma0_12 m d L fi fs fb hidx3⟩] i = G2 m d fi i :=
    chunk2_val d L fi hpre (m (o2Loc d)) (m (t2Loc d)) 3 (by omega) _ (fun x => by
      show tile_body.sl.dma0_12 m d L fi fs fb hidx3 x = _
      unfold tile_body.sl.dma0_12
      rw [slot_read]
      unfold tile_body.sl.gather16
      exact gather2_val d L fi hpre (m (t2Loc d)) fs 3 (by omega) _ _ _ x)
  have key1_4 : ∀ i ∈ (o1c4 L).view.set, (o1c4 L).view.writes (Elt F) (m (o1Loc d)) [⟨Rect.whole S64x128, tile_body.sl.dma0_5 m d L fi fs fb hidx4⟩] i = G1 m d fi i :=
    chunk1_val d L fi hpre (m (o1Loc d)) (m (t1Loc d)) 4 (by omega) _ (fun x => by
      show tile_body.sl.dma0_5 m d L fi fs fb hidx4 x = _
      unfold tile_body.sl.dma0_5
      rw [slot_read]
      unfold tile_body.sl.gather4
      exact gather1_val d L fi hpre (m (t1Loc d)) fs 4 (by omega) _ _ _ x)
  have key2_4 : ∀ i ∈ (o2c4 L).view.set, (o2c4 L).view.writes (Elt F) (m (o2Loc d)) [⟨Rect.whole S64x128, tile_body.sl.dma0_13 m d L fi fs fb hidx4⟩] i = G2 m d fi i :=
    chunk2_val d L fi hpre (m (o2Loc d)) (m (t2Loc d)) 4 (by omega) _ (fun x => by
      show tile_body.sl.dma0_13 m d L fi fs fb hidx4 x = _
      unfold tile_body.sl.dma0_13
      rw [slot_read]
      unfold tile_body.sl.gather18
      exact gather2_val d L fi hpre (m (t2Loc d)) fs 4 (by omega) _ _ _ x)
  have key1_5 : ∀ i ∈ (o1c5 L).view.set, (o1c5 L).view.writes (Elt F) (m (o1Loc d)) [⟨Rect.whole S64x128, tile_body.sl.dma0_6 m d L fi fs fb hidx5⟩] i = G1 m d fi i :=
    chunk1_val d L fi hpre (m (o1Loc d)) (m (t1Loc d)) 5 (by omega) _ (fun x => by
      show tile_body.sl.dma0_6 m d L fi fs fb hidx5 x = _
      unfold tile_body.sl.dma0_6
      rw [slot_read]
      unfold tile_body.sl.gather5
      exact gather1_val d L fi hpre (m (t1Loc d)) fs 5 (by omega) _ _ _ x)
  have key2_5 : ∀ i ∈ (o2c5 L).view.set, (o2c5 L).view.writes (Elt F) (m (o2Loc d)) [⟨Rect.whole S64x128, tile_body.sl.dma0_14 m d L fi fs fb hidx5⟩] i = G2 m d fi i :=
    chunk2_val d L fi hpre (m (o2Loc d)) (m (t2Loc d)) 5 (by omega) _ (fun x => by
      show tile_body.sl.dma0_14 m d L fi fs fb hidx5 x = _
      unfold tile_body.sl.dma0_14
      rw [slot_read]
      unfold tile_body.sl.gather20
      exact gather2_val d L fi hpre (m (t2Loc d)) fs 5 (by omega) _ _ _ x)
  have key1_6 : ∀ i ∈ (o1c6 L).view.set, (o1c6 L).view.writes (Elt F) (m (o1Loc d)) [⟨Rect.whole S64x128, tile_body.sl.dma0_7 m d L fi fs fb hidx6⟩] i = G1 m d fi i :=
    chunk1_val d L fi hpre (m (o1Loc d)) (m (t1Loc d)) 6 (by omega) _ (fun x => by
      show tile_body.sl.dma0_7 m d L fi fs fb hidx6 x = _
      unfold tile_body.sl.dma0_7
      rw [slot_read]
      unfold tile_body.sl.gather6
      exact gather1_val d L fi hpre (m (t1Loc d)) fs 6 (by omega) _ _ _ x)
  have key2_6 : ∀ i ∈ (o2c6 L).view.set, (o2c6 L).view.writes (Elt F) (m (o2Loc d)) [⟨Rect.whole S64x128, tile_body.sl.dma0_15 m d L fi fs fb hidx6⟩] i = G2 m d fi i :=
    chunk2_val d L fi hpre (m (o2Loc d)) (m (t2Loc d)) 6 (by omega) _ (fun x => by
      show tile_body.sl.dma0_15 m d L fi fs fb hidx6 x = _
      unfold tile_body.sl.dma0_15
      rw [slot_read]
      unfold tile_body.sl.gather22
      exact gather2_val d L fi hpre (m (t2Loc d)) fs 6 (by omega) _ _ _ x)
  have key1_7 : ∀ i ∈ (o1c7 L).view.set, (o1c7 L).view.writes (Elt F) (m (o1Loc d)) [⟨Rect.whole S64x128, tile_body.sl.dma0_8 m d L fi fs fb hidx7⟩] i = G1 m d fi i :=
    chunk1_val d L fi hpre (m (o1Loc d)) (m (t1Loc d)) 7 (by omega) _ (fun x => by
      show tile_body.sl.dma0_8 m d L fi fs fb hidx7 x = _
      unfold tile_body.sl.dma0_8
      rw [slot_read]
      unfold tile_body.sl.gather8
      exact gather1_val d L fi hpre (m (t1Loc d)) fs 7 (by omega) _ _ _ x)
  have key2_7 : ∀ i ∈ (o2c7 L).view.set, (o2c7 L).view.writes (Elt F) (m (o2Loc d)) [⟨Rect.whole S64x128, tile_body.sl.dma0_16 m d L fi fs fb hidx7⟩] i = G2 m d fi i :=
    chunk2_val d L fi hpre (m (o2Loc d)) (m (t2Loc d)) 7 (by omega) _ (fun x => by
      show tile_body.sl.dma0_16 m d L fi fs fb hidx7 x = _
      unfold tile_body.sl.dma0_16
      rw [slot_read]
      unfold tile_body.sl.gather24
      exact gather2_val d L fi hpre (m (t2Loc d)) fs 7 (by omega) _ _ _ x)
  ihave Ha0'' := (Entails.of_eq ((pointsTo_congr key1_0).trans (show ((o1c0 L).view.loc (V d (cV L) (jV L)) ↦[(o1c0 L).view.set]{fullShare} G1 m d fi : sProp 𝕄) = (o1Loc d ↦[(oR0 L).set]{fullShare} G1 m d fi) from by rw [show (o1c0 L).view.set = (oR0 L).set from View.set_slice_whole _ _]))) $$ Ha0'
  ihave Ha1'' := (Entails.of_eq ((pointsTo_congr key1_1).trans (show ((o1c1 L).view.loc (V d (cV L) (jV L)) ↦[(o1c1 L).view.set]{fullShare} G1 m d fi : sProp 𝕄) = (o1Loc d ↦[(oR1 L).set]{fullShare} G1 m d fi) from by rw [show (o1c1 L).view.set = (oR1 L).set from View.set_slice_whole _ _]))) $$ Ha1'
  ihave Ha2'' := (Entails.of_eq ((pointsTo_congr key1_2).trans (show ((o1c2 L).view.loc (V d (cV L) (jV L)) ↦[(o1c2 L).view.set]{fullShare} G1 m d fi : sProp 𝕄) = (o1Loc d ↦[(oR2 L).set]{fullShare} G1 m d fi) from by rw [show (o1c2 L).view.set = (oR2 L).set from View.set_slice_whole _ _]))) $$ Ha2'
  ihave Ha3'' := (Entails.of_eq ((pointsTo_congr key1_3).trans (show ((o1c3 L).view.loc (V d (cV L) (jV L)) ↦[(o1c3 L).view.set]{fullShare} G1 m d fi : sProp 𝕄) = (o1Loc d ↦[(oR3 L).set]{fullShare} G1 m d fi) from by rw [show (o1c3 L).view.set = (oR3 L).set from View.set_slice_whole _ _]))) $$ Ha3'
  ihave Ha4'' := (Entails.of_eq ((pointsTo_congr key1_4).trans (show ((o1c4 L).view.loc (V d (cV L) (jV L)) ↦[(o1c4 L).view.set]{fullShare} G1 m d fi : sProp 𝕄) = (o1Loc d ↦[(oR4 L).set]{fullShare} G1 m d fi) from by rw [show (o1c4 L).view.set = (oR4 L).set from View.set_slice_whole _ _]))) $$ Ha4'
  ihave Ha5'' := (Entails.of_eq ((pointsTo_congr key1_5).trans (show ((o1c5 L).view.loc (V d (cV L) (jV L)) ↦[(o1c5 L).view.set]{fullShare} G1 m d fi : sProp 𝕄) = (o1Loc d ↦[(oR5 L).set]{fullShare} G1 m d fi) from by rw [show (o1c5 L).view.set = (oR5 L).set from View.set_slice_whole _ _]))) $$ Ha5'
  ihave Ha6'' := (Entails.of_eq ((pointsTo_congr key1_6).trans (show ((o1c6 L).view.loc (V d (cV L) (jV L)) ↦[(o1c6 L).view.set]{fullShare} G1 m d fi : sProp 𝕄) = (o1Loc d ↦[(oR6 L).set]{fullShare} G1 m d fi) from by rw [show (o1c6 L).view.set = (oR6 L).set from View.set_slice_whole _ _]))) $$ Ha6'
  ihave Ha7'' := (Entails.of_eq ((pointsTo_congr key1_7).trans (show ((o1c7 L).view.loc (V d (cV L) (jV L)) ↦[(o1c7 L).view.set]{fullShare} G1 m d fi : sProp 𝕄) = (o1Loc d ↦[(oR7 L).set]{fullShare} G1 m d fi) from by rw [show (o1c7 L).view.set = (oR7 L).set from View.set_slice_whole _ _]))) $$ Ha7'
  ihave Hb0'' := (Entails.of_eq ((pointsTo_congr key2_0).trans (show ((o2c0 L).view.loc (V d (cV L) (jV L)) ↦[(o2c0 L).view.set]{fullShare} G2 m d fi : sProp 𝕄) = (o2Loc d ↦[(oR0 L).set]{fullShare} G2 m d fi) from by rw [show (o2c0 L).view.set = (oR0 L).set from View.set_slice_whole _ _]))) $$ Hb0'
  ihave Hb1'' := (Entails.of_eq ((pointsTo_congr key2_1).trans (show ((o2c1 L).view.loc (V d (cV L) (jV L)) ↦[(o2c1 L).view.set]{fullShare} G2 m d fi : sProp 𝕄) = (o2Loc d ↦[(oR1 L).set]{fullShare} G2 m d fi) from by rw [show (o2c1 L).view.set = (oR1 L).set from View.set_slice_whole _ _]))) $$ Hb1'
  ihave Hb2'' := (Entails.of_eq ((pointsTo_congr key2_2).trans (show ((o2c2 L).view.loc (V d (cV L) (jV L)) ↦[(o2c2 L).view.set]{fullShare} G2 m d fi : sProp 𝕄) = (o2Loc d ↦[(oR2 L).set]{fullShare} G2 m d fi) from by rw [show (o2c2 L).view.set = (oR2 L).set from View.set_slice_whole _ _]))) $$ Hb2'
  ihave Hb3'' := (Entails.of_eq ((pointsTo_congr key2_3).trans (show ((o2c3 L).view.loc (V d (cV L) (jV L)) ↦[(o2c3 L).view.set]{fullShare} G2 m d fi : sProp 𝕄) = (o2Loc d ↦[(oR3 L).set]{fullShare} G2 m d fi) from by rw [show (o2c3 L).view.set = (oR3 L).set from View.set_slice_whole _ _]))) $$ Hb3'
  ihave Hb4'' := (Entails.of_eq ((pointsTo_congr key2_4).trans (show ((o2c4 L).view.loc (V d (cV L) (jV L)) ↦[(o2c4 L).view.set]{fullShare} G2 m d fi : sProp 𝕄) = (o2Loc d ↦[(oR4 L).set]{fullShare} G2 m d fi) from by rw [show (o2c4 L).view.set = (oR4 L).set from View.set_slice_whole _ _]))) $$ Hb4'
  ihave Hb5'' := (Entails.of_eq ((pointsTo_congr key2_5).trans (show ((o2c5 L).view.loc (V d (cV L) (jV L)) ↦[(o2c5 L).view.set]{fullShare} G2 m d fi : sProp 𝕄) = (o2Loc d ↦[(oR5 L).set]{fullShare} G2 m d fi) from by rw [show (o2c5 L).view.set = (oR5 L).set from View.set_slice_whole _ _]))) $$ Hb5'
  ihave Hb6'' := (Entails.of_eq ((pointsTo_congr key2_6).trans (show ((o2c6 L).view.loc (V d (cV L) (jV L)) ↦[(o2c6 L).view.set]{fullShare} G2 m d fi : sProp 𝕄) = (o2Loc d ↦[(oR6 L).set]{fullShare} G2 m d fi) from by rw [show (o2c6 L).view.set = (oR6 L).set from View.set_slice_whole _ _]))) $$ Hb6'
  ihave Hb7'' := (Entails.of_eq ((pointsTo_congr key2_7).trans (show ((o2c7 L).view.loc (V d (cV L) (jV L)) ↦[(o2c7 L).view.set]{fullShare} G2 m d fi : sProp 𝕄) = (o2Loc d ↦[(oR7 L).set]{fullShare} G2 m d fi) from by rw [show (o2c7 L).view.set = (oR7 L).set from View.set_slice_whole _ _]))) $$ Hb7'
  ihave Ht1j := (pts_tok8 (tq (wid L)) _).2 $$ [Ht1r Ht1_0 Ht1_1 Ht1_2 Ht1_3 Ht1_4 Ht1_5 Ht1_6 Ht1_7]
  · isplitl [Ht1r]; · iexact Ht1r
    isplitl [Ht1_0]; · iexact Ht1_0
    isplitl [Ht1_1]; · iexact Ht1_1
    isplitl [Ht1_2]; · iexact Ht1_2
    isplitl [Ht1_3]; · iexact Ht1_3
    isplitl [Ht1_4]; · iexact Ht1_4
    isplitl [Ht1_5]; · iexact Ht1_5
    isplitl [Ht1_6]; · iexact Ht1_6
    iexact Ht1_7
  ihave Ht2j := (pts_tok8 (tq (wid L)) _).2 $$ [Ht2r Ht2_0 Ht2_1 Ht2_2 Ht2_3 Ht2_4 Ht2_5 Ht2_6 Ht2_7]
  · isplitl [Ht2r]; · iexact Ht2r
    isplitl [Ht2_0]; · iexact Ht2_0
    isplitl [Ht2_1]; · iexact Ht2_1
    isplitl [Ht2_2]; · iexact Ht2_2
    isplitl [Ht2_3]; · iexact Ht2_3
    isplitl [Ht2_4]; · iexact Ht2_4
    isplitl [Ht2_5]; · iexact Ht2_5
    isplitl [Ht2_6]; · iexact Ht2_6
    iexact Ht2_7
  ihave Hsbj := (sB_join d (cV L) (jV L) _ _ _ _ _ _ _ _) $$ [Hsl0 Hsl1 Hsl2 Hsl3 Hsl4 Hsl5 Hsl6 Hsl7]
  · isplitl [Hsl0]; · iexact Hsl0
    isplitl [Hsl1]; · iexact Hsl1
    isplitl [Hsl2]; · iexact Hsl2
    isplitl [Hsl3]; · iexact Hsl3
    isplitl [Hsl4]; · iexact Hsl4
    isplitl [Hsl5]; · iexact Hsl5
    isplitl [Hsl6]; · iexact Hsl6
    iexact Hsl7
  isplitl [Hi' Ht1j Ht2j Ha0'' Ha1'' Ha2'' Ha3'' Ha4'' Ha5'' Ha6'' Ha7'' Hb0'' Hb1'' Hb2'' Hb3'' Hb4'' Hb5'' Hb6'' Hb7'']
  · isplitl [Hi']; · iexact Hi'
    isplitl [Ht1j]; · iexact Ht1j
    isplitl [Ht2j]; · iexact Ht2j
    isplitl [Ha0'' Ha1'' Ha2'' Ha3'' Ha4'' Ha5'' Ha6'' Ha7'']
    · isplitl [Ha0'']; · iexact Ha0''
      isplitl [Ha1'']; · iexact Ha1''
      isplitl [Ha2'']; · iexact Ha2''
      isplitl [Ha3'']; · iexact Ha3''
      isplitl [Ha4'']; · iexact Ha4''
      isplitl [Ha5'']; · iexact Ha5''
      isplitl [Ha6'']; · iexact Ha6''
      iexact Ha7''
    · isplitl [Hb0'']; · iexact Hb0''
      isplitl [Hb1'']; · iexact Hb1''
      isplitl [Hb2'']; · iexact Hb2''
      isplitl [Hb3'']; · iexact Hb3''
      isplitl [Hb4'']; · iexact Hb4''
      isplitl [Hb5'']; · iexact Hb5''
      isplitl [Hb6'']; · iexact Hb6''
      iexact Hb7''
  isplitl [Hs' Hsbj Hbufs]
  · isplitl [Hs']; · iexists _; iexact Hs'
    isplitl [Hsbj]; · iexact Hsbj
    iexact Hbufs
  isplitl [Hsem0 Hsem1 Hsem2 Hsem3 Hsem4 Hsem5 Hsem6 Hsem7 Hsem8 Hsem9 Hsem10 Hsem11 Hsem12 Hsem13 Hsem14 Hsem15 Hsem16]
  · isplitl [Hsem0]; · iexact Hsem0
    isplitl [Hsem1]; · iexact Hsem1
    isplitl [Hsem2]; · iexact Hsem2
    isplitl [Hsem3]; · iexact Hsem3
    isplitl [Hsem4]; · iexact Hsem4
    isplitl [Hsem5]; · iexact Hsem5
    isplitl [Hsem6]; · iexact Hsem6
    isplitl [Hsem7]; · iexact Hsem7
    isplitl [Hsem8]; · iexact Hsem8
    isplitl [Hsem9]; · iexact Hsem9
    isplitl [Hsem10]; · iexact Hsem10
    isplitl [Hsem11]; · iexact Hsem11
    isplitl [Hsem12]; · iexact Hsem12
    isplitl [Hsem13]; · iexact Hsem13
    isplitl [Hsem14]; · iexact Hsem14
    isplitl [Hsem15]; · iexact Hsem15
    iexact Hsem16
  iexists _; isplitr
  swap; · iexact HO
  ipureintro
  repeat (first | exact fun p hp => .inl hp | refine waits_ins ?_ _)

end Tile

end Cert.Proof.KI

end
-- ==== Proof.KIObl.lean ====
/-
  The launch's obligation for a tile's task: the body table's row for a vector subcore is the kernel function at that
  subcore's grid point, and the task proved at a symbolic grid point is the obligation at every tile of the grid.
-/
import proofs.«204537_g11269994185187_cont_sun_m_1261_11_alg».proof.Proof.KIRes
import proofs.«204537_g11269994185187_cont_sun_m_1261_11_alg».proof.Proof.KIPay
import proofs.«204537_g11269994185187_cont_sun_m_1261_11_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S256x64 EltTy.i32)
local notation "t1V" => (Memref.whole Cert.KernelIdeal.main_arg1_scv : Memref Cert.KernelIdeal.sig Kind.scVector Space.hbm Cert.KernelIdeal.S100000x128 EltTy.f32)
local notation "t2V" => (Memref.whole Cert.KernelIdeal.main_arg2_scv : Memref Cert.KernelIdeal.sig Kind.scVector Space.hbm Cert.KernelIdeal.S100000x128 EltTy.f32)
local notation "o1V" => (Memref.whole Cert.KernelIdeal.main_v1_0_scv : Memref Cert.KernelIdeal.sig Kind.scVector Space.hbm Cert.KernelIdeal.S16384x128 EltTy.f32)
local notation "o2V" => (Memref.whole Cert.KernelIdeal.main_v1_1_scv : Memref Cert.KernelIdeal.sig Kind.scVector Space.hbm Cert.KernelIdeal.S16384x128 EltTy.f32)
local notation "sI" => (Memref.whole Cert.KernelIdeal.cc0_scratch0 : Memref Cert.KernelIdeal.sig Kind.scVector Space.vmem Cert.KernelIdeal.S8x64 EltTy.i32)
local notation "sB" => (Memref.whole Cert.KernelIdeal.cc0_scratch1 : Memref Cert.KernelIdeal.sig Kind.scVector Space.vmem Cert.KernelIdeal.S8x64x128 EltTy.f32)

variable (m : (ℓ : Loc nD τ sig) → Buf (Elt F) ℓ)
variable [FloatOps F]

/-- The body table's row for vector subcore `s` of SparseCore `c`: the kernel function at grid point `(c, s)`. -/
theorem defs₀_vector (c : Fin τ.nSC) (s : Fin τ.nSub) :
    defs₀ (F := F) (.scVector c s) 0 ()
      = SparseCore.onTile hcore0 hsub0 (fun c s => cc0__dual_gather (coordsV c s)
          iV (Memref.isWhole_whole _) t1V (Memref.isWhole_whole _) t2V (Memref.isWhole_whole _) o1V (Memref.isWhole_whole _) o2V (Memref.isWhole_whole _)
          sI (Memref.isWhole_whole _) sB (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : ∀ d y, (ids2 m d y).toNat < 100000) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF (ids2 m d) (hpre d) O W hO).trans (wp_mono frame _ _ fun _ => obl_post)

end Cert.Proof.KI

end
-- ==== Proof.KISplit.lean ====
/-
  How the device's whole arrays split into what the 32 tiles are handed, and back. An array every tile reads is a
  remainder and 32 read shares, tile `(c, i)` holding share number `2·i + c`.
-/
import proofs.«204537_g11269994185187_cont_sun_m_1261_11_alg».proof.Proof.KIRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## An array read by all 32 workers: one read share each -/

/-- A worker number below 32 is `2·i + c` for exactly one SparseCore `c < 2` and subcore `i < 16`. -/
theorem range32_eq_image :
    Finset.range 32 = (Finset.univ : Finset (Fin (grid0.bound 0) × Fin (grid0.bound 1))).image fun p => 2 * p.2.val + p.1.val := by
  ext n
  simp only [Finset.mem_range, Finset.mem_image, Finset.mem_univ, true_and]
  constructor
  · intro hn
    exact ⟨(⟨n % 2, Nat.mod_lt _ (by decide)⟩, ⟨n / 2, by show n / 2 < 16; omega⟩), by show 2 * (n / 2) + n % 2 = n; omega⟩
  · rintro ⟨⟨c, i⟩, rfl⟩
    have hc : c.val < 2 := c.isLt
    have hi : i.val < 16 := i.isLt
    show 2 * i.val + c.val < 32
    omega

/-- Distinct tiles have distinct worker numbers. -/
theorem wid_injOn :
    Set.InjOn (fun p : Fin (grid0.bound 0) × Fin (grid0.bound 1) => 2 * p.2.val + p.1.val)
      (Finset.univ : Finset (Fin (grid0.bound 0) × Fin (grid0.bound 1))) := by
  rintro ⟨c, i⟩ - ⟨c', i'⟩ - e
  have hc : c.val < 2 := c.isLt
  have hc' : c'.val < 2 := c'.isLt
  have e' : 2 * i.val + c.val = 2 * i'.val + c'.val := e
  exact Prod.ext (Fin.ext (by show c.val = c'.val; omega)) (Fin.ext (by show i.val = i'.val; omega))

/-- A whole array at the full share is a remainder and 32 read shares, one per tile, the tile at SparseCore `c`,
    subcore `i` holding the share numbered `2·i + c`. -/
theorem shares_split {ℓ : Loc nD τ sig} (f : Buf (Elt F) ℓ) :
    (ℓ ↦{fullShare} f : sProp 𝕄) ⊣⊢ iprop((ℓ ↦{Transfers.shareDrop fullShare 32} f) ∗ bigSep Finset.univ fun c : Fin (grid0.bound 0) => bigSep Finset.univ fun i : Fin (grid0.bound 1) => ℓ ↦{tq (wid (coordsV c i))} f) := by
  have key : bigSep (Finset.range 32) (fun n => (ℓ ↦{Transfers.shareTokN fullShare n} f : sProp 𝕄))
      = bigSep Finset.univ fun c : Fin (grid0.bound 0) => bigSep Finset.univ fun i : Fin (grid0.bound 1) => (ℓ ↦{tq (wid (coordsV c i))} f : sProp 𝕄) := by
    rw [range32_eq_image, bigSep_image_of_injOn wid_injOn, bigSep_univ_prod]
    rfl
  rw [← key]
  exact Transfers.pointsTo_toks_range (nD := nD) (τ := τ) (sig := sig) (Ix := HIx 1) (Val := Elt F) (Name := ℕ) (U := UU) (Lvl := ℕ)
    (ℓ := ℓ) (S := Finset.univ) (f := f) fullShare 32

end Cert.Proof.KI

end
-- ==== Proof.KIChunks.lean ====
/-
  How each result array splits into the tiles' chunks. The tile at SparseCore `c`, subcore `i` is worker `w = 2·i + c`
  and writes the eight 64-row chunks `[512·w + 64·j, +64)`, `j < 8`, of each result. Over the 2 × 16 tiles and the 8
  chunks these are the row blocks `[64·k, 64·k + 64)` for `k = 8·w + j < 256`: an index lies in chunk `(c, i, j)` exactly
  when its row divided by 64 is `8·(2·i + c) + j`, so the 256 chunks are pairwise disjoint and cover the array, and the
  whole array is the separating conjunction of the tiles' chunks.
-/
import proofs.«204537_g11269994185187_cont_sun_m_1261_11_alg».proof.Proof.KIRes
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The 256 chunks -/

/-- Chunk `j` of the tile at SparseCore `c`, subcore `i`, as the program slices it (for `j = 0 … 7` these are the
    tile's eight rectangles). -/
def chunk (t : Fin (grid0.bound 0) × Fin (grid0.bound 1) × Fin 8) : Finset S16384x128.Idx :=
  (Rect.unit (s := S16384x128) (k0_off2 (coordsV t.1 t.2.1) (BitVec.ofNat 32 (64 * t.2.2.val))) S64x128.size
    (k0_off2_inb (coordsV t.1 t.2.1) t.2.2)).set

/-- An index lies in chunk `(c, i, j)` exactly when its row is in block number `8·(2·i + c) + j` of 64 rows. -/
theorem mem_chunk (t : Fin (grid0.bound 0) × Fin (grid0.bound 1) × Fin 8) (y : S16384x128.Idx) :
    y ∈ chunk t ↔ (y 0).val / 64 = 8 * (2 * t.2.1.val + t.1.val) + t.2.2.val := by
  obtain ⟨c, i, j⟩ := t
  unfold chunk
  rw [Rect.mem_set_unit, k0_off2_eq (coordsV c i) j, Fin.forall_fin_two]
  show (1024 * i.val + 512 * c.val + 64 * j.val ≤ (y 0).val ∧ (y 0).val < 1024 * i.val + 512 * c.val + 64 * j.val + 64)
      ∧ (0 ≤ (y 1).val ∧ (y 1).val < 0 + 128) ↔ (y 0).val / 64 = 8 * (2 * i.val + c.val) + j.val
  have h1 : (y 1).val < 128 := ValueIdx.idx2_lt1 y
  omega

/-- Distinct chunks are disjoint: they are distinct blocks of 64 rows. -/
theorem chunk_disjoint :
    ∀ t ∈ (Finset.univ : Finset (Fin (grid0.bound 0) × Fin (grid0.bound 1) × Fin 8)),
      ∀ t' ∈ (Finset.univ : Finset (Fin (grid0.bound 0) × Fin (grid0.bound 1) × Fin 8)), t ≠ t' → Disjoint (chunk t) (chunk t') := by
  intro t _ t' _ hne
  rw [Finset.disjoint_left]
  intro y hy hy'
  rw [mem_chunk] at hy hy'
  apply hne
  obtain ⟨c, i, j⟩ := t
  obtain ⟨c', i', j'⟩ := t'
  have hc : c.val < 2 := c.isLt
  have hc' : c'.val < 2 := c'.isLt
  have hj : j.val < 8 := j.isLt
  have hj' : j'.val < 8 := j'.isLt
  have e : 8 * (2 * i.val + c.val) + j.val = 8 * (2 * i'.val + c'.val) + j'.val := hy.symm.trans hy'
  exact Prod.ext (Fin.ext (by show c.val = c'.val; omega))
    (Prod.ext (Fin.ext (by show i.val = i'.val; omega)) (Fin.ext (by show j.val = j'.val; omega)))

/-- Every index lies in a chunk: the one its row's block number names. -/
theorem chunk_cover :
    (Finset.univ : Finset (Fin (grid0.bound 0) × Fin (grid0.bound 1) × Fin 8)).biUnion chunk = Finset.univ := by
  ext y
  simp only [Finset.mem_biUnion, Finset.mem_univ, true_and, iff_true]
  have h0 : (y 0).val < 16384 := ValueIdx.idx2_lt0 y
  refine ⟨(⟨(y 0).val / 64 / 8 % 2, Nat.mod_lt _ (by decide)⟩, ⟨(y 0).val / 64 / 8 / 2, by show (y 0).val / 64 / 8 / 2 < 16; omega⟩,
    ⟨(y 0).val / 64 % 8, Nat.mod_lt _ (by decide)⟩), ?_⟩
  rw [mem_chunk]
  show (y 0).val / 64 = 8 * (2 * ((y 0).val / 64 / 8 / 2) + (y 0).val / 64 / 8 % 2) + (y 0).val / 64 % 8
  omega

/-! ## A whole result array is the tiles' chunks -/

/-- A separating conjunction over the eight chunk numbers, written out. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The first result, whole, is its 256 chunks … -/
theorem o1_chunks (d : Dev nD) (f : Buf (Elt F) (o1Loc d)) :
    (o1Loc d ↦{fullShare} f : sProp 𝕄)
      = bigSep Finset.univ fun t : Fin (grid0.bound 0) × Fin (grid0.bound 1) × Fin 8 => o1Loc d ↦[chunk t]{fullShare} f := by
  rw [← pointsTo_biUnion Finset.univ (ℓ := o1Loc d) chunk chunk_disjoint, chunk_cover]

/-- … and so is the second. -/
theorem o2_chunks (d : Dev nD) (f : Buf (Elt F) (o2Loc d)) :
    (o2Loc d ↦{fullShare} f : sProp 𝕄)
      = bigSep Finset.univ fun t : Fin (grid0.bound 0) × Fin (grid0.bound 1) × Fin 8 => o2Loc d ↦[chunk t]{fullShare} f := by
  rw [← pointsTo_biUnion Finset.univ (ℓ := o2Loc d) chunk chunk_disjoint, chunk_cover]

/-- The first result, whole, is every tile's eight chunks of it. -/
theorem chunks1_split (d : Dev nD) (f : Buf (Elt F) (o1Loc d)) :
    (o1Loc d ↦{fullShare} f : sProp 𝕄) = bigSep Finset.univ fun c : Fin (grid0.bound 0) => bigSep Finset.univ fun i : Fin (grid0.bound 1) => chunks1 d (coordsV c i) f := by
  rw [o1_chunks, bigSep_univ_prod]
  refine bigSep_congr fun c _ => ?_
  rw [bigSep_univ_prod]
  refine bigSep_congr fun i _ => ?_
  rw [bigSep_fin8]
  rfl

/-- The second result, whole, is every tile's eight chunks of it. -/
theorem chunks2_split (d : Dev nD) (f : Buf (Elt F) (o2Loc d)) :
    (o2Loc d ↦{fullShare} f : sProp 𝕄) = bigSep Finset.univ fun c : Fin (grid0.bound 0) => bigSep Finset.univ fun i : Fin (grid0.bound 1) => chunks2 d (coordsV c i) f := by
  rw [o2_chunks, bigSep_univ_prod]
  refine bigSep_congr fun c _ => ?_
  rw [bigSep_univ_prod]
  refine bigSep_congr fun i _ => ?_
  rw [bigSep_fin8]
  rfl

end Cert.Proof.KI

end
-- ==== Proof.KIIds.lean ====
/-
  The ids as the kernel reads them. The entry function's one host operation reshapes the 16384 flat ids into 256 rows
  of 64, row-major: element `(r, c)` of the reshaped array is flat id `64·r + c`. So the reshaped ids are row numbers
  when the flat ones are, and the lookup through the 256×64 layout is the lookup through the flat ids.
-/
import proofs.«204537_g11269994185187_cont_sun_m_1261_11_alg».proof.Proof.KIRes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The reshaped ids at `(r, c)`: flat id `64·r + c` (both sit at row-major position `64·r + c`). -/
theorem ids2_apply (m : (ℓ : Loc nD τ sig) → Buf (Elt F) ℓ) (d : Dev nD) (r : Fin 256) (c : Fin 64) :
    ids2 m d (ValueIdx.ix2 r c) = m (aLoc d) (ValueIdx.ix1 (⟨64 * r.val + c.val, by omega⟩ : Fin 16384)) := by
  unfold ids2
  rw [StableHlo.reshape_result]
  show shapeCast S256x64 (V0 m d a') shapeCasts_S16384_S256x64 (ValueIdx.ix2 r c) = _
  have hk : (S16384.rowMajor (ValueIdx.ix1 (⟨64 * r.val + c.val, by omega⟩ : Fin 16384))).val
      = (S256x64.rowMajor (ValueIdx.ix2 r c)).val :=
    (Shape.rowMajor_val_one (d := ![16384]) (ValueIdx.ix1 (⟨64 * r.val + c.val, by omega⟩ : Fin 16384))).trans
      (Eq.trans (show 64 * r.val + c.val = r.val * 64 + c.val by omega)
        (Shape.rowMajor_val_two (d := ![256, 64]) (ValueIdx.ix2 r c)).symm)
  exact shapeCast_apply (V0 m d a') shapeCasts_S16384_S256x64 (ValueIdx.ix2 r c)
    (ValueIdx.ix1 (⟨64 * r.val + c.val, by omega⟩ : Fin 16384)) hk

/-- The reshaped ids are row numbers when the flat ids are. -/
theorem ids2_range (m : (ℓ : Loc nD τ sig) → Buf (Elt F) ℓ) (d : Dev nD) (h : Cert.Spec.InRange (m (aLoc d))) :
    ∀ y, (ids2 m d y).toNat < 100000 := by
  intro y
  have e := (congrArg (fun z => ids2 m d z) (ValueIdx.eq_ix2 (n0 := 256) (n1 := 64) y)).trans (ids2_apply m d (y 0) (y 1))
  rw [e]
  exact (h _).2

/-- The lookup through the reshaped ids is the lookup through the flat ids. -/
theorem take2_ids2 {α : Type} (m : (ℓ : Loc nD τ sig) → Buf (Elt F) ℓ) (d : Dev nD) (tab : Cert.Spec.STab.Idx → α) :
    Cert.Spec.take2 (ids2 m d) tab = Cert.Spec.take (m (aLoc d)) tab :=
  Cert.Spec.take2_eq_take _ _ tab (fun r c => ids2_apply m d r c)

end Cert.Proof.KI

end
-- ==== Proof.KIMain.lean ====
/-
  The entry function on a device's TensorCore. It holds the six arrays whole. The reshape leaves the 256×64 ids at the
  row-major reshape of the flat ids and every other array as it was. Then the whole arrays split into what the call
  takes: of the reshaped ids and of each table, 32 read shares (the remainders kept aside across the call); of each
  result, the tiles' chunks. The call returns the same with the chunks at the lookup; the tables' shares rejoin their
  remainders and the chunks rejoin into the whole results.
-/
import proofs.«204537_g11269994185187_cont_sun_m_1261_11_alg».proof.Proof.KIRes
import proofs.«204537_g11269994185187_cont_sun_m_1261_11_alg».proof.Proof.KIPay
import proofs.«204537_g11269994185187_cont_sun_m_1261_11_alg».proof.Proof.KISplit
import proofs.«204537_g11269994185187_cont_sun_m_1261_11_alg».proof.Proof.KIChunks
import proofs.«204537_g11269994185187_cont_sun_m_1261_11_alg».proof.Proof.KIIds

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays -/

/-- The TensorCore's arrays, all unscoped: the flat ids, the reshaped ids, the two tables, the two results. -/
abbrev S6 : Finset (DevRef τ sig) := {a', i', t1', t2', o1', o2'}

theorem held_S6 (d : Dev nD) (W : Valuation τ sig (Elt F)) :
    (held (T d) S6 W : sProp 𝕄) = iprop((aLoc d ↦{fullShare} W a') ∗ (iLoc d ↦{fullShare} W i') ∗ (t1Loc d ↦{fullShare} W t1')
      ∗ (t2Loc d ↦{fullShare} W t2') ∗ (o1Loc d ↦{fullShare} W o1') ∗ (o2Loc d ↦{fullShare} W o2')) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (iLoc d ↦{fullShare} W main_v0) ∗ (t1Loc d ↦{fullShare} W main_arg1)
      ∗ (t2Loc d ↦{fullShare} W main_arg2) ∗ (o1Loc d ↦{fullShare} W main_v1_0) ∗ (o2Loc d ↦{fullShare} W main_v1_1)) := by
  unfold unscopedBufs
  rw [show (Finset.univ.filter fun b : Ref sig .tc => ¬ b.isScoped) = {main_arg0, main_v0, main_arg1, main_arg2, main_v1_0, main_v1_1} by decide,
    SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (T d) S6 (V0 m d) := by
  rw [unscopedBufs_eq, held_S6]; rfl

/-- The reshape reads the flat ids and writes the reshaped ids. -/
theorem hR : (opR (F := F)).bufs ⊆ S6 := show ({a', i'} : Finset (DevRef τ sig)) ⊆ S6 by decide

/-- After the reshape: the reshaped ids at the reshape of the flat ids, the other five arrays as launched. -/
theorem held_after (d : Dev nD) :
    (held (T d) S6 ((opR (F := F)).result (V0 m d)) : sProp 𝕄)
      = iprop((aLoc d ↦{fullShare} m (aLoc d)) ∗ (iLoc d ↦{fullShare} ids2 m d) ∗ (t1Loc d ↦{fullShare} m (t1Loc d))
        ∗ (t2Loc d ↦{fullShare} m (t2Loc d)) ∗ (o1Loc d ↦{fullShare} m (o1Loc d)) ∗ (o2Loc d ↦{fullShare} m (o2Loc d))) := by
  rw [held_S6,
    (opR (F := F)).result_of_not_mem (V0 m d) (b := a') (show a' ∉ ({i'} : Finset (DevRef τ sig)) by decide),
    (opR (F := F)).result_of_not_mem (V0 m d) (b := t1') (show t1' ∉ ({i'} : Finset (DevRef τ sig)) by decide),
    (opR (F := F)).result_of_not_mem (V0 m d) (b := t2') (show t2' ∉ ({i'} : Finset (DevRef τ sig)) by decide),
    (opR (F := F)).result_of_not_mem (V0 m d) (b := o1') (show o1' ∉ ({i'} : Finset (DevRef τ sig)) by decide),
    (opR (F := F)).result_of_not_mem (V0 m d) (b := o2') (show o2' ∉ ({i'} : Finset (DevRef τ sig)) by decide)]
  rfl

/-! ## What the call takes and hands back, array by array -/

/-- A double separating conjunction of five-fold conjunctions is the five double conjunctions. -/
theorem bigSep2_sep5 {α β : Type} (s : Finset α) (t : Finset β) (A B C D E : α → β → sProp 𝕄) :
    (bigSep s fun c => bigSep t fun i => iprop(A c i ∗ B c i ∗ C c i ∗ D c i ∗ E c i))
      = iprop((bigSep s fun c => bigSep t fun i => A c i) ∗ (bigSep s fun c => bigSep t fun i => B c i)
          ∗ (bigSep s fun c => bigSep t fun i => C c i) ∗ (bigSep s fun c => bigSep t fun i => D c i)
          ∗ (bigSep s fun c => bigSep t fun i => E c i)) := by
  simp only [bigSep_sep']

theorem st0_eq (d : Dev nD) :
    (bigSep Finset.univ fun c : Fin ((K (F := F)).nCore 0) => (P m).st 0 d c)
      = iprop((bigSep Finset.univ fun c : Fin (grid0.bound 0) => bigSep Finset.univ fun i : Fin (grid0.bound 1) => iLoc d ↦{tq (wid (coordsV c i))} ids2 m d)
          ∗ (bigSep Finset.univ fun c : Fin (grid0.bound 0) => bigSep Finset.univ fun i : Fin (grid0.bound 1) => t1Loc d ↦{tq (wid (coordsV c i))} m (t1Loc d))
          ∗ (bigSep Finset.univ fun c : Fin (grid0.bound 0) => bigSep Finset.univ fun i : Fin (grid0.bound 1) => t2Loc d ↦{tq (wid (coordsV c i))} m (t2Loc d))
          ∗ (bigSep Finset.univ fun c : Fin (grid0.bound 0) => bigSep Finset.univ fun i : Fin (grid0.bound 1) => chunks1 d (coordsV c i) (m (o1Loc d)))
          ∗ (bigSep Finset.univ fun c : Fin (grid0.bound 0) => bigSep Finset.univ fun i : Fin (grid0.bound 1) => chunks2 d (coordsV c i) (m (o2Loc d)))) := by
  simp only [P_st]
  rw [bigSep_cores (F := F) (fun c => bigSep Finset.univ fun i : Fin (grid0.bound 1) => tileIn m d (ids2 m d) (coordsV c i))]
  exact bigSep2_sep5 Finset.univ Finset.univ
    (fun c i => iLoc d ↦{tq (wid (coordsV c i))} ids2 m d) (fun c i => t1Loc d ↦{tq (wid (coordsV c i))} m (t1Loc d))
    (fun c i => t2Loc d ↦{tq (wid (coordsV c i))} m (t2Loc d)) (fun c i => chunks1 d (coordsV c i) (m (o1Loc d)))
    (fun c i => chunks2 d (coordsV c i) (m (o2Loc d)))

theorem dn0_eq (d : Dev nD) :
    (bigSep Finset.univ fun c : Fin ((K (F := F)).nCore 0) => (P m).dn 0 d c)
      = iprop((bigSep Finset.univ fun c : Fin (grid0.bound 0) => bigSep Finset.univ fun i : Fin (grid0.bound 1) => iLoc d ↦{tq (wid (coordsV c i))} ids2 m d)
          ∗ (bigSep Finset.univ fun c : Fin (grid0.bound 0) => bigSep Finset.univ fun i : Fin (grid0.bound 1) => t1Loc d ↦{tq (wid (coordsV c i))} m (t1Loc d))
          ∗ (bigSep Finset.univ fun c : Fin (grid0.bound 0) => bigSep Finset.univ fun i : Fin (grid0.bound 1) => t2Loc d ↦{tq (wid (coordsV c i))} m (t2Loc d))
          ∗ (bigSep Finset.univ fun c : Fin (grid0.bound 0) => bigSep Finset.univ fun i : Fin (grid0.bound 1) => chunks1 d (coordsV c i) (G1 m d (ids2 m d)))
          ∗ (bigSep Finset.univ fun c : Fin (grid0.bound 0) => bigSep Finset.univ fun i : Fin (grid0.bound 1) => chunks2 d (coordsV c i) (G2 m d (ids2 m d)))) := by
  simp only [P_dn]
  rw [bigSep_cores (F := F) (fun c => bigSep Finset.univ fun i : Fin (grid0.bound 1) => tileOut m d (ids2 m d) (coordsV c i))]
  exact bigSep2_sep5 Finset.univ Finset.univ
    (fun c i => iLoc d ↦{tq (wid (coordsV c i))} ids2 m d) (fun c i => t1Loc d ↦{tq (wid (coordsV c i))} m (t1Loc d))
    (fun c i => t2Loc d ↦{tq (wid (coordsV c i))} m (t2Loc d)) (fun c i => chunks1 d (coordsV c i) (G1 m d (ids2 m d)))
    (fun c i => chunks2 d (coordsV c i) (G2 m d (ids2 m d)))

/-! ## The entry function -/

variable [FloatOps F]

/-- What the entry function leaves the claim: the flat ids and the tables as launched, the results at the lookup. -/
abbrev FIN (d : Dev nD) : sProp 𝕄 :=
  iprop((aLoc d ↦{fullShare} m (aLoc d)) ∗ (t1Loc d ↦{fullShare} m (t1Loc d)) ∗ (t2Loc d ↦{fullShare} m (t2Loc d))
    ∗ (o1Loc d ↦{fullShare} G1 m d (ids2 m d)) ∗ (o2Loc d ↦{fullShare} G2 m d (ids2 m d)))

/-- The entry function on device `d`'s TensorCore: the reshape, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape, over the flat and the reshaped ids
  iapply (wp_hlo_within 𝒱 (SparseCore.T d) none Set.univ (op := opR) (S := S6) hR (V := V0 m d)) $$ [Hb Hheld]
  · isplitl [Hb]; · iexact Hb
    iexact Hheld
  iintro ⟨Hb, Hheld⟩
  rw [wp_ret]; imodintro
  ihave Hh := (Entails.of_eq (held_after (F := F) m d)) $$ Hheld
  icases Hh with ⟨Ha, Hi, Ht1, Ht2, Ho1, Ho2⟩
  -- the whole arrays split into what the call takes
  ihave Hi' := (shares_split (F := F) (ids2 m d)).1 $$ Hi
  icases Hi' with ⟨-, His⟩
  ihave Ht1' := (shares_split (F := F) (m (t1Loc d))).1 $$ Ht1
  icases Ht1' with ⟨Ht1r, Ht1s⟩
  ihave Ht2' := (shares_split (F := F) (m (t2Loc d))).1 $$ Ht2
  icases Ht2' with ⟨Ht2r, Ht2s⟩
  ihave Ho1s := (Entails.of_eq (chunks1_split (F := F) d (m (o1Loc d)))) $$ Ho1
  ihave Ho2s := (Entails.of_eq (chunks2_split (F := F) d (m (o2Loc d)))) $$ Ho2
  -- the call
  iapply ((K (F := F)).wp_run (D (F := F)) 𝒱 (EH := EH) (P := P m) κ d 0) $$ [Hst His Ht1s Ht2s Ho1s Ho2s Ha Ht1r Ht2r]
  isplitr; · iexact Hctx
  isplitl [Hst]; · iexact Hst
  isplitl [His Ht1s Ht2s Ho1s Ho2s]
  · rw [st0_eq]
    isplitl [His]; · iexact His
    isplitl [Ht1s]; · iexact Ht1s
    isplitl [Ht2s]; · iexact Ht2s
    isplitl [Ho1s]; · iexact Ho1s
    iexact Ho2s
  iintro ⟨Hst, Hdn⟩
  ihave Hdn' := (Entails.of_eq (dn0_eq (F := F) m d)) $$ Hdn
  icases Hdn' with ⟨-, Ht1s, Ht2s, Ho1s, Ho2s⟩
  -- coming back: the tables' shares rejoin their remainders, the chunks the whole results
  ihave Ht1 := (shares_split (F := F) (m (t1Loc d))).2 $$ [Ht1r Ht1s]
  · isplitl [Ht1r]; · iexact Ht1r
    iexact Ht1s
  ihave Ht2 := (shares_split (F := F) (m (t2Loc d))).2 $$ [Ht2r Ht2s]
  · isplitl [Ht2r]; · iexact Ht2r
    iexact Ht2s
  ihave Ho1 := (Entails.of_eq (chunks1_split (F := F) d (G1 m d (ids2 m d))).symm) $$ Ho1s
  ihave Ho2 := (Entails.of_eq (chunks2_split (F := F) d (G2 m d (ids2 m d))).symm) $$ Ho2s
  imodintro
  isplitl [Hst]; · iexact Hst
  isplitl [Ha]; · iexact Ha
  isplitl [Ht1]; · iexact Ht1
  isplitl [Ht2]; · iexact Ht2
  isplitl [Ho1]; · iexact Ho1
  iexact Ho2

/-! ## Reading the final memory -/

/-- What the final memory holds of the five arrays the claim names. -/
def fq (d : Dev nD) (s' : Phys nD τ sig (Elt F)) : Prop :=
  s'.mem.mem (aLoc d) = m (aLoc d) ∧ s'.mem.mem (t1Loc d) = m (t1Loc d) ∧ s'.mem.mem (t2Loc d) = m (t2Loc d)
    ∧ s'.mem.mem (o1Loc d) = G1 m d (ids2 m d) ∧ s'.mem.mem (o2Loc d) = G2 m d (ids2 m d)

set_option maxRecDepth 16384 in
theorem hfin (d : Dev nD) (s' : Phys nD τ sig (Elt F)) : iprop(FIN m d ∗ SI s') ⊢ (⌜fq m d s'⌝ : sProp 𝕄) := by
  iintro ⟨⟨Ha, Ht1, Ht2, Ho1, Ho2⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := t1Loc d) (I := Finset.univ) (q := fullShare) (f := m (t1Loc d)))) $$ [HSI Ht1]
  · isplitl [HSI] <;> iassumption
  icases H with ⟨%h2, HSI, -⟩
  ihave H := (persistent_entails_right (SI_pointsTo_agree (st := s') (ℓ := t2Loc d) (I := Finset.univ) (q := fullShare) (f := m (t2Loc d)))) $$ [HSI Ht2]
  · isplitl [HSI] <;> iassumption
  icases H with ⟨%h3, HSI, -⟩
  ihave H := (persistent_entails_right (SI_pointsTo_agree (st := s') (ℓ := o1Loc d) (I := Finset.univ) (q := fullShare) (f := G1 m d (ids2 m d)))) $$ [HSI Ho1]
  · isplitl [HSI] <;> iassumption
  icases H with ⟨%h4, HSI, -⟩
  ihave H := (SI_pointsTo_agree (st := s') (ℓ := o2Loc d) (I := Finset.univ) (q := fullShare) (f := G2 m d (ids2 m d))) $$ [HSI Ho2]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

end Cert.Proof.KI

end
-- ==== Proof.KILaunch.lean ====
/-
  The kernel program's run. With each tile's task, the split of a SparseCore's operands among its tiles, the entry
  function on the TensorCore and the launch element in hand, the launch theorem gives: from any memory with zero
  counters whose flat ids are row numbers on every device, every weakly fair execution of the device's threads
  terminates, each result holding the lookup of the ids in its table, the ids and the tables unchanged.
-/
import proofs.«204537_g11269994185187_cont_sun_m_1261_11_alg».proof.Proof.KIRes
import proofs.«204537_g11269994185187_cont_sun_m_1261_11_alg».proof.Proof.KIObl
import proofs.«204537_g11269994185187_cont_sun_m_1261_11_alg».proof.Proof.KIMain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The claim's post: on every device the results are the lookups and the arguments are as launched. -/
def QC : PUnit × MemSt nD τ sig (Elt F) → Prop := fun r => ∀ c : Dev nD,
  r.2.mem (o1Loc c) = Cert.Spec.take (m (aLoc c)) (m (t1Loc c)) ∧ r.2.mem (o2Loc c) = Cert.Spec.take (m (aLoc c)) (m (t2Loc c))
    ∧ r.2.mem (aLoc c) = m (aLoc c) ∧ r.2.mem (t1Loc c) = m (t1Loc c) ∧ r.2.mem (t2Loc c) = m (t2Loc c)

/-- What the final memory holds is what the claim says: the lookup through the reshaped ids is the lookup through the
    flat ids. -/
theorem QC_of_fq (r : PUnit × MemSt nD τ sig (Elt F)) (h : ∀ d : Dev nD,
    r.2.mem (aLoc d) = m (aLoc d) ∧ r.2.mem (t1Loc d) = m (t1Loc d) ∧ r.2.mem (t2Loc d) = m (t2Loc d)
      ∧ r.2.mem (o1Loc d) = G1 m d (ids2 m d) ∧ r.2.mem (o2Loc d) = G2 m d (ids2 m d)) : QC m r := by
  intro c
  obtain ⟨ha, h1, h2, ho1, ho2⟩ := h c
  refine ⟨ho1.trans ?_, ho2.trans ?_, ha, h1, h2⟩
  · unfold G1; exact take2_ids2 m c (m (t1Loc c))
  · unfold G2; exact take2_ids2 m c (m (t2Loc c))

theorem run_main [∀ e, Nonempty (Elt F e)] (hpre : ∀ d : Dev nD, Cert.Spec.InRange (m (aLoc d))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts (fun d => ids2_range m d (hpre d)))
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h => QC_of_fq m (⟨⟩, s'.mem) h)

end Cert.Proof.KI

end
-- ==== Proof.KBBase.lean ====
/-
  The lookup kernel as the launch theorem sees it, and the vocabulary of its proof: the device's arrays (the ids
  reshaped to 256 rows of 64, the two tables, the two results), a tile's two scratch arrays (its 8 rows of ids; 8
  slots of 64 table rows) and its seventeen DMA semaphores, all held at zero when a task starts.
-/
import proofs.«204537_g11269994185187_cont_sun_m_1261_11_alg».proof.Kernel
import proofs.«204537_g11269994185187_cont_sun_m_1261_11_alg».proof.Proof.Gen.Kernel
import proofs.«204537_g11269994185187_cont_sun_m_1261_11_alg».proof.Proof.Gen.Kernel.Skeleton
import proofs.«204537_g11269994185187_cont_sun_m_1261_11_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev aLoc (d : Dev nD) : Loc nD τ sig := (SparseCore.T d).loc main_arg0
abbrev iLoc (d : Dev nD) : Loc nD τ sig := (SparseCore.T d).loc main_v0
abbrev t1Loc (d : Dev nD) : Loc nD τ sig := (SparseCore.T d).loc main_arg1
abbrev t2Loc (d : Dev nD) : Loc nD τ sig := (SparseCore.T d).loc main_arg2
abbrev o1Loc (d : Dev nD) : Loc nD τ sig := (SparseCore.T d).loc main_v1_0
abbrev o2Loc (d : Dev nD) : Loc nD τ sig := (SparseCore.T d).loc main_v1_1

/-! ## A tile's own semaphores and scratch arrays -/

section Own
variable (d : Dev nD) (c : Fin τ.nSC) (i : Fin τ.nSub)

/-- A tile's scoped cells are its seventeen DMA semaphores (the four launch semaphores are not scoped). -/
theorem ownCells_V :
    (ownCells (V d c i) : Finset (GSem nD τ sig))
      = Finset.univ.map ⟨fun k : DmaSem sig => ((V d c i, SemLoc.dma k) : GSem nD τ sig), by intro a b e; exact SemLoc.dma.inj (Prod.mk.inj e).2⟩ := by
  ext ⟨thr, sm⟩
  simp only [mem_ownCells, Finset.mem_map, Finset.mem_univ, true_and, Function.Embedding.coeFn_mk]
  constructor
  · rintro ⟨rfl, hs⟩
    cases sm with
    | reg r =>
      have hr : (SemLoc.reg r : SemLoc sig).isScoped .scVector = false := (show ∀ r : Sem sig, (SemLoc.reg r : SemLoc sig).isScoped .scVector = false by decide) r
      exact absurd (show (SemLoc.reg r : SemLoc sig).isScoped .scVector = true from hs) (by rw [hr]; exact Bool.false_ne_true)
    | dma k => exact ⟨k, rfl⟩
  · rintro ⟨k, hk⟩
    obtain ⟨rfl, rfl⟩ := Prod.mk.inj hk
    exact ⟨rfl, (show ∀ k : DmaSem sig, (SemLoc.dma k : SemLoc sig).isScoped .scVector = true by decide) k⟩

theorem ownSems0_V :
    (ownSems0 (V d c i) : sProp 𝕄)
      = iprop(semVal ((V d c i, SemLoc.dma cc0_scratch2.sem) : GSem nD τ sig) 0
          ∗ semVal ((V d c i, SemLoc.dma cc0_scratch3.sem) : GSem nD τ sig) 0
          ∗ semVal ((V d c i, SemLoc.dma cc0_scratch4.sem) : GSem nD τ sig) 0
          ∗ semVal ((V d c i, SemLoc.dma cc0_scratch5.sem) : GSem nD τ sig) 0
          ∗ semVal ((V d c i, SemLoc.dma cc0_scratch6.sem) : GSem nD τ sig) 0
          ∗ semVal ((V d c i, SemLoc.dma cc0_scratch7.sem) : GSem nD τ sig) 0
          ∗ semVal ((V d c i, SemLoc.dma cc0_scratch8.sem) : GSem nD τ sig) 0
          ∗ semVal ((V d c i, SemLoc.dma cc0_scratch9.sem) : GSem nD τ sig) 0
          ∗ semVal ((V d c i, SemLoc.dma cc0_scratch10.sem) : GSem nD τ sig) 0
          ∗ semVal ((V d c i, SemLoc.dma cc0_scratch11.sem) : GSem nD τ sig) 0
          ∗ semVal ((V d c i, SemLoc.dma cc0_scratch12.sem) : GSem nD τ sig) 0
          ∗ semVal ((V d c i, SemLoc.dma cc0_scratch13.sem) : GSem nD τ sig) 0
          ∗ semVal ((V d c i, SemLoc.dma cc0_scratch14.sem) : GSem nD τ sig) 0
          ∗ semVal ((V d c i, SemLoc.dma cc0_scratch15.sem) : GSem nD τ sig) 0
          ∗ semVal ((V d c i, SemLoc.dma cc0_scratch16.sem) : GSem nD τ sig) 0
          ∗ semVal ((V d c i, SemLoc.dma cc0_scratch17.sem) : GSem nD τ sig) 0
          ∗ semVal ((V d c i, SemLoc.dma cc0_scoped0.sem) : GSem nD τ sig) 0) := by
  unfold SparseCore.Cfg.ownSems0
  rw [ownCells_V, bigSep_map]
  rw [show (Finset.univ : Finset (DmaSem sig)) = {0, 1, 2, 3, 4, 5, 6, 7, 8, 9, 10, 11, 12, 13, 14, 15, 16} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The two scratch arrays are among the tile's own buffers: they, at some contents, and the rest. -/
theorem ownBufs_V :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase
              ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

end Own

end Cert.Proof.KB

end
-- ==== Proof.KBRes.lean ====
/-
  What a tile is handed and hands back. Tile `(c, i)` (SparseCore `c`, subcore `i`) is worker `2·i + c`; it reads
  its eight rows of the 256×64 ids and both tables through read shares of the whole arrays (one share per worker),
  and owns the eight 64-row chunks `[512·w + 64·j, +64)` of each result, `w` its worker number.
-/
import proofs.«204537_g11269994185187_cont_sun_m_1261_11_alg».proof.Proof.KBBase
import proofs.«204537_g11269994185187_cont_sun_m_1261_11_alg».proof.Proof.Spec2

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The worker number of a grid point: `2·subcore + core`. -/
def wid (L : grid0.Coords) : ℕ := 2 * (L 1).val + (L 0).val

/-- Worker `w`'s read share of an array read by all 32 workers. -/
abbrev tq (w : ℕ) : PosShare TreeShare := Transfers.shareTokN fullShare w

/-- The eight 64-row chunks of a result that the tile at `L` writes, as the program slices them. -/
abbrev oR0 (L : grid0.Coords) : Rect S16384x128 := Rect.unit (s := S16384x128) (k0_off2 L 0#32) S64x128.size (k0_off2_inb L 0)
abbrev oR1 (L : grid0.Coords) : Rect S16384x128 := Rect.unit (s := S16384x128) (k0_off2 L 64#32) S64x128.size (k0_off2_inb L 1)
abbrev oR2 (L : grid0.Coords) : Rect S16384x128 := Rect.unit (s := S16384x128) (k0_off2 L 128#32) S64x128.size (k0_off2_inb L 2)
abbrev oR3 (L : grid0.Coords) : Rect S16384x128 := Rect.unit (s := S16384x128) (k0_off2 L 192#32) S64x128.size (k0_off2_inb L 3)
abbrev oR4 (L : grid0.Coords) : Rect S16384x128 := Rect.unit (s := S16384x128) (k0_off2 L 256#32) S64x128.size (k0_off2_inb L 4)
abbrev oR5 (L : grid0.Coords) : Rect S16384x128 := Rect.unit (s := S16384x128) (k0_off2 L 320#32) S64x128.size (k0_off2_inb L 5)
abbrev oR6 (L : grid0.Coords) : Rect S16384x128 := Rect.unit (s := S16384x128) (k0_off2 L 384#32) S64x128.size (k0_off2_inb L 6)
abbrev oR7 (L : grid0.Coords) : Rect S16384x128 := Rect.unit (s := S16384x128) (k0_off2 L 448#32) S64x128.size (k0_off2_inb L 7)

/-- The result arrays' common final contents: the lookup through the 256×64 ids. -/
def G1 (m : (ℓ : Loc nD τ sig) → Buf (Elt F) ℓ) (d : Dev nD) (fi : Buf (Elt F) (iLoc d)) : Buf (Elt F) (o1Loc d) :=
  Cert.Spec.take2 fi (m (t1Loc d))
def G2 (m : (ℓ : Loc nD τ sig) → Buf (Elt F) ℓ) (d : Dev nD) (fi : Buf (Elt F) (iLoc d)) : Buf (Elt F) (o2Loc d) :=
  Cert.Spec.take2 fi (m (t2Loc d))

/-- The tile's eight chunks of the first result at contents `f`; -/
def chunks1 (d : Dev nD) (L : grid0.Coords) (f : Buf (Elt F) (o1Loc d)) : sProp 𝕄 :=
  iprop((o1Loc d ↦[(oR0 L).set]{fullShare} f)
    ∗ (o1Loc d ↦[(oR1 L).set]{fullShare} f)
    ∗ (o1Loc d ↦[(oR2 L).set]{fullShare} f)
    ∗ (o1Loc d ↦[(oR3 L).set]{fullShare} f)
    ∗ (o1Loc d ↦[(oR4 L).set]{fullShare} f)
    ∗ (o1Loc d ↦[(oR5 L).set]{fullShare} f)
    ∗ (o1Loc d ↦[(oR6 L).set]{fullShare} f)
    ∗ (o1Loc d ↦[(oR7 L).set]{fullShare} f))
/-- and of the second. -/
def chunks2 (d : Dev nD) (L : grid0.Coords) (f : Buf (Elt F) (o2Loc d)) : sProp 𝕄 :=
  iprop((o2Loc d ↦[(oR0 L).set]{fullShare} f)
    ∗ (o2Loc d ↦[(oR1 L).set]{fullShare} f)
    ∗ (o2Loc d ↦[(oR2 L).set]{fullShare} f)
    ∗ (o2Loc d ↦[(oR3 L).set]{fullShare} f)
    ∗ (o2Loc d ↦[(oR4 L).set]{fullShare} f)
    ∗ (o2Loc d ↦[(oR5 L).set]{fullShare} f)
    ∗ (o2Loc d ↦[(oR6 L).set]{fullShare} f)
    ∗ (o2Loc d ↦[(oR7 L).set]{fullShare} f))

/-- What the tile at `L` is handed: its read shares of the ids and the tables, its chunks of the results. -/
def tileIn (m : (ℓ : Loc nD τ sig) → Buf (Elt F) ℓ) (d : Dev nD) (fi : Buf (Elt F) (iLoc d)) (L : grid0.Coords) : sProp 𝕄 :=
  iprop((iLoc d ↦{tq (wid L)} fi) ∗ (t1Loc d ↦{tq (wid L)} m (t1Loc d)) ∗ (t2Loc d ↦{tq (wid L)} m (t2Loc d))
    ∗ chunks1 d L (m (o1Loc d)) ∗ chunks2 d L (m (o2Loc d)))
/-- What it hands back: the same, its chunks of the results at the lookup. -/
def tileOut (m : (ℓ : Loc nD τ sig) → Buf (Elt F) ℓ) (d : Dev nD) (fi : Buf (Elt F) (iLoc d)) (L : grid0.Coords) : sProp 𝕄 :=
  iprop((iLoc d ↦{tq (wid L)} fi) ∗ (t1Loc d ↦{tq (wid L)} m (t1Loc d)) ∗ (t2Loc d ↦{tq (wid L)} m (t2Loc d))
    ∗ chunks1 d L (G1 m d fi) ∗ chunks2 d L (G2 m d fi))

/-! ## The ids as the kernel sees them: the row-major reshape of the flat ids -/

abbrev a' : DevRef τ sig := Proc.devRef .tc (main_arg0 : Ref sig .tc)
abbrev i' : DevRef τ sig := Proc.devRef .tc (main_v0 : Ref sig .tc)
abbrev t1' : DevRef τ sig := Proc.devRef .tc (main_arg1 : Ref sig .tc)
abbrev t2' : DevRef τ sig := Proc.devRef .tc (main_arg2 : Ref sig .tc)
abbrev o1' : DevRef τ sig := Proc.devRef .tc (main_v1_0 : Ref sig .tc)
abbrev o2' : DevRef τ sig := Proc.devRef .tc (main_v1_1 : Ref sig .tc)
/-- @main's one host operation: the ids reshaped to 256 rows of 64. -/
abbrev opR : HloOp τ sig (Elt F) := StableHlo.reshape main_arg0 main_v0 rfl shapeCasts_S16384_S256x64

/-- The launch valuation of device `d`'s arrays. -/
def V0 (m : (ℓ : Loc nD τ sig) → Buf (Elt F) ℓ) (d : Dev nD) : Valuation τ sig (Elt F) := fun b => m (d, b)
/-- The reshaped ids: what the 256×64 array holds once @main's reshape has run. -/
def ids2 (m : (ℓ : Loc nD τ sig) → Buf (Elt F) ℓ) (d : Dev nD) : Buf (Elt F) (iLoc d) := (opR (F := F)).result (V0 m d) i'

end Cert.Proof.KB

end
-- ==== Proof.KBPay.lean ====
/-
  What the launch's handshakes carry for the one call. The TensorCore hands SparseCore `c` what its 16 tiles are handed
  (`tileIn` at each subcore) and gets back what they hand back (`tileOut`); the sequencer hands tile `(c, i)` its
  `tileIn` and gets its `tileOut`. A SparseCore's operands are exactly its tiles' operands, so the split among the
  tiles is a re-indexing. The kernel makes only local copies and waits for them: beside the handshakes' rounds the
  ghost state keeps the transfers' counters, which the launch sets aside.
-/
import proofs.«204537_g11269994185187_cont_sun_m_1261_11_alg».proof.Proof.KBRes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The call runs on SparseCores `[0, 2)`, -/
theorem nCore_bound (q : Fin 1) : (K (F := F)).nCore q = grid0.bound 0 := match q with | 0 => rfl
/-- on vector subcores `[0, 16)`. -/
theorem nSub_bound (q : Fin 1) : (K (F := F)).nSub q = grid0.bound 1 := match q with | 0 => rfl

/-- The one call: a SparseCore takes and returns its sixteen tiles' operands and results, a tile its own. -/
def P : (K (F := F)).Pay (nD := nD) (Val := Elt F) (Name := ℕ) (U := UU) where
  st := fun q d c => bigSep Finset.univ fun i : Fin (grid0.bound 1) => tileIn m d (ids2 m d) (coordsV (Fin.cast (nCore_bound q) c) i)
  dn := fun q d c => bigSep Finset.univ fun i : Fin (grid0.bound 1) => tileOut m d (ids2 m d) (coordsV (Fin.cast (nCore_bound q) c) i)
  go := fun q d c i => tileIn m d (ids2 m d) (coordsV (Fin.cast (nCore_bound q) c) (Fin.cast (nSub_bound q) i))
  td := fun q d c i => tileOut m d (ids2 m d) (coordsV (Fin.cast (nCore_bound q) c) (Fin.cast (nSub_bound q) i))
  x := fun _ _ => iprop(emp)

theorem P_st (q : Fin 1) (d : Dev nD) (c : Fin ((K (F := F)).nCore q)) :
    (P m).st q d c = bigSep Finset.univ fun i : Fin (grid0.bound 1) => tileIn m d (ids2 m d) (coordsV (Fin.cast (nCore_bound q) c) i) := rfl
theorem P_dn (q : Fin 1) (d : Dev nD) (c : Fin ((K (F := F)).nCore q)) :
    (P m).dn q d c = bigSep Finset.univ fun i : Fin (grid0.bound 1) => tileOut m d (ids2 m d) (coordsV (Fin.cast (nCore_bound q) c) i) := rfl
theorem P_go (q : Fin 1) (d : Dev nD) (c : Fin ((K (F := F)).nCore q)) (i : Fin ((K (F := F)).nSub q)) :
    (P m).go q d c i = tileIn m d (ids2 m d) (coordsV (Fin.cast (nCore_bound q) c) (Fin.cast (nSub_bound q) i)) := rfl
theorem P_td (q : Fin 1) (d : Dev nD) (c : Fin ((K (F := F)).nCore q)) (i : Fin ((K (F := F)).nSub q)) :
    (P m).td q d c i = tileOut m d (ids2 m d) (coordsV (Fin.cast (nCore_bound q) c) (Fin.cast (nSub_bound q) i)) := rfl
theorem P_x (q : Fin 1) (thr : Thread nD τ) : (P m).x q thr = iprop(emp) := rfl

instance tileIn_storable (d : Dev nD) (fi : Buf (Elt F) (iLoc d)) (L : grid0.Coords) :
    BI.Storable (upEmb : UEmb _ 𝕄) (tileIn m d fi L) := by
  unfold tileIn chunks1 chunks2; infer_instance
instance tileOut_storable (d : Dev nD) (fi : Buf (Elt F) (iLoc d)) (L : grid0.Coords) :
    BI.Storable (upEmb : UEmb _ 𝕄) (tileOut m d fi L) := by
  unfold tileOut chunks1 chunks2; infer_instance

instance P_storable : (P (F := F) m).IsStorable where
  st q d c := by rw [P_st]; infer_instance
  dn q d c := by rw [P_dn]; infer_instance
  go q d c i := by rw [P_go]; infer_instance
  td q d c i := by rw [P_td]; infer_instance

/-! ## A SparseCore's operands are its tiles' -/

/-- A separating conjunction over the call's subcores is one over the grid's second axis. -/
theorem bigSep_tasks (Φ : Fin (grid0.bound 1) → sProp 𝕄) :
    (bigSep Finset.univ fun i : Fin ((K (F := F)).nSub 0) => Φ (Fin.cast (nSub_bound 0) i)) = bigSep Finset.univ Φ :=
  bigSep_congr fun _ _ => congrArg Φ (Fin.ext rfl)

/-- A separating conjunction over the call's SparseCores is one over the grid's first axis. -/
theorem bigSep_cores (Φ : Fin (grid0.bound 0) → sProp 𝕄) :
    (bigSep Finset.univ fun c : Fin ((K (F := F)).nCore 0) => Φ (Fin.cast (nCore_bound 0) c)) = bigSep Finset.univ Φ :=
  bigSep_congr fun _ _ => congrArg Φ (Fin.ext rfl)

theorem vecSplit : (K (F := F)).VecSplit' (P m) 0 := by
  intro d c
  rw [P_st, P_dn]
  simp only [P_go, P_td]
  rw [bigSep_tasks (F := F) (fun i => tileIn m d (ids2 m d) (coordsV (Fin.cast (nCore_bound 0) c) i)),
    bigSep_tasks (F := F) (fun i => tileOut m d (ids2 m d) (coordsV (Fin.cast (nCore_bound 0) c) i))]
  iintro H; imodintro
  isplitl [H]; · iexact H
  iintro H; iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.KB

end
-- ==== Proof.KBViews.lean ====
/-
  The memrefs the tile's body slices, named: its eight rows of the ids in HBM, a row of its list scratch, a table
  sliced whole, a 64-row slot of its row scratch, a 64-row chunk of a result.
-/
import proofs.«204537_g11269994185187_cont_sun_m_1261_11_alg».proof.Proof.KBRes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S256x64 EltTy.i32)
local notation "t1V" => (Memref.whole Cert.Kernel.main_arg1_scv : Memref Cert.Kernel.sig Kind.scVector Space.hbm Cert.Kernel.S100000x128 EltTy.f32)
local notation "t2V" => (Memref.whole Cert.Kernel.main_arg2_scv : Memref Cert.Kernel.sig Kind.scVector Space.hbm Cert.Kernel.S100000x128 EltTy.f32)
local notation "o1V" => (Memref.whole Cert.Kernel.main_v1_0_scv : Memref Cert.Kernel.sig Kind.scVector Space.hbm Cert.Kernel.S16384x128 EltTy.f32)
local notation "o2V" => (Memref.whole Cert.Kernel.main_v1_1_scv : Memref Cert.Kernel.sig Kind.scVector Space.hbm Cert.Kernel.S16384x128 EltTy.f32)
local notation "sI" => (Memref.whole Cert.Kernel.cc0_scratch0 : Memref Cert.Kernel.sig Kind.scVector Space.vmem Cert.Kernel.S8x64 EltTy.i32)
local notation "sB" => (Memref.whole Cert.Kernel.cc0_scratch1 : Memref Cert.Kernel.sig Kind.scVector Space.vmem Cert.Kernel.S8x64x128 EltTy.f32)

/-- The tile's eight rows of the 256×64 ids (rows `8·w … 8·w + 7`, `w` its worker number), as its fetch slices them. -/
abbrev iRowsK (L : grid0.Coords) : Memref sig .scVector .hbm S8x64 .i32 :=
  (iV).slice (Rect.unit (s := S256x64) (k0_off1 L) S8x64.size (k0_off1_inb L)) (fun _ => rfl)

/-- Row `off 0` of the list scratch, as a gather names its offset list. -/
abbrev listM (off : Fin 2 → Nat) (inb : ∀ a, off a + S1x64.size a ≤ S8x64.size a) : Memref sig .scVector .vmem S64 .i32 :=
  ((sI).slice (Rect.unit (s := S8x64) off S1x64.size inb) (fun _ => rfl)).squeeze S64 squeezes_S1x64_S64

/-- A table as a gather names its source: sliced whole. -/
abbrev tab1M : Memref sig .scVector .hbm S100000x128 .f32 :=
  (t1V).slice (Rect.unit (s := S100000x128) ![0, 0] S100000x128.size inb_S100000x128_S100000x128_0_0) (fun _ => rfl)
abbrev tab2M : Memref sig .scVector .hbm S100000x128 .f32 :=
  (t2V).slice (Rect.unit (s := S100000x128) ![0, 0] S100000x128.size inb_S100000x128_S100000x128_0_0) (fun _ => rfl)

/-- The eight 64-row slots of the row scratch. -/
abbrev slot0 : Memref sig .scVector .vmem S64x128 .f32 := ((sB).slice (Rect.unit (s := S8x64x128) ![0, 0, 0] S1x64x128.size inb_S8x64x128_S1x64x128_0_0_0) (fun _ => rfl)).squeeze S64x128 squeezes_S1x64x128_S64x128
abbrev slot1 : Memref sig .scVector .vmem S64x128 .f32 := ((sB).slice (Rect.unit (s := S8x64x128) ![1, 0, 0] S1x64x128.size inb_S8x64x128_S1x64x128_1_0_0) (fun _ => rfl)).squeeze S64x128 squeezes_S1x64x128_S64x128
abbrev slot2 : Memref sig .scVector .vmem S64x128 .f32 := ((sB).slice (Rect.unit (s := S8x64x128) ![2, 0, 0] S1x64x128.size inb_S8x64x128_S1x64x128_2_0_0) (fun _ => rfl)).squeeze S64x128 squeezes_S1x64x128_S64x128
abbrev slot3 : Memref sig .scVector .vmem S64x128 .f32 := ((sB).slice (Rect.unit (s := S8x64x128) ![3, 0, 0] S1x64x128.size inb_S8x64x128_S1x64x128_3_0_0) (fun _ => rfl)).squeeze S64x128 squeezes_S1x64x128_S64x128
abbrev slot4 : Memref sig .scVector .vmem S64x128 .f32 := ((sB).slice (Rect.unit (s := S8x64x128) ![4, 0, 0] S1x64x128.size inb_S8x64x128_S1x64x128_4_0_0) (fun _ => rfl)).squeeze S64x128 squeezes_S1x64x128_S64x128
abbrev slot5 : Memref sig .scVector .vmem S64x128 .f32 := ((sB).slice (Rect.unit (s := S8x64x128) ![5, 0, 0] S1x64x128.size inb_S8x64x128_S1x64x128_5_0_0) (fun _ => rfl)).squeeze S64x128 squeezes_S1x64x128_S64x128
abbrev slot6 : Memref sig .scVector .vmem S64x128 .f32 := ((sB).slice (Rect.unit (s := S8x64x128) ![6, 0, 0] S1x64x128.size inb_S8x64x128_S1x64x128_6_0_0) (fun _ => rfl)).squeeze S64x128 squeezes_S1x64x128_S64x128
abbrev slot7 : Memref sig .scVector .vmem S64x128 .f32 := ((sB).slice (Rect.unit (s := S8x64x128) ![7, 0, 0] S1x64x128.size inb_S8x64x128_S1x64x128_7_0_0) (fun _ => rfl)).squeeze S64x128 squeezes_S1x64x128_S64x128

/-- The eight chunks of each result the tile at `L` writes. -/
abbrev o1c0 (L : grid0.Coords) : Memref sig .scVector .hbm S64x128 .f32 := (o1V).slice (oR0 L) (fun _ => rfl)
abbrev o2c0 (L : grid0.Coords) : Memref sig .scVector .hbm S64x128 .f32 := (o2V).slice (oR0 L) (fun _ => rfl)
abbrev o1c1 (L : grid0.Coords) : Memref sig .scVector .hbm S64x128 .f32 := (o1V).slice (oR1 L) (fun _ => rfl)
abbrev o2c1 (L : grid0.Coords) : Memref sig .scVector .hbm S64x128 .f32 := (o2V).slice (oR1 L) (fun _ => rfl)
abbrev o1c2 (L : grid0.Coords) : Memref sig .scVector .hbm S64x128 .f32 := (o1V).slice (oR2 L) (fun _ => rfl)
abbrev o2c2 (L : grid0.Coords) : Memref sig .scVector .hbm S64x128 .f32 := (o2V).slice (oR2 L) (fun _ => rfl)
abbrev o1c3 (L : grid0.Coords) : Memref sig .scVector .hbm S64x128 .f32 := (o1V).slice (oR3 L) (fun _ => rfl)
abbrev o2c3 (L : grid0.Coords) : Memref sig .scVector .hbm S64x128 .f32 := (o2V).slice (oR3 L) (fun _ => rfl)
abbrev o1c4 (L : grid0.Coords) : Memref sig .scVector .hbm S64x128 .f32 := (o1V).slice (oR4 L) (fun _ => rfl)
abbrev o2c4 (L : grid0.Coords) : Memref sig .scVector .hbm S64x128 .f32 := (o2V).slice (oR4 L) (fun _ => rfl)
abbrev o1c5 (L : grid0.Coords) : Memref sig .scVector .hbm S64x128 .f32 := (o1V).slice (oR5 L) (fun _ => rfl)
abbrev o2c5 (L : grid0.Coords) : Memref sig .scVector .hbm S64x128 .f32 := (o2V).slice (oR5 L) (fun _ => rfl)
abbrev o1c6 (L : grid0.Coords) : Memref sig .scVector .hbm S64x128 .f32 := (o1V).slice (oR6 L) (fun _ => rfl)
abbrev o2c6 (L : grid0.Coords) : Memref sig .scVector .hbm S64x128 .f32 := (o2V).slice (oR6 L) (fun _ => rfl)
abbrev o1c7 (L : grid0.Coords) : Memref sig .scVector .hbm S64x128 .f32 := (o1V).slice (oR7 L) (fun _ => rfl)
abbrev o2c7 (L : grid0.Coords) : Memref sig .scVector .hbm S64x128 .f32 := (o2V).slice (oR7 L) (fun _ => rfl)

end Cert.Proof.KB

end
-- ==== Proof.KBVal.lean ====
/-
  The values: what one indirect gather fetched and what one 64-row chunk of a result holds, by chasing an index
  through the views (a row of the list scratch squeezed to a 64-vector, a table sliced whole, a 64-row chunk of a
  result). Row `x` of the gather by list row `j` at the tile of grid point `L` is the table row named by the id at row
  `16·(L 1) + 8·(L 0) + j`, column `x` of the 256×64 ids; the chunk it is copied to starts at row
  `1024·(L 1) + 512·(L 0) + 64·j` of the result, so there the result is the lookup.
-/
import proofs.«204537_g11269994185187_cont_sun_m_1261_11_alg».proof.Proof.KBViews
import Idealize.ShloMosaic.Lib.Writes
import Idealize.ShloMosaic.Lib.ValueIdx
import Idealize.ShloMosaic.Lib.SparseCore.Stream

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S256x64 EltTy.i32)
local notation "t1V" => (Memref.whole Cert.Kernel.main_arg1_scv : Memref Cert.Kernel.sig Kind.scVector Space.hbm Cert.Kernel.S100000x128 EltTy.f32)
local notation "t2V" => (Memref.whole Cert.Kernel.main_arg2_scv : Memref Cert.Kernel.sig Kind.scVector Space.hbm Cert.Kernel.S100000x128 EltTy.f32)
local notation "o1V" => (Memref.whole Cert.Kernel.main_v1_0_scv : Memref Cert.Kernel.sig Kind.scVector Space.hbm Cert.Kernel.S16384x128 EltTy.f32)
local notation "o2V" => (Memref.whole Cert.Kernel.main_v1_1_scv : Memref Cert.Kernel.sig Kind.scVector Space.hbm Cert.Kernel.S16384x128 EltTy.f32)
local notation "sI" => (Memref.whole Cert.Kernel.cc0_scratch0 : Memref Cert.Kernel.sig Kind.scVector Space.vmem Cert.Kernel.S8x64 EltTy.i32)
local notation "sB" => (Memref.whole Cert.Kernel.cc0_scratch1 : Memref Cert.Kernel.sig Kind.scVector Space.vmem Cert.Kernel.S8x64x128 EltTy.f32)

/-- After a list of writes through a view whose last write covers the whole shape, the view reads that write's payload. -/
theorem slot_read {κ : Kind} {sp : Space} {e : EltTy} (v : View sig κ sp S64x128 e) (fb : v.ty.Contents (Elt F))
    (w : (Rect.whole S64x128).shape.Idx → Elt F e) (rest : List (View.Piece (Elt F) S64x128 e)) :
    (ReadAs.same : ReadAs (Elt F) S64x128 e S64x128 e).apply (v.read (Elt F) (v.writes (Elt F) fb (⟨Rect.whole S64x128, w⟩ :: rest))) = w := by
  funext x
  have h := View.read_writes_cons_emb v fb (Rect.whole S64x128) w rest x
  rw [Rect.emb_whole_apply] at h
  exact h

/-- Every word of a row of the list scratch, once the tile's eight rows of the ids have been written over it whole, is
    an id, hence below 100000 under the precondition. -/
theorem inb_of_pre (d : Dev nD) (L : grid0.Coords) (fi : Buf (Elt F) (iLoc d)) (hpre : ∀ y, (fi y).toNat < 100000)
    (g : Buf (Elt F) ((V d (cV L) (jV L)).loc cc0_scratch0))
    (pay : S8x64.Idx → Elt F .i32) (hpay : pay = (iRowsK L).view.read (Elt F) fi) (off : Fin 2 → Nat)
    (inb : ∀ a, off a + S1x64.size a ≤ S8x64.size a) :
    ∀ x, ((listM off inb).view.read (Elt F) (View.write (Elt F) (sI).view g pay Finset.univ) x).toNat < 100000 := by
  intro x
  subst hpay
  rw [View.read_apply]
  erw [View.write_whole_univ]
  rw [cast_eq, View.read_apply, cast_eq]
  exact hpre _

/-! ## Bounds -/
theorem L0_lt (L : grid0.Coords) : (L 0).val < 2 := (L 0).isLt
theorem L1_lt (L : grid0.Coords) : (L 1).val < 16 := (L 1).isLt
/-- Row `j` of the tile's eight rows of the ids is a row of the 256. -/
theorem listRow_lt (L : grid0.Coords) {j : ℕ} (hj : j < 8) : 16 * (L 1).val + 8 * (L 0).val + j < 256 := by
  have h0 := L0_lt L; have h1 := L1_lt L; omega

/-- what slot/chunk row x of list row j names -/
def rowVal {α : Type} (L : grid0.Coords) (fi : Cert.Spec.SIds2.Idx → BitVec 32) (hfi : ∀ y, (fi y).toNat < 100000)
    (tab : Cert.Spec.STab.Idx → α) (j : ℕ) (hj : j < 8) : S64x128.Idx → α :=
  fun x => tab (ix2 (⟨(fi (ix2 (⟨16 * (L 1).val + 8 * (L 0).val + j, listRow_lt L hj⟩ : Fin 256) (⟨(x 0).val, idx2_lt0 x⟩ : Fin 64))).toNat, hfi _⟩ : Fin 100000)
    (⟨(x 1).val, idx2_lt1 x⟩ : Fin 128))

/-- The index of a 64-vector matched with a 1×64 index is that index behind the coordinate 0. -/
theorem sq64_coord0 (h : S64.numel = S1x64.numel) (z : S64.Idx) : ((Shape.reshapeEquiv h z) 0).val = 0 := by
  have h1 := Shape.rowMajor_reshapeEquiv h z
  rw [Shape.rowMajor_val_two, Shape.rowMajor_val_one] at h1
  have h2 := idx2_lt0 (Shape.reshapeEquiv h z)
  omega
theorem sq64_coord1 (h : S64.numel = S1x64.numel) (z : S64.Idx) : ((Shape.reshapeEquiv h z) 1).val = (z 0).val := by
  have h1 := Shape.rowMajor_reshapeEquiv h z
  rw [Shape.rowMajor_val_two, Shape.rowMajor_val_one] at h1
  have h2 := idx2_lt0 (Shape.reshapeEquiv h z)
  have h3 : (![1, 64] : Fin 2 → ℕ) 1 = 64 := rfl
  rw [h3] at h1
  omega

/-- The `k`-th index of a 64-vector in row-major order has coordinate `k`. -/
theorem rm64_symm_val (k : Fin S64.numel) : ((S64.rowMajor.symm k) 0).val = k.val := by
  have h := Shape.rowMajor_val_one (S64.rowMajor.symm k)
  rw [Equiv.apply_symm_apply] at h
  exact h.symm

/-- A word of row `j` of the list scratch, once the tile's eight rows of the ids are written over it whole: the id at
    row `16·(L 1) + 8·(L 0) + j` of the 256×64 ids, same column. -/
theorem list_read (d : Dev nD) (L : grid0.Coords) (fi : Buf (Elt F) (iLoc d))
    (g : Buf (Elt F) ((V d (cV L) (jV L)).loc cc0_scratch0)) (j : ℕ) (hj : j < 8)
    (inb : ∀ a, (![j, 0] : Fin 2 → Nat) a + S1x64.size a ≤ S8x64.size a) (z : S64.Idx) (n : ℕ) (hn : (z 0).val = n) (hn' : n < 64) :
    (listM ![j, 0] inb).view.read (Elt F) (View.write (Elt F) (sI).view g (ReadAs.same.apply ((iRowsK L).view.read (Elt F) fi)) Finset.univ) z
      = fi (ix2 (⟨16 * (L 1).val + 8 * (L 0).val + j, listRow_lt L hj⟩ : Fin 256) (⟨n, hn'⟩ : Fin 64)) := by
  rw [View.read_apply]
  erw [View.write_whole_univ]
  rw [cast_eq]
  show (iRowsK L).view.read (Elt F) fi _ = _
  rw [View.read_apply, cast_eq]
  refine congrArg fi (funext fun a => Fin.ext ?_)
  match a with
  | ⟨0, _⟩ =>
    show k0_off1 L 0 + 1 * (![j, 0] 0 + 1 * ((Shape.reshapeEquiv _ z) 0).val) = 16 * (L 1).val + 8 * (L 0).val + j
    rw [sq64_coord0, k0_off1_eq]
    show 16 * (L 1).val + 8 * (L 0).val + 1 * (j + 1 * 0) = _
    omega
  | ⟨1, _⟩ =>
    show k0_off1 L 1 + 1 * (![j, 0] 1 + 1 * ((Shape.reshapeEquiv _ z) 1).val) = n
    rw [sq64_coord1, k0_off1_eq, hn]
    show 0 + 1 * (0 + 1 * n) = n
    omega

/-- What the gather of table 1 by row `j` of the list scratch fetched. -/
theorem gather1_val (d : Dev nD) (L : grid0.Coords) (fi : Buf (Elt F) (iLoc d)) (hfi : ∀ y, (fi y).toNat < 100000)
    (tab : Buf (Elt F) (t1Loc d)) (g : Buf (Elt F) ((V d (cV L) (jV L)).loc cc0_scratch0)) (j : ℕ) (hj : j < 8)
    (inb : ∀ a, (![j, 0] : Fin 2 → Nat) a + S1x64.size a ≤ S8x64.size a)
    (hn : S64.numel = S64x128.size (Facts₀.gathers_S100000x128_S64x128).axis')
    (hin : ∀ x, ((listM ![j, 0] inb).view.read (Elt F) (View.write (Elt F) (sI).view g (ReadAs.same.apply ((iRowsK L).view.read (Elt F) fi)) Finset.univ) x).toNat < 100000)
    (x : S64x128.Idx) :
    SparseCore.gatherPayload Facts₀.gathers_S100000x128_S64x128 ((tab1M).view.read (Elt F) tab)
        (SparseCore.rows ((listM ![j, 0] inb).view.read (Elt F) (View.write (Elt F) (sI).view g (ReadAs.same.apply ((iRowsK L).view.read (Elt F) fi)) Finset.univ)) hn hin) x
      = rowVal L fi hfi tab j hj x := by
  unfold SparseCore.gatherPayload rowVal
  rw [View.read_apply, cast_eq]
  refine congrArg tab (funext fun a => Fin.ext ?_)
  match a with
  | ⟨0, _⟩ =>
    have e0 := Shape.Gathers.idx_axis Facts₀.gathers_S100000x128_S64x128
      (SparseCore.rows ((listM ![j, 0] inb).view.read (Elt F) (View.write (Elt F) (sI).view g (ReadAs.same.apply ((iRowsK L).view.read (Elt F) fi)) Finset.univ)) hn hin) x
    show 0 + 1 * ((Facts₀.gathers_S100000x128_S64x128).idx _ x (Facts₀.gathers_S100000x128_S64x128).axis).val = _
    rw [e0]
    show 0 + 1 * ((listM ![j, 0] inb).view.read (Elt F) _ (S64.rowMajor.symm _)).toNat = _
    have hz : ((S64.rowMajor.symm (Fin.cast hn.symm (x (Facts₀.gathers_S100000x128_S64x128).axis'))) 0).val = (x 0).val :=
      rm64_symm_val _
    rw [list_read d L fi g j hj inb _ (x 0).val hz (idx2_lt0 x)]
    show 0 + 1 * (fi _).toNat = (fi _).toNat
    omega
  | ⟨1, _⟩ =>
    have e1 := Shape.Gathers.idx_of_ne Facts₀.gathers_S100000x128_S64x128
      (SparseCore.rows ((listM ![j, 0] inb).view.read (Elt F) (View.write (Elt F) (sI).view g (ReadAs.same.apply ((iRowsK L).view.read (Elt F) fi)) Finset.univ)) hn hin) x
      (1 : Fin 2) (by decide)
    show 0 + 1 * ((Facts₀.gathers_S100000x128_S64x128).idx _ x 1).val = (x 1).val
    rw [e1]
    show 0 + 1 * (x 1).val = (x 1).val
    omega

/-- What the gather of table 2 by row `j` of the list scratch fetched. -/
theorem gather2_val (d : Dev nD) (L : grid0.Coords) (fi : Buf (Elt F) (iLoc d)) (hfi : ∀ y, (fi y).toNat < 100000)
    (tab : Buf (Elt F) (t2Loc d)) (g : Buf (Elt F) ((V d (cV L) (jV L)).loc cc0_scratch0)) (j : ℕ) (hj : j < 8)
    (inb : ∀ a, (![j, 0] : Fin 2 → Nat) a + S1x64.size a ≤ S8x64.size a)
    (hn : S64.numel = S64x128.size (Facts₀.gathers_S100000x128_S64x128).axis')
    (hin : ∀ x, ((listM ![j, 0] inb).view.read (Elt F) (View.write (Elt F) (sI).view g (ReadAs.same.apply ((iRowsK L).view.read (Elt F) fi)) Finset.univ) x).toNat < 100000)
    (x : S64x128.Idx) :
    SparseCore.gatherPayload Facts₀.gathers_S100000x128_S64x128 ((tab2M).view.read (Elt F) tab)
        (SparseCore.rows ((listM ![j, 0] inb).view.read (Elt F) (View.write (Elt F) (sI).view g (ReadAs.same.apply ((iRowsK L).view.read (Elt F) fi)) Finset.univ)) hn hin) x
      = rowVal L fi hfi tab j hj x := by
  unfold SparseCore.gatherPayload rowVal
  rw [View.read_apply, cast_eq]
  refine congrArg tab (funext fun a => Fin.ext ?_)
  match a with
  | ⟨0, _⟩ =>
    have e0 := Shape.Gathers.idx_axis Facts₀.gathers_S100000x128_S64x128
      (SparseCore.rows ((listM ![j, 0] inb).view.read (Elt F) (View.write (Elt F) (sI).view g (ReadAs.same.apply ((iRowsK L).view.read (Elt F) fi)) Finset.univ)) hn hin) x
    show 0 + 1 * ((Facts₀.gathers_S100000x128_S64x128).idx _ x (Facts₀.gathers_S100000x128_S64x128).axis).val = _
    rw [e0]
    show 0 + 1 * ((listM ![j, 0] inb).view.read (Elt F) _ (S64.rowMajor.symm _)).toNat = _
    have hz : ((S64.rowMajor.symm (Fin.cast hn.symm (x (Facts₀.gathers_S100000x128_S64x128).axis'))) 0).val = (x 0).val :=
      rm64_symm_val _
    rw [list_read d L fi g j hj inb _ (x 0).val hz (idx2_lt0 x)]
    show 0 + 1 * (fi _).toNat = (fi _).toNat
    omega
  | ⟨1, _⟩ =>
    have e1 := Shape.Gathers.idx_of_ne Facts₀.gathers_S100000x128_S64x128
      (SparseCore.rows ((listM ![j, 0] inb).view.read (Elt F) (View.write (Elt F) (sI).view g (ReadAs.same.apply ((iRowsK L).view.read (Elt F) fi)) Finset.univ)) hn hin) x
      (1 : Fin 2) (by decide)
    show 0 + 1 * ((Facts₀.gathers_S100000x128_S64x128).idx _ x 1).val = (x 1).val
    rw [e1]
    show 0 + 1 * (x 1).val = (x 1).val
    omega

/-! ## A chunk of a result -/

/-- The lookup read at an index whose row is `64·R + C` and whose column is `l`, the id there in range. -/
theorem take2_at {α : Type} (fi : Cert.Spec.SIds2.Idx → BitVec 32) (tab : Cert.Spec.STab.Idx → α) (y : Cert.Spec.SOut.Idx)
    (R : Fin 256) (C : Fin 64) (l : Fin 128) (hR : (y 0).val / 64 = R.val) (hC : (y 0).val % 64 = C.val) (hl : (y 1).val = l.val)
    (h : (fi (ix2 R C)).toNat < 100000) :
    Cert.Spec.take2 fi tab y = tab (ix2 (⟨(fi (ix2 R C)).toNat, h⟩ : Fin 100000) l) := by
  unfold Cert.Spec.take2
  have e1 : (⟨(y 0).val / 64, Cert.Spec.div64_lt (idx2_lt0 y)⟩ : Fin 256) = R := Fin.ext hR
  have e2 : (⟨(y 0).val % 64, Cert.Spec.mod64_lt _⟩ : Fin 64) = C := Fin.ext hC
  have e3 : (⟨(y 1).val, idx2_lt1 y⟩ : Fin 128) = l := Fin.ext hl
  rw [e1, e2, e3]
  exact congrArg (fun r => tab (ix2 r l)) (Fin.ext (Cert.Spec.rowOf_val_of_lt h))

/-- Chunk `j` of the first result that the tile at `L` writes, the chunk's number a variable. -/
abbrev o1cN (L : grid0.Coords) (j : ℕ) (hj : j < 8) : Memref sig .scVector .hbm S64x128 .f32 :=
  (o1V).slice (Rect.unit (s := S16384x128) (k0_off2 L (BitVec.ofNat 32 (64 * j))) S64x128.size (k0_off2_inb L ⟨j, hj⟩)) (fun _ => rfl)
/-- The same of the second result. -/
abbrev o2cN (L : grid0.Coords) (j : ℕ) (hj : j < 8) : Memref sig .scVector .hbm S64x128 .f32 :=
  (o2V).slice (Rect.unit (s := S16384x128) (k0_off2 L (BitVec.ofNat 32 (64 * j))) S64x128.size (k0_off2_inb L ⟨j, hj⟩)) (fun _ => rfl)

theorem off2_eq (L : grid0.Coords) (j : ℕ) (hj : j < 8) :
    k0_off2 L (BitVec.ofNat 32 (64 * j)) = ![1024 * (L 1).val + 512 * (L 0).val + 64 * j, 0] := k0_off2_eq L ⟨j, hj⟩

/-- Chunk `j` of the first result, written whole with what list row `j` names, holds the lookup. -/
theorem chunk1_val (d : Dev nD) (L : grid0.Coords) (fi : Buf (Elt F) (iLoc d)) (hfi : ∀ y, (fi y).toNat < 100000)
    (f0 : Buf (Elt F) (o1Loc d)) (tab : Buf (Elt F) (t1Loc d)) (j : ℕ) (hj : j < 8) (pay : S64x128.Idx → Elt F .f32)
    (hpay : ∀ x, pay x = rowVal L fi hfi tab j hj x) :
    ∀ i ∈ (o1cN L j hj).view.set, (o1cN L j hj).view.writes (Elt F) f0 [⟨Rect.whole S64x128, pay⟩] i = Cert.Spec.take2 fi tab i := by
  intro i hi
  obtain ⟨x, -, rfl⟩ := Finset.mem_map.mp hi
  have hoff := off2_eq L j hj
  have h0 := L0_lt L
  have h1 := L1_lt L
  have hx0 : (x 0).val < 64 := idx2_lt0 x
  rw [View.writes_singleton]
  have e : (o1cN L j hj).view.emb x = ((o1cN L j hj).view.slice (Rect.whole S64x128)).emb x := by
    show _ = (o1cN L j hj).view.emb ((Rect.whole S64x128).emb x)
    rw [Rect.emb_whole_apply]
  rw [e, View.write_emb_of_mem _ _ (Finset.mem_univ _), cast_eq, hpay, ← e]
  refine (take2_at fi tab ((o1cN L j hj).view.emb x) ⟨16 * (L 1).val + 8 * (L 0).val + j, listRow_lt L hj⟩ ⟨(x 0).val, idx2_lt0 x⟩
    ⟨(x 1).val, idx2_lt1 x⟩ ?_ ?_ ?_ (hfi _)).symm
  · show (k0_off2 L (BitVec.ofNat 32 (64 * j)) 0 + 1 * (x 0).val) / 64 = 16 * (L 1).val + 8 * (L 0).val + j
    rw [hoff]
    show (1024 * (L 1).val + 512 * (L 0).val + 64 * j + 1 * (x 0).val) / 64 = _
    omega
  · show (k0_off2 L (BitVec.ofNat 32 (64 * j)) 0 + 1 * (x 0).val) % 64 = (x 0).val
    rw [hoff]
    show (1024 * (L 1).val + 512 * (L 0).val + 64 * j + 1 * (x 0).val) % 64 = _
    omega
  · show k0_off2 L (BitVec.ofNat 32 (64 * j)) 1 + 1 * (x 1).val = (x 1).val
    rw [hoff]
    show 0 + 1 * (x 1).val = _
    omega
/-- Chunk `j` of the second result, written whole with what list row `j` names, holds the lookup. -/
theorem chunk2_val (d : Dev nD) (L : grid0.Coords) (fi : Buf (Elt F) (iLoc d)) (hfi : ∀ y, (fi y).toNat < 100000)
    (f0 : Buf (Elt F) (o2Loc d)) (tab : Buf (Elt F) (t2Loc d)) (j : ℕ) (hj : j < 8) (pay : S64x128.Idx → Elt F .f32)
    (hpay : ∀ x, pay x = rowVal L fi hfi tab j hj x) :
    ∀ i ∈ (o2cN L j hj).view.set, (o2cN L j hj).view.writes (Elt F) f0 [⟨Rect.whole S64x128, pay⟩] i = Cert.Spec.take2 fi tab i := by
  intro i hi
  obtain ⟨x, -, rfl⟩ := Finset.mem_map.mp hi
  have hoff := off2_eq L j hj
  have h0 := L0_lt L
  have h1 := L1_lt L
  have hx0 : (x 0).val < 64 := idx2_lt0 x
  rw [View.writes_singleton]
  have e : (o2cN L j hj).view.emb x = ((o2cN L j hj).view.slice (Rect.whole S64x128)).emb x := by
    show _ = (o2cN L j hj).view.emb ((Rect.whole S64x128).emb x)
    rw [Rect.emb_whole_apply]
  rw [e, View.write_emb_of_mem _ _ (Finset.mem_univ _), cast_eq, hpay, ← e]
  refine (take2_at fi tab ((o2cN L j hj).view.emb x) ⟨16 * (L 1).val + 8 * (L 0).val + j, listRow_lt L hj⟩ ⟨(x 0).val, idx2_lt0 x⟩
    ⟨(x 1).val, idx2_lt1 x⟩ ?_ ?_ ?_ (hfi _)).symm
  · show (k0_off2 L (BitVec.ofNat 32 (64 * j)) 0 + 1 * (x 0).val) / 64 = 16 * (L 1).val + 8 * (L 0).val + j
    rw [hoff]
    show (1024 * (L 1).val + 512 * (L 0).val + 64 * j + 1 * (x 0).val) / 64 = _
    omega
  · show (k0_off2 L (BitVec.ofNat 32 (64 * j)) 0 + 1 * (x 0).val) % 64 = (x 0).val
    rw [hoff]
    show (1024 * (L 1).val + 512 * (L 0).val + 64 * j + 1 * (x 0).val) % 64 = _
    omega
  · show k0_off2 L (BitVec.ofNat 32 (64 * j)) 1 + 1 * (x 1).val = (x 1).val
    rw [hoff]
    show 0 + 1 * (x 1).val = _
    omega

end Cert.Proof.KB

end
-- ==== Proof.KBSlots.lean ====
/-
  The row scratch (8×64×128) as its eight 64-row slots: the slots partition it by the first coordinate, so the whole
  array at one contents is the eight slots at those contents, and the eight slots at contents of their own join to
  the whole array at some contents.
-/
import proofs.«204537_g11269994185187_cont_sun_m_1261_11_alg».proof.Proof.KBViews
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S256x64 EltTy.i32)
local notation "t1V" => (Memref.whole Cert.Kernel.main_arg1_scv : Memref Cert.Kernel.sig Kind.scVector Space.hbm Cert.Kernel.S100000x128 EltTy.f32)
local notation "t2V" => (Memref.whole Cert.Kernel.main_arg2_scv : Memref Cert.Kernel.sig Kind.scVector Space.hbm Cert.Kernel.S100000x128 EltTy.f32)
local notation "o1V" => (Memref.whole Cert.Kernel.main_v1_0_scv : Memref Cert.Kernel.sig Kind.scVector Space.hbm Cert.Kernel.S16384x128 EltTy.f32)
local notation "o2V" => (Memref.whole Cert.Kernel.main_v1_1_scv : Memref Cert.Kernel.sig Kind.scVector Space.hbm Cert.Kernel.S16384x128 EltTy.f32)
local notation "sI" => (Memref.whole Cert.Kernel.cc0_scratch0 : Memref Cert.Kernel.sig Kind.scVector Space.vmem Cert.Kernel.S8x64 EltTy.i32)
local notation "sB" => (Memref.whole Cert.Kernel.cc0_scratch1 : Memref Cert.Kernel.sig Kind.scVector Space.vmem Cert.Kernel.S8x64x128 EltTy.f32)

/-! ## The eight slots partition the row scratch by the first coordinate -/

theorem slot_inb (b : Fin 8) : ∀ a, (![b.val, 0, 0] : Fin 3 → Nat) a + S1x64x128.size a ≤ S8x64x128.size a := by
  intro a
  have hb := b.isLt
  match a with
  | ⟨0, _⟩ => show b.val + 1 ≤ 8; omega
  | ⟨1, _⟩ => show 0 + 64 ≤ 64; omega
  | ⟨2, _⟩ => show 0 + 128 ≤ 128; omega

/-- Slot `b`'s elements of the 8×64×128 scratch. -/
def slotSet (b : Fin 8) : Finset S8x64x128.Idx :=
  (Rect.unit (s := S8x64x128) ![b.val, 0, 0] S1x64x128.size (slot_inb b)).set

/-- An index lies in slot `b` exactly when its first coordinate is `b`. -/
theorem mem_slotSet (b : Fin 8) (y : S8x64x128.Idx) : y ∈ slotSet b ↔ (y 0).val = b.val := by
  unfold slotSet
  rw [Rect.mem_set_unit]
  constructor
  · intro h
    have h0 := h 0
    change b.val ≤ (y 0).val ∧ (y 0).val < b.val + 1 at h0
    omega
  · intro h a
    match a with
    | ⟨0, _⟩ => show b.val ≤ (y 0).val ∧ (y 0).val < b.val + 1; omega
    | ⟨1, _⟩ =>
      have h1 : (y 1).val < 64 := (y 1).isLt
      show 0 ≤ (y 1).val ∧ (y 1).val < 0 + 64; omega
    | ⟨2, _⟩ =>
      have h2 : (y 2).val < 128 := (y 2).isLt
      show 0 ≤ (y 2).val ∧ (y 2).val < 0 + 128; omega

theorem slot_disjoint :
    ∀ t ∈ (Finset.univ : Finset (Fin 8)), ∀ t' ∈ (Finset.univ : Finset (Fin 8)), t ≠ t' → Disjoint (slotSet t) (slotSet t') := by
  intro t _ t' _ hne
  rw [Finset.disjoint_left]
  intro y hy hy'
  rw [mem_slotSet] at hy hy'
  exact hne (Fin.ext (hy.symm.trans hy'))

theorem slot_cover : (Finset.univ : Finset (Fin 8)).biUnion slotSet = Finset.univ := by
  ext y
  simp only [Finset.mem_biUnion, Finset.mem_univ, true_and, iff_true]
  have h0 : (y 0).val < 8 := (y 0).isLt
  exact ⟨⟨(y 0).val, h0⟩, (mem_slotSet _ y).mpr rfl⟩

/-- A separating conjunction over the eight slot numbers, written out. -/
theorem bigSep_slots8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem set_slot0 : (slot0).view.set = slotSet 0 := (View.set_reshape _ _).trans (View.set_slice_whole _ _)
theorem set_slot1 : (slot1).view.set = slotSet 1 := (View.set_reshape _ _).trans (View.set_slice_whole _ _)
theorem set_slot2 : (slot2).view.set = slotSet 2 := (View.set_reshape _ _).trans (View.set_slice_whole _ _)
theorem set_slot3 : (slot3).view.set = slotSet 3 := (View.set_reshape _ _).trans (View.set_slice_whole _ _)
theorem set_slot4 : (slot4).view.set = slotSet 4 := (View.set_reshape _ _).trans (View.set_slice_whole _ _)
theorem set_slot5 : (slot5).view.set = slotSet 5 := (View.set_reshape _ _).trans (View.set_slice_whole _ _)
theorem set_slot6 : (slot6).view.set = slotSet 6 := (View.set_reshape _ _).trans (View.set_slice_whole _ _)
theorem set_slot7 : (slot7).view.set = slotSet 7 := (View.set_reshape _ _).trans (View.set_slice_whole _ _)

section Slots
variable (d : Dev nD) (c : Fin τ.nSC) (i : Fin τ.nSub)

/-- The row scratch, whole, is its eight slots. -/
theorem sB_split (f : Buf (Elt F) ((sB).view.loc (V d c i))) :
    ((sB).view.loc (V d c i) ↦{fullShare} f : sProp 𝕄)
      = iprop(((slot0).view.loc (V d c i) ↦[(slot0).view.set]{fullShare} f) ∗ ((slot1).view.loc (V d c i) ↦[(slot1).view.set]{fullShare} f)
        ∗ ((slot2).view.loc (V d c i) ↦[(slot2).view.set]{fullShare} f) ∗ ((slot3).view.loc (V d c i) ↦[(slot3).view.set]{fullShare} f)
        ∗ ((slot4).view.loc (V d c i) ↦[(slot4).view.set]{fullShare} f) ∗ ((slot5).view.loc (V d c i) ↦[(slot5).view.set]{fullShare} f)
        ∗ ((slot6).view.loc (V d c i) ↦[(slot6).view.set]{fullShare} f) ∗ ((slot7).view.loc (V d c i) ↦[(slot7).view.set]{fullShare} f)) := by
  rw [set_slot0, set_slot1, set_slot2, set_slot3, set_slot4, set_slot5, set_slot6, set_slot7]
  refine Eq.trans ?_ (bigSep_slots8 (F := F) fun b => ((sB).view.loc (V d c i) ↦[slotSet b]{fullShare} f : sProp 𝕄))
  rw [← pointsTo_biUnion Finset.univ (ℓ := (sB).view.loc (V d c i)) slotSet slot_disjoint, slot_cover]

/-- The eight slots, each at contents of its own, are the row scratch whole at some contents. -/
theorem sB_join (f0 f1 f2 f3 f4 f5 f6 f7 : Buf (Elt F) ((sB).view.loc (V d c i))) :
    iprop(((slot0).view.loc (V d c i) ↦[(slot0).view.set]{fullShare} f0) ∗ ((slot1).view.loc (V d c i) ↦[(slot1).view.set]{fullShare} f1)
        ∗ ((slot2).view.loc (V d c i) ↦[(slot2).view.set]{fullShare} f2) ∗ ((slot3).view.loc (V d c i) ↦[(slot3).view.set]{fullShare} f3)
        ∗ ((slot4).view.loc (V d c i) ↦[(slot4).view.set]{fullShare} f4) ∗ ((slot5).view.loc (V d c i) ↦[(slot5).view.set]{fullShare} f5)
        ∗ ((slot6).view.loc (V d c i) ↦[(slot6).view.set]{fullShare} f6) ∗ ((slot7).view.loc (V d c i) ↦[(slot7).view.set]{fullShare} f7))
      ⊢ (iprop(∃ g, (V d c i).loc cc0_scratch1 ↦{fullShare} g) : sProp 𝕄) := by
  rw [set_slot0, set_slot1, set_slot2, set_slot3, set_slot4, set_slot5, set_slot6, set_slot7]
  have hj : bigSep (Finset.univ : Finset (Fin 8)) (fun t => ((sB).view.loc (V d c i) ↦[slotSet t]{fullShare}
        (![f0, f1, f2, f3, f4, f5, f6, f7] : Fin 8 → Buf (Elt F) ((sB).view.loc (V d c i))) t : sProp 𝕄))
      ⊢ (iprop(∃ g, ⌜∀ t ∈ (Finset.univ : Finset (Fin 8)), ∀ i' ∈ slotSet t,
            g i' = (![f0, f1, f2, f3, f4, f5, f6, f7] : Fin 8 → Buf (Elt F) ((sB).view.loc (V d c i))) t i'⌝
          ∗ (sB).view.loc (V d c i) ↦[(Finset.univ : Finset (Fin 8)).biUnion slotSet]{fullShare} g) : sProp 𝕄) :=
    pointsTo_biUnion_join _ _ _ f0 slot_disjoint
  rw [bigSep_slots8, slot_cover] at hj
  refine hj.trans ?_
  iintro ⟨%g, -, H⟩
  iexists g
  iexact H

end Slots

end Cert.Proof.KB

end
-- ==== Proof.KBTile.lean ====
/-
  One tile's task, at a symbolic grid point `L` (SparseCore `L 0`, subcore `L 1`; worker `w = 2·(L 1) + (L 0)`).

  The task fetches rows `8w … 8w+7` of the 256×64 ids into its list scratch, then moves sixteen 64-row pieces —
  for each table, for each list row `j` — through a ring of eight 64×128 slots: an indirect gather of the table rows
  the list row names into a slot, then a copy of the slot out to rows `[512w + 64j, +64)` of that table's result.
  Seven gathers are in flight before the first wait; a slot is gathered into again only after its copy out has been
  waited for, and every semaphore carries at most one transfer at a time, so the run needs no schedule: each
  transfer's wait hands back exactly what its issue lent.

  Held while it runs: a read share of the ids and of each table (the tables' split once more into one token per
  gather semaphore, so that several gathers read a table at once), the list scratch whole, the row scratch slot by
  slot, and the tile's eight chunks of each result, each by exactly its own elements. What the run leaves in chunk
  `j` of a result is the slot's contents when the copy was issued, that is the gather's payload: element `(x₀, x₁)`
  is the table at row `ids2[8w + j, x₀]`, column `x₁`, and `(512w + 64j + x₀) / 64 = 8w + j`, `… % 64 = x₀`: the
  lookup at that element of the result.
-/
import proofs.«204537_g11269994185187_cont_sun_m_1261_11_alg».proof.Proof.KBViews
import proofs.«204537_g11269994185187_cont_sun_m_1261_11_alg».proof.Proof.KBVal
import proofs.«204537_g11269994185187_cont_sun_m_1261_11_alg».proof.Proof.KBSlots

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S256x64 EltTy.i32)
local notation "t1V" => (Memref.whole Cert.Kernel.main_arg1_scv : Memref Cert.Kernel.sig Kind.scVector Space.hbm Cert.Kernel.S100000x128 EltTy.f32)
local notation "t2V" => (Memref.whole Cert.Kernel.main_arg2_scv : Memref Cert.Kernel.sig Kind.scVector Space.hbm Cert.Kernel.S100000x128 EltTy.f32)
local notation "o1V" => (Memref.whole Cert.Kernel.main_v1_0_scv : Memref Cert.Kernel.sig Kind.scVector Space.hbm Cert.Kernel.S16384x128 EltTy.f32)
local notation "o2V" => (Memref.whole Cert.Kernel.main_v1_1_scv : Memref Cert.Kernel.sig Kind.scVector Space.hbm Cert.Kernel.S16384x128 EltTy.f32)
local notation "sI" => (Memref.whole Cert.Kernel.cc0_scratch0 : Memref Cert.Kernel.sig Kind.scVector Space.vmem Cert.Kernel.S8x64 EltTy.i32)
local notation "sB" => (Memref.whole Cert.Kernel.cc0_scratch1 : Memref Cert.Kernel.sig Kind.scVector Space.vmem Cert.Kernel.S8x64x128 EltTy.f32)

variable (m : (ℓ : Loc nD τ sig) → Buf (Elt F) ℓ)
variable [FloatOps F]

omit [FloatOps F] in
/-- A points-to at a share is what remains after eight read tokens are split off, and the eight tokens. -/
theorem pts_tok8 {ℓ : Loc nD τ sig} (q : PosShare TreeShare) (f : Buf (Elt F) ℓ) :
    (ℓ ↦{q} f : sProp 𝕄) ⊣⊢ iprop((ℓ ↦{Transfers.shareDrop q 8} f) ∗ (ℓ ↦{Transfers.shareTokN q 0} f) ∗ (ℓ ↦{Transfers.shareTokN q 1} f)
      ∗ (ℓ ↦{Transfers.shareTokN q 2} f) ∗ (ℓ ↦{Transfers.shareTokN q 3} f) ∗ (ℓ ↦{Transfers.shareTokN q 4} f) ∗ (ℓ ↦{Transfers.shareTokN q 5} f)
      ∗ (ℓ ↦{Transfers.shareTokN q 6} f) ∗ (ℓ ↦{Transfers.shareTokN q 7} f)) := by
  have h := Transfers.pointsTo_toks_range (nD := nD) (τ := τ) (sig := sig) (Ix := HIx 1) (Val := Elt F) (Name := ℕ) (U := UU) (Lvl := ℕ) (ℓ := ℓ) (S := Finset.univ) (f := f) q 8
  rw [show Finset.range 8 = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton] at h
  exact h

omit [FloatOps F] in
/-- A wait recorded at the kernel's own index keeps the record within what the launch allows. -/
theorem waits_ins {W' W : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

section Tile
variable (d : Dev nD) (L : grid0.Coords)

set_option maxHeartbeats 4000000 in
/-- The task: from its read shares and its chunks of the results at their launch contents, to the same with the
    chunks at the lookup; its scratch arrays and semaphores back as it found them (the semaphores at zero). -/
theorem tile_body (hF : (K (F := F)).Facts) (fi : Buf (Elt F) (iLoc d)) (hpre : ∀ y, (fi y).toNat < 100000)
    (O : CellTallies nD τ sig (HIx 1)) (W : Waits sig (HIx 1)) (hO : ∀ g, O g none = 0) :
    iprop(levAts (K (F := F)).L (K (F := F)).lev ∗ emp
        ∗ tileIn m d fi L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__dual_gather L iV (Memref.isWhole_whole _) t1V (Memref.isWhole_whole _) t2V (Memref.isWhole_whole _) o1V (Memref.isWhole_whole _) o2V (Memref.isWhole_whole _)
            sI (Memref.isWhole_whole _) sB (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0)
          fun _ => iprop(tileOut m d fi L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__dual_gather_eq_skeleton]; unfold cc0__dual_gather_skel
  rw [(K (F := F)).scopedBufs_V hF d (cV L) (jV L), SparseCore.Cfg.scopedSems0_V (Val := Elt F) d (cV L) (jV L), ownSems0_V, ownBufs_V]
  unfold tileIn tileOut chunks1 chunks2
  iintro ⟨#Hlv, -, ⟨Hi, Ht1, Ht2, ⟨Ha0, Ha1, Ha2, Ha3, Ha4, Ha5, Ha6, Ha7⟩, ⟨Hb0, Hb1, Hb2, Hb3, Hb4, Hb5, Hb6, Hb7⟩⟩, ⟨⟨%fs, Hs⟩, ⟨%fb, Hb⟩, Hbufs⟩, ⟨Hsem0, Hsem1, Hsem2, Hsem3, Hsem4, Hsem5, Hsem6, Hsem7, Hsem8, Hsem9, Hsem10, Hsem11, Hsem12, Hsem13, Hsem14, Hsem15, Hsem16⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the buffers, respelt as the tile's memrefs address them; the row scratch slot by slot
  ihave Hs' := (Entails.of_eq (show ((V d (cV L) (jV L)).loc cc0_scratch0 ↦{fullShare} fs : sProp 𝕄) = (sI).view.loc (V d (cV L) (jV L)) ↦{fullShare} fs from rfl)) $$ Hs
  ihave Hb' := (Entails.of_eq ((show ((V d (cV L) (jV L)).loc cc0_scratch1 ↦{fullShare} fb : sProp 𝕄) = (sB).view.loc (V d (cV L) (jV L)) ↦{fullShare} fb from rfl).trans (sB_split d (cV L) (jV L) fb))) $$ Hb
  icases Hb' with ⟨Hsl0, Hsl1, Hsl2, Hsl3, Hsl4, Hsl5, Hsl6, Hsl7⟩
  ihave Hi' := (Entails.of_eq (show (iLoc d ↦{tq (wid L)} fi : sProp 𝕄) = (iV).view.loc (V d (cV L) (jV L)) ↦{tq (wid L)} fi from rfl)) $$ Hi
  ihave Ht1' := (Entails.of_eq (show (t1Loc d ↦{tq (wid L)} m (t1Loc d) : sProp 𝕄) = (t1V).view.loc (V d (cV L) (jV L)) ↦{tq (wid L)} m (t1Loc d) from rfl)) $$ Ht1
  ihave Ht2' := (Entails.of_eq (show (t2Loc d ↦{tq (wid L)} m (t2Loc d) : sProp 𝕄) = (t2V).view.loc (V d (cV L) (jV L)) ↦{tq (wid L)} m (t2Loc d) from rfl)) $$ Ht2
  ihave Ha0' := (Entails.of_eq (show (o1Loc d ↦[(oR0 L).set]{fullShare} m (o1Loc d) : sProp 𝕄) = (o1c0 L).view.loc (V d (cV L) (jV L)) ↦[(o1c0 L).view.set]{fullShare} m (o1Loc d) from by rw [show (o1c0 L).view.set = (oR0 L).set from View.set_slice_whole _ _])) $$ Ha0
  ihave Ha1' := (Entails.of_eq (show (o1Loc d ↦[(oR1 L).set]{fullShare} m (o1Loc d) : sProp 𝕄) = (o1c1 L).view.loc (V d (cV L) (jV L)) ↦[(o1c1 L).view.set]{fullShare} m (o1Loc d) from by rw [show (o1c1 L).view.set = (oR1 L).set from View.set_slice_whole _ _])) $$ Ha1
  ihave Ha2' := (Entails.of_eq (show (o1Loc d ↦[(oR2 L).set]{fullShare} m (o1Loc d) : sProp 𝕄) = (o1c2 L).view.loc (V d (cV L) (jV L)) ↦[(o1c2 L).view.set]{fullShare} m (o1Loc d) from by rw [show (o1c2 L).view.set = (oR2 L).set from View.set_slice_whole _ _])) $$ Ha2
  ihave Ha3' := (Entails.of_eq (show (o1Loc d ↦[(oR3 L).set]{fullShare} m (o1Loc d) : sProp 𝕄) = (o1c3 L).view.loc (V d (cV L) (jV L)) ↦[(o1c3 L).view.set]{fullShare} m (o1Loc d) from by rw [show (o1c3 L).view.set = (oR3 L).set from View.set_slice_whole _ _])) $$ Ha3
  ihave Ha4' := (Entails.of_eq (show (o1Loc d ↦[(oR4 L).set]{fullShare} m (o1Loc d) : sProp 𝕄) = (o1c4 L).view.loc (V d (cV L) (jV L)) ↦[(o1c4 L).view.set]{fullShare} m (o1Loc d) from by rw [show (o1c4 L).view.set = (oR4 L).set from View.set_slice_whole _ _])) $$ Ha4
  ihave Ha5' := (Entails.of_eq (show (o1Loc d ↦[(oR5 L).set]{fullShare} m (o1Loc d) : sProp 𝕄) = (o1c5 L).view.loc (V d (cV L) (jV L)) ↦[(o1c5 L).view.set]{fullShare} m (o1Loc d) from by rw [show (o1c5 L).view.set = (oR5 L).set from View.set_slice_whole _ _])) $$ Ha5
  ihave Ha6' := (Entails.of_eq (show (o1Loc d ↦[(oR6 L).set]{fullShare} m (o1Loc d) : sProp 𝕄) = (o1c6 L).view.loc (V d (cV L) (jV L)) ↦[(o1c6 L).view.set]{fullShare} m (o1Loc d) from by rw [show (o1c6 L).view.set = (oR6 L).set from View.set_slice_whole _ _])) $$ Ha6
  ihave Ha7' := (Entails.of_eq (show (o1Loc d ↦[(oR7 L).set]{fullShare} m (o1Loc d) : sProp 𝕄) = (o1c7 L).view.loc (V d (cV L) (jV L)) ↦[(o1c7 L).view.set]{fullShare} m (o1Loc d) from by rw [show (o1c7 L).view.set = (oR7 L).set from View.set_slice_whole _ _])) $$ Ha7
  ihave Hb0' := (Entails.of_eq (show (o2Loc d ↦[(oR0 L).set]{fullShare} m (o2Loc d) : sProp 𝕄) = (o2c0 L).view.loc (V d (cV L) (jV L)) ↦[(o2c0 L).view.set]{fullShare} m (o2Loc d) from by rw [show (o2c0 L).view.set = (oR0 L).set from View.set_slice_whole _ _])) $$ Hb0
  ihave Hb1' := (Entails.of_eq (show (o2Loc d ↦[(oR1 L).set]{fullShare} m (o2Loc d) : sProp 𝕄) = (o2c1 L).view.loc (V d (cV L) (jV L)) ↦[(o2c1 L).view.set]{fullShare} m (o2Loc d) from by rw [show (o2c1 L).view.set = (oR1 L).set from View.set_slice_whole _ _])) $$ Hb1
  ihave Hb2' := (Entails.of_eq (show (o2Loc d ↦[(oR2 L).set]{fullShare} m (o2Loc d) : sProp 𝕄) = (o2c2 L).view.loc (V d (cV L) (jV L)) ↦[(o2c2 L).view.set]{fullShare} m (o2Loc d) from by rw [show (o2c2 L).view.set = (oR2 L).set from View.set_slice_whole _ _])) $$ Hb2
  ihave Hb3' := (Entails.of_eq (show (o2Loc d ↦[(oR3 L).set]{fullShare} m (o2Loc d) : sProp 𝕄) = (o2c3 L).view.loc (V d (cV L) (jV L)) ↦[(o2c3 L).view.set]{fullShare} m (o2Loc d) from by rw [show (o2c3 L).view.set = (oR3 L).set from View.set_slice_whole _ _])) $$ Hb3
  ihave Hb4' := (Entails.of_eq (show (o2Loc d ↦[(oR4 L).set]{fullShare} m (o2Loc d) : sProp 𝕄) = (o2c4 L).view.loc (V d (cV L) (jV L)) ↦[(o2c4 L).view.set]{fullShare} m (o2Loc d) from by rw [show (o2c4 L).view.set = (oR4 L).set from View.set_slice_whole _ _])) $$ Hb4
  ihave Hb5' := (Entails.of_eq (show (o2Loc d ↦[(oR5 L).set]{fullShare} m (o2Loc d) : sProp 𝕄) = (o2c5 L).view.loc (V d (cV L) (jV L)) ↦[(o2c5 L).view.set]{fullShare} m (o2Loc d) from by rw [show (o2c5 L).view.set = (oR5 L).set from View.set_slice_whole _ _])) $$ Hb5
  ihave Hb6' := (Entails.of_eq (show (o2Loc d ↦[(oR6 L).set]{fullShare} m (o2Loc d) : sProp 𝕄) = (o2c6 L).view.loc (V d (cV L) (jV L)) ↦[(o2c6 L).view.set]{fullShare} m (o2Loc d) from by rw [show (o2c6 L).view.set = (oR6 L).set from View.set_slice_whole _ _])) $$ Hb6
  ihave Hb7' := (Entails.of_eq (show (o2Loc d ↦[(oR7 L).set]{fullShare} m (o2Loc d) : sProp 𝕄) = (o2c7 L).view.loc (V d (cV L) (jV L)) ↦[(o2c7 L).view.set]{fullShare} m (o2Loc d) from by rw [show (o2c7 L).view.set = (oR7 L).set from View.set_slice_whole _ _])) $$ Hb7
  -- the fetch of the tile's eight rows of ids
  sl_exec_parts
  -- every word the fetch landed is an id, whatever the list scratch held before
  have hidx0 := fun g => inb_of_pre d L fi hpre g (tile_body.sl.dma0 d L fi) rfl ![0, 0] inb_S8x64_S1x64_0_0
  have hidx1 := fun g => inb_of_pre d L fi hpre g (tile_body.sl.dma0 d L fi) rfl ![1, 0] inb_S8x64_S1x64_1_0
  have hidx2 := fun g => inb_of_pre d L fi hpre g (tile_body.sl.dma0 d L fi) rfl ![2, 0] inb_S8x64_S1x64_2_0
  have hidx3 := fun g => inb_of_pre d L fi hpre g (tile_body.sl.dma0 d L fi) rfl ![3, 0] inb_S8x64_S1x64_3_0
  have hidx4 := fun g => inb_of_pre d L fi hpre g (tile_body.sl.dma0 d L fi) rfl ![4, 0] inb_S8x64_S1x64_4_0
  have hidx5 := fun g => inb_of_pre d L fi hpre g (tile_body.sl.dma0 d L fi) rfl ![5, 0] inb_S8x64_S1x64_5_0
  have hidx6 := fun g => inb_of_pre d L fi hpre g (tile_body.sl.dma0 d L fi) rfl ![6, 0] inb_S8x64_S1x64_6_0
  have hidx7 := fun g => inb_of_pre d L fi hpre g (tile_body.sl.dma0 d L fi) rfl ![7, 0] inb_S8x64_S1x64_7_0
  -- one read share of each table per gather semaphore
  ihave Ht1s := (pts_tok8 (tq (wid L)) _).1 $$ Ht1'
  icases Ht1s with ⟨Ht1r, Ht1_0, Ht1_1, Ht1_2, Ht1_3, Ht1_4, Ht1_5, Ht1_6, Ht1_7⟩
  ihave Ht2s := (pts_tok8 (tq (wid L)) _).1 $$ Ht2'
  icases Ht2s with ⟨Ht2r, Ht2_0, Ht2_1, Ht2_2, Ht2_3, Ht2_4, Ht2_5, Ht2_6, Ht2_7⟩
  -- the sixteen gathers, their waits, the sixteen copies out and theirs
  sl_exec_parts
  sl_step
  -- what each chunk holds is the lookup there
  have key1_0 : ∀ i ∈ (o1c0 L).view.set, (o1c0 L).view.writes (Elt F) (m (o1Loc d)) [⟨Rect.whole S64x128, tile_body.sl.dma0_1 m d L fi fs fb hidx0⟩] i = G1 m d fi i :=
    chunk1_val d L fi hpre (m (o1Loc d)) (m (t1Loc d)) 0 (by omega) _ (fun x => by
      show tile_body.sl.dma0_1 m d L fi fs fb hidx0 x = _
      unfold tile_body.sl.dma0_1
      rw [slot_read]
      unfold tile_body.sl.gather0
      exact gather1_val d L fi hpre (m (t1Loc d)) fs 0 (by omega) _ _ _ x)
  have key2_0 : ∀ i ∈ (o2c0 L).view.set, (o2c0 L).view.writes (Elt F) (m (o2Loc d)) [⟨Rect.whole S64x128, tile_body.sl.dma0_9 m d L fi fs fb hidx0⟩] i = G2 m d fi i :=
    chunk2_val d L fi hpre (m (o2Loc d)) (m (t2Loc d)) 0 (by omega) _ (fun x => by
      show tile_body.sl.dma0_9 m d L fi fs fb hidx0 x = _
      unfold tile_body.sl.dma0_9
      rw [slot_read]
      unfold tile_body.sl.gather10
      exact gather2_val d L fi hpre (m (t2Loc d)) fs 0 (by omega) _ _ _ x)
  have key1_1 : ∀ i ∈ (o1c1 L).view.set, (o1c1 L).view.writes (Elt F) (m (o1Loc d)) [⟨Rect.whole S64x128, tile_body.sl.dma0_2 m d L fi fs fb hidx1⟩] i = G1 m d fi i :=
    chunk1_val d L fi hpre (m (o1Loc d)) (m (t1Loc d)) 1 (by omega) _ (fun x => by
      show tile_body.sl.dma0_2 m d L fi fs fb hidx1 x = _
      unfold tile_body.sl.dma0_2
      rw [slot_read]
      unfold tile_body.sl.gather1
      exact gather1_val d L fi hpre (m (t1Loc d)) fs 1 (by omega) _ _ _ x)
  have key2_1 : ∀ i ∈ (o2c1 L).view.set, (o2c1 L).view.writes (Elt F) (m (o2Loc d)) [⟨Rect.whole S64x128, tile_body.sl.dma0_10 m d L fi fs fb hidx1⟩] i = G2 m d fi i :=
    chunk2_val d L fi hpre (m (o2Loc d)) (m (t2Loc d)) 1 (by omega) _ (fun x => by
      show tile_body.sl.dma0_10 m d L fi fs fb hidx1 x = _
      unfold tile_body.sl.dma0_10
      rw [slot_read]
      unfold tile_body.sl.gather12
      exact gather2_val d L fi hpre (m (t2Loc d)) fs 1 (by omega) _ _ _ x)
  have key1_2 : ∀ i ∈ (o1c2 L).view.set, (o1c2 L).view.writes (Elt F) (m (o1Loc d)) [⟨Rect.whole S64x128, tile_body.sl.dma0_3 m d L fi fs fb hidx2⟩] i = G1 m d fi i :=
    chunk1_val d L fi hpre (m (o1Loc d)) (m (t1Loc d)) 2 (by omega) _ (fun x => by
      show tile_body.sl.dma0_3 m d L fi fs fb hidx2 x = _
      unfold tile_body.sl.dma0_3
      rw [slot_read]
      unfold tile_body.sl.gather2
      exact gather1_val d L fi hpre (m (t1Loc d)) fs 2 (by omega) _ _ _ x)
  have key2_2 : ∀ i ∈ (o2c2 L).view.set, (o2c2 L).view.writes (Elt F) (m (o2Loc d)) [⟨Rect.whole S64x128, tile_body.sl.dma0_11 m d L fi fs fb hidx2⟩] i = G2 m d fi i :=
    chunk2_val d L fi hpre (m (o2Loc d)) (m (t2Loc d)) 2 (by omega) _ (fun x => by
      show tile_body.sl.dma0_11 m d L fi fs fb hidx2 x = _
      unfold tile_body.sl.dma0_11
      rw [slot_read]
      unfold tile_body.sl.gather14
      exact gather2_val d L fi hpre (m (t2Loc d)) fs 2 (by omega) _ _ _ x)
  have key1_3 : ∀ i ∈ (o1c3 L).view.set, (o1c3 L).view.writes (Elt F) (m (o1Loc d)) [⟨Rect.whole S64x128, tile_body.sl.dma0_4 m d L fi fs fb hidx3⟩] i = G1 m d fi i :=
    chunk1_val d L fi hpre (m (o1Loc d)) (m (t1Loc d)) 3 (by omega) _ (fun x => by
      show tile_body.sl.dma0_4 m d L fi fs fb hidx3 x = _
      unfold tile_body.sl.dma0_4
      rw [slot_read]
      unfold tile_body.sl.gather3
      exact gather1_val d L fi hpre (m (t1Loc d)) fs 3 (by omega) _ _ _ x)
  have key2_3 : ∀ i ∈ (o2c3 L).view.set, (o2c3 L).view.writes (Elt F) (m (o2Loc d)) [⟨Rect.whole S64x128, tile_body.sl.dma0_12 m d L fi fs fb hidx3⟩] i = G2 m d fi i :=
    chunk2_val d L fi hpre (m (o2Loc d)) (m (t2Loc d)) 3 (by omega) _ (fun x => by
      show tile_body.sl.dma0_12 m d L fi fs fb hidx3 x = _
      unfold tile_body.sl.dma0_12
      rw [slot_read]
      unfold tile_body.sl.gather16
      exact gather2_val d L fi hpre (m (t2Loc d)) fs 3 (by omega) _ _ _ x)
  have key1_4 : ∀ i ∈ (o1c4 L).view.set, (o1c4 L).view.writes (Elt F) (m (o1Loc d)) [⟨Rect.whole S64x128, tile_body.sl.dma0_5 m d L fi fs fb hidx4⟩] i = G1 m d fi i :=
    chunk1_val d L fi hpre (m (o1Loc d)) (m (t1Loc d)) 4 (by omega) _ (fun x => by
      show tile_body.sl.dma0_5 m d L fi fs fb hidx4 x = _
      unfold tile_body.sl.dma0_5
      rw [slot_read]
      unfold tile_body.sl.gather4
      exact gather1_val d L fi hpre (m (t1Loc d)) fs 4 (by omega) _ _ _ x)
  have key2_4 : ∀ i ∈ (o2c4 L).view.set, (o2c4 L).view.writes (Elt F) (m (o2Loc d)) [⟨Rect.whole S64x128, tile_body.sl.dma0_13 m d L fi fs fb hidx4⟩] i = G2 m d fi i :=
    chunk2_val d L fi hpre (m (o2Loc d)) (m (t2Loc d)) 4 (by omega) _ (fun x => by
      show tile_body.sl.dma0_13 m d L fi fs fb hidx4 x = _
      unfold tile_body.sl.dma0_13
      rw [slot_read]
      unfold tile_body.sl.gather18
      exact gather2_val d L fi hpre (m (t2Loc d)) fs 4 (by omega) _ _ _ x)
  have key1_5 : ∀ i ∈ (o1c5 L).view.set, (o1c5 L).view.writes (Elt F) (m (o1Loc d)) [⟨Rect.whole S64x128, tile_body.sl.dma0_6 m d L fi fs fb hidx5⟩] i = G1 m d fi i :=
    chunk1_val d L fi hpre (m (o1Loc d)) (m (t1Loc d)) 5 (by omega) _ (fun x => by
      show tile_body.sl.dma0_6 m d L fi fs fb hidx5 x = _
      unfold tile_body.sl.dma0_6
      rw [slot_read]
      unfold tile_body.sl.gather5
      exact gather1_val d L fi hpre (m (t1Loc d)) fs 5 (by omega) _ _ _ x)
  have key2_5 : ∀ i ∈ (o2c5 L).view.set, (o2c5 L).view.writes (Elt F) (m (o2Loc d)) [⟨Rect.whole S64x128, tile_body.sl.dma0_14 m d L fi fs fb hidx5⟩] i = G2 m d fi i :=
    chunk2_val d L fi hpre (m (o2Loc d)) (m (t2Loc d)) 5 (by omega) _ (fun x => by
      show tile_body.sl.dma0_14 m d L fi fs fb hidx5 x = _
      unfold tile_body.sl.dma0_14
      rw [slot_read]
      unfold tile_body.sl.gather20
      exact gather2_val d L fi hpre (m (t2Loc d)) fs 5 (by omega) _ _ _ x)
  have key1_6 : ∀ i ∈ (o1c6 L).view.set, (o1c6 L).view.writes (Elt F) (m (o1Loc d)) [⟨Rect.whole S64x128, tile_body.sl.dma0_7 m d L fi fs fb hidx6⟩] i = G1 m d fi i :=
    chunk1_val d L fi hpre (m (o1Loc d)) (m (t1Loc d)) 6 (by omega) _ (fun x => by
      show tile_body.sl.dma0_7 m d L fi fs fb hidx6 x = _
      unfold tile_body.sl.dma0_7
      rw [slot_read]
      unfold tile_body.sl.gather6
      exact gather1_val d L fi hpre (m (t1Loc d)) fs 6 (by omega) _ _ _ x)
  have key2_6 : ∀ i ∈ (o2c6 L).view.set, (o2c6 L).view.writes (Elt F) (m (o2Loc d)) [⟨Rect.whole S64x128, tile_body.sl.dma0_15 m d L fi fs fb hidx6⟩] i = G2 m d fi i :=
    chunk2_val d L fi hpre (m (o2Loc d)) (m (t2Loc d)) 6 (by omega) _ (fun x => by
      show tile_body.sl.dma0_15 m d L fi fs fb hidx6 x = _
      unfold tile_body.sl.dma0_15
      rw [slot_read]
      unfold tile_body.sl.gather22
      exact gather2_val d L fi hpre (m (t2Loc d)) fs 6 (by omega) _ _ _ x)
  have key1_7 : ∀ i ∈ (o1c7 L).view.set, (o1c7 L).view.writes (Elt F) (m (o1Loc d)) [⟨Rect.whole S64x128, tile_body.sl.dma0_8 m d L fi fs fb hidx7⟩] i = G1 m d fi i :=
    chunk1_val d L fi hpre (m (o1Loc d)) (m (t1Loc d)) 7 (by omega) _ (fun x => by
      show tile_body.sl.dma0_8 m d L fi fs fb hidx7 x = _
      unfold tile_body.sl.dma0_8
      rw [slot_read]
      unfold tile_body.sl.gather8
      exact gather1_val d L fi hpre (m (t1Loc d)) fs 7 (by omega) _ _ _ x)
  have key2_7 : ∀ i ∈ (o2c7 L).view.set, (o2c7 L).view.writes (Elt F) (m (o2Loc d)) [⟨Rect.whole S64x128, tile_body.sl.dma0_16 m d L fi fs fb hidx7⟩] i = G2 m d fi i :=
    chunk2_val d L fi hpre (m (o2Loc d)) (m (t2Loc d)) 7 (by omega) _ (fun x => by
      show tile_body.sl.dma0_16 m d L fi fs fb hidx7 x = _
      unfold tile_body.sl.dma0_16
      rw [slot_read]
      unfold tile_body.sl.gather24
      exact gather2_val d L fi hpre (m (t2Loc d)) fs 7 (by omega) _ _ _ x)
  ihave Ha0'' := (Entails.of_eq ((pointsTo_congr key1_0).trans (show ((o1c0 L).view.loc (V d (cV L) (jV L)) ↦[(o1c0 L).view.set]{fullShare} G1 m d fi : sProp 𝕄) = (o1Loc d ↦[(oR0 L).set]{fullShare} G1 m d fi) from by rw [show (o1c0 L).view.set = (oR0 L).set from View.set_slice_whole _ _]))) $$ Ha0'
  ihave Ha1'' := (Entails.of_eq ((pointsTo_congr key1_1).trans (show ((o1c1 L).view.loc (V d (cV L) (jV L)) ↦[(o1c1 L).view.set]{fullShare} G1 m d fi : sProp 𝕄) = (o1Loc d ↦[(oR1 L).set]{fullShare} G1 m d fi) from by rw [show (o1c1 L).view.set = (oR1 L).set from View.set_slice_whole _ _]))) $$ Ha1'
  ihave Ha2'' := (Entails.of_eq ((pointsTo_congr key1_2).trans (show ((o1c2 L).view.loc (V d (cV L) (jV L)) ↦[(o1c2 L).view.set]{fullShare} G1 m d fi : sProp 𝕄) = (o1Loc d ↦[(oR2 L).set]{fullShare} G1 m d fi) from by rw [show (o1c2 L).view.set = (oR2 L).set from View.set_slice_whole _ _]))) $$ Ha2'
  ihave Ha3'' := (Entails.of_eq ((pointsTo_congr key1_3).trans (show ((o1c3 L).view.loc (V d (cV L) (jV L)) ↦[(o1c3 L).view.set]{fullShare} G1 m d fi : sProp 𝕄) = (o1Loc d ↦[(oR3 L).set]{fullShare} G1 m d fi) from by rw [show (o1c3 L).view.set = (oR3 L).set from View.set_slice_whole _ _]))) $$ Ha3'
  ihave Ha4'' := (Entails.of_eq ((pointsTo_congr key1_4).trans (show ((o1c4 L).view.loc (V d (cV L) (jV L)) ↦[(o1c4 L).view.set]{fullShare} G1 m d fi : sProp 𝕄) = (o1Loc d ↦[(oR4 L).set]{fullShare} G1 m d fi) from by rw [show (o1c4 L).view.set = (oR4 L).set from View.set_slice_whole _ _]))) $$ Ha4'
  ihave Ha5'' := (Entails.of_eq ((pointsTo_congr key1_5).trans (show ((o1c5 L).view.loc (V d (cV L) (jV L)) ↦[(o1c5 L).view.set]{fullShare} G1 m d fi : sProp 𝕄) = (o1Loc d ↦[(oR5 L).set]{fullShare} G1 m d fi) from by rw [show (o1c5 L).view.set = (oR5 L).set from View.set_slice_whole _ _]))) $$ Ha5'
  ihave Ha6'' := (Entails.of_eq ((pointsTo_congr key1_6).trans (show ((o1c6 L).view.loc (V d (cV L) (jV L)) ↦[(o1c6 L).view.set]{fullShare} G1 m d fi : sProp 𝕄) = (o1Loc d ↦[(oR6 L).set]{fullShare} G1 m d fi) from by rw [show (o1c6 L).view.set = (oR6 L).set from View.set_slice_whole _ _]))) $$ Ha6'
  ihave Ha7'' := (Entails.of_eq ((pointsTo_congr key1_7).trans (show ((o1c7 L).view.loc (V d (cV L) (jV L)) ↦[(o1c7 L).view.set]{fullShare} G1 m d fi : sProp 𝕄) = (o1Loc d ↦[(oR7 L).set]{fullShare} G1 m d fi) from by rw [show (o1c7 L).view.set = (oR7 L).set from View.set_slice_whole _ _]))) $$ Ha7'
  ihave Hb0'' := (Entails.of_eq ((pointsTo_congr key2_0).trans (show ((o2c0 L).view.loc (V d (cV L) (jV L)) ↦[(o2c0 L).view.set]{fullShare} G2 m d fi : sProp 𝕄) = (o2Loc d ↦[(oR0 L).set]{fullShare} G2 m d fi) from by rw [show (o2c0 L).view.set = (oR0 L).set from View.set_slice_whole _ _]))) $$ Hb0'
  ihave Hb1'' := (Entails.of_eq ((pointsTo_congr key2_1).trans (show ((o2c1 L).view.loc (V d (cV L) (jV L)) ↦[(o2c1 L).view.set]{fullShare} G2 m d fi : sProp 𝕄) = (o2Loc d ↦[(oR1 L).set]{fullShare} G2 m d fi) from by rw [show (o2c1 L).view.set = (oR1 L).set from View.set_slice_whole _ _]))) $$ Hb1'
  ihave Hb2'' := (Entails.of_eq ((pointsTo_congr key2_2).trans (show ((o2c2 L).view.loc (V d (cV L) (jV L)) ↦[(o2c2 L).view.set]{fullShare} G2 m d fi : sProp 𝕄) = (o2Loc d ↦[(oR2 L).set]{fullShare} G2 m d fi) from by rw [show (o2c2 L).view.set = (oR2 L).set from View.set_slice_whole _ _]))) $$ Hb2'
  ihave Hb3'' := (Entails.of_eq ((pointsTo_congr key2_3).trans (show ((o2c3 L).view.loc (V d (cV L) (jV L)) ↦[(o2c3 L).view.set]{fullShare} G2 m d fi : sProp 𝕄) = (o2Loc d ↦[(oR3 L).set]{fullShare} G2 m d fi) from by rw [show (o2c3 L).view.set = (oR3 L).set from View.set_slice_whole _ _]))) $$ Hb3'
  ihave Hb4'' := (Entails.of_eq ((pointsTo_congr key2_4).trans (show ((o2c4 L).view.loc (V d (cV L) (jV L)) ↦[(o2c4 L).view.set]{fullShare} G2 m d fi : sProp 𝕄) = (o2Loc d ↦[(oR4 L).set]{fullShare} G2 m d fi) from by rw [show (o2c4 L).view.set = (oR4 L).set from View.set_slice_whole _ _]))) $$ Hb4'
  ihave Hb5'' := (Entails.of_eq ((pointsTo_congr key2_5).trans (show ((o2c5 L).view.loc (V d (cV L) (jV L)) ↦[(o2c5 L).view.set]{fullShare} G2 m d fi : sProp 𝕄) = (o2Loc d ↦[(oR5 L).set]{fullShare} G2 m d fi) from by rw [show (o2c5 L).view.set = (oR5 L).set from View.set_slice_whole _ _]))) $$ Hb5'
  ihave Hb6'' := (Entails.of_eq ((pointsTo_congr key2_6).trans (show ((o2c6 L).view.loc (V d (cV L) (jV L)) ↦[(o2c6 L).view.set]{fullShare} G2 m d fi : sProp 𝕄) = (o2Loc d ↦[(oR6 L).set]{fullShare} G2 m d fi) from by rw [show (o2c6 L).view.set = (oR6 L).set from View.set_slice_whole _ _]))) $$ Hb6'
  ihave Hb7'' := (Entails.of_eq ((pointsTo_congr key2_7).trans (show ((o2c7 L).view.loc (V d (cV L) (jV L)) ↦[(o2c7 L).view.set]{fullShare} G2 m d fi : sProp 𝕄) = (o2Loc d ↦[(oR7 L).set]{fullShare} G2 m d fi) from by rw [show (o2c7 L).view.set = (oR7 L).set from View.set_slice_whole _ _]))) $$ Hb7'
  ihave Ht1j := (pts_tok8 (tq (wid L)) _).2 $$ [Ht1r Ht1_0 Ht1_1 Ht1_2 Ht1_3 Ht1_4 Ht1_5 Ht1_6 Ht1_7]
  · isplitl [Ht1r]; · iexact Ht1r
    isplitl [Ht1_0]; · iexact Ht1_0
    isplitl [Ht1_1]; · iexact Ht1_1
    isplitl [Ht1_2]; · iexact Ht1_2
    isplitl [Ht1_3]; · iexact Ht1_3
    isplitl [Ht1_4]; · iexact Ht1_4
    isplitl [Ht1_5]; · iexact Ht1_5
    isplitl [Ht1_6]; · iexact Ht1_6
    iexact Ht1_7
  ihave Ht2j := (pts_tok8 (tq (wid L)) _).2 $$ [Ht2r Ht2_0 Ht2_1 Ht2_2 Ht2_3 Ht2_4 Ht2_5 Ht2_6 Ht2_7]
  · isplitl [Ht2r]; · iexact Ht2r
    isplitl [Ht2_0]; · iexact Ht2_0
    isplitl [Ht2_1]; · iexact Ht2_1
    isplitl [Ht2_2]; · iexact Ht2_2
    isplitl [Ht2_3]; · iexact Ht2_3
    isplitl [Ht2_4]; · iexact Ht2_4
    isplitl [Ht2_5]; · iexact Ht2_5
    isplitl [Ht2_6]; · iexact Ht2_6
    iexact Ht2_7
  ihave Hsbj := (sB_join d (cV L) (jV L) _ _ _ _ _ _ _ _) $$ [Hsl0 Hsl1 Hsl2 Hsl3 Hsl4 Hsl5 Hsl6 Hsl7]
  · isplitl [Hsl0]; · iexact Hsl0
    isplitl [Hsl1]; · iexact Hsl1
    isplitl [Hsl2]; · iexact Hsl2
    isplitl [Hsl3]; · iexact Hsl3
    isplitl [Hsl4]; · iexact Hsl4
    isplitl [Hsl5]; · iexact Hsl5
    isplitl [Hsl6]; · iexact Hsl6
    iexact Hsl7
  isplitl [Hi' Ht1j Ht2j Ha0'' Ha1'' Ha2'' Ha3'' Ha4'' Ha5'' Ha6'' Ha7'' Hb0'' Hb1'' Hb2'' Hb3'' Hb4'' Hb5'' Hb6'' Hb7'']
  · isplitl [Hi']; · iexact Hi'
    isplitl [Ht1j]; · iexact Ht1j
    isplitl [Ht2j]; · iexact Ht2j
    isplitl [Ha0'' Ha1'' Ha2'' Ha3'' Ha4'' Ha5'' Ha6'' Ha7'']
    · isplitl [Ha0'']; · iexact Ha0''
      isplitl [Ha1'']; · iexact Ha1''
      isplitl [Ha2'']; · iexact Ha2''
      isplitl [Ha3'']; · iexact Ha3''
      isplitl [Ha4'']; · iexact Ha4''
      isplitl [Ha5'']; · iexact Ha5''
      isplitl [Ha6'']; · iexact Ha6''
      iexact Ha7''
    · isplitl [Hb0'']; · iexact Hb0''
      isplitl [Hb1'']; · iexact Hb1''
      isplitl [Hb2'']; · iexact Hb2''
      isplitl [Hb3'']; · iexact Hb3''
      isplitl [Hb4'']; · iexact Hb4''
      isplitl [Hb5'']; · iexact Hb5''
      isplitl [Hb6'']; · iexact Hb6''
      iexact Hb7''
  isplitl [Hs' Hsbj Hbufs]
  · isplitl [Hs']; · iexists _; iexact Hs'
    isplitl [Hsbj]; · iexact Hsbj
    iexact Hbufs
  isplitl [Hsem0 Hsem1 Hsem2 Hsem3 Hsem4 Hsem5 Hsem6 Hsem7 Hsem8 Hsem9 Hsem10 Hsem11 Hsem12 Hsem13 Hsem14 Hsem15 Hsem16]
  · isplitl [Hsem0]; · iexact Hsem0
    isplitl [Hsem1]; · iexact Hsem1
    isplitl [Hsem2]; · iexact Hsem2
    isplitl [Hsem3]; · iexact Hsem3
    isplitl [Hsem4]; · iexact Hsem4
    isplitl [Hsem5]; · iexact Hsem5
    isplitl [Hsem6]; · iexact Hsem6
    isplitl [Hsem7]; · iexact Hsem7
    isplitl [Hsem8]; · iexact Hsem8
    isplitl [Hsem9]; · iexact Hsem9
    isplitl [Hsem10]; · iexact Hsem10
    isplitl [Hsem11]; · iexact Hsem11
    isplitl [Hsem12]; · iexact Hsem12
    isplitl [Hsem13]; · iexact Hsem13
    isplitl [Hsem14]; · iexact Hsem14
    isplitl [Hsem15]; · iexact Hsem15
    iexact Hsem16
  iexists _; isplitr
  swap; · iexact HO
  ipureintro
  repeat (first | exact fun p hp => .inl hp | refine waits_ins ?_ _)

end Tile

end Cert.Proof.KB

end
-- ==== Proof.KBObl.lean ====
/-
  The launch's obligation for a tile's task: the body table's row for a vector subcore is the kernel function at that
  subcore's grid point, and the task proved at a symbolic grid point is the obligation at every tile of the grid.
-/
import proofs.«204537_g11269994185187_cont_sun_m_1261_11_alg».proof.Proof.KBRes
import proofs.«204537_g11269994185187_cont_sun_m_1261_11_alg».proof.Proof.KBPay
import proofs.«204537_g11269994185187_cont_sun_m_1261_11_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S256x64 EltTy.i32)
local notation "t1V" => (Memref.whole Cert.Kernel.main_arg1_scv : Memref Cert.Kernel.sig Kind.scVector Space.hbm Cert.Kernel.S100000x128 EltTy.f32)
local notation "t2V" => (Memref.whole Cert.Kernel.main_arg2_scv : Memref Cert.Kernel.sig Kind.scVector Space.hbm Cert.Kernel.S100000x128 EltTy.f32)
local notation "o1V" => (Memref.whole Cert.Kernel.main_v1_0_scv : Memref Cert.Kernel.sig Kind.scVector Space.hbm Cert.Kernel.S16384x128 EltTy.f32)
local notation "o2V" => (Memref.whole Cert.Kernel.main_v1_1_scv : Memref Cert.Kernel.sig Kind.scVector Space.hbm Cert.Kernel.S16384x128 EltTy.f32)
local notation "sI" => (Memref.whole Cert.Kernel.cc0_scratch0 : Memref Cert.Kernel.sig Kind.scVector Space.vmem Cert.Kernel.S8x64 EltTy.i32)
local notation "sB" => (Memref.whole Cert.Kernel.cc0_scratch1 : Memref Cert.Kernel.sig Kind.scVector Space.vmem Cert.Kernel.S8x64x128 EltTy.f32)

variable (m : (ℓ : Loc nD τ sig) → Buf (Elt F) ℓ)
variable [FloatOps F]

/-- The body table's row for vector subcore `s` of SparseCore `c`: the kernel function at grid point `(c, s)`. -/
theorem defs₀_vector (c : Fin τ.nSC) (s : Fin τ.nSub) :
    defs₀ (F := F) (.scVector c s) 0 ()
      = SparseCore.onTile hcore0 hsub0 (fun c s => cc0__dual_gather (coordsV c s)
          iV (Memref.isWhole_whole _) t1V (Memref.isWhole_whole _) t2V (Memref.isWhole_whole _) o1V (Memref.isWhole_whole _) o2V (Memref.isWhole_whole _)
          sI (Memref.isWhole_whole _) sB (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : ∀ d y, (ids2 m d y).toNat < 100000) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF (ids2 m d) (hpre d) O W hO).trans (wp_mono frame _ _ fun _ => obl_post)

end Cert.Proof.KB

end
-- ==== Proof.KBSplit.lean ====
/-
  How the device's whole arrays split into what the 32 tiles are handed, and back. An array every tile reads is a
  remainder and 32 read shares, tile `(c, i)` holding share number `2·i + c`.
-/
import proofs.«204537_g11269994185187_cont_sun_m_1261_11_alg».proof.Proof.KBRes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## An array read by all 32 workers: one read share each -/

/-- A worker number below 32 is `2·i + c` for exactly one SparseCore `c < 2` and subcore `i < 16`. -/
theorem range32_eq_image :
    Finset.range 32 = (Finset.univ : Finset (Fin (grid0.bound 0) × Fin (grid0.bound 1))).image fun p => 2 * p.2.val + p.1.val := by
  ext n
  simp only [Finset.mem_range, Finset.mem_image, Finset.mem_univ, true_and]
  constructor
  · intro hn
    exact ⟨(⟨n % 2, Nat.mod_lt _ (by decide)⟩, ⟨n / 2, by show n / 2 < 16; omega⟩), by show 2 * (n / 2) + n % 2 = n; omega⟩
  · rintro ⟨⟨c, i⟩, rfl⟩
    have hc : c.val < 2 := c.isLt
    have hi : i.val < 16 := i.isLt
    show 2 * i.val + c.val < 32
    omega

/-- Distinct tiles have distinct worker numbers. -/
theorem wid_injOn :
    Set.InjOn (fun p : Fin (grid0.bound 0) × Fin (grid0.bound 1) => 2 * p.2.val + p.1.val)
      (Finset.univ : Finset (Fin (grid0.bound 0) × Fin (grid0.bound 1))) := by
  rintro ⟨c, i⟩ - ⟨c', i'⟩ - e
  have hc : c.val < 2 := c.isLt
  have hc' : c'.val < 2 := c'.isLt
  have e' : 2 * i.val + c.val = 2 * i'.val + c'.val := e
  exact Prod.ext (Fin.ext (by show c.val = c'.val; omega)) (Fin.ext (by show i.val = i'.val; omega))

/-- A whole array at the full share is a remainder and 32 read shares, one per tile, the tile at SparseCore `c`,
    subcore `i` holding the share numbered `2·i + c`. -/
theorem shares_split {ℓ : Loc nD τ sig} (f : Buf (Elt F) ℓ) :
    (ℓ ↦{fullShare} f : sProp 𝕄) ⊣⊢ iprop((ℓ ↦{Transfers.shareDrop fullShare 32} f) ∗ bigSep Finset.univ fun c : Fin (grid0.bound 0) => bigSep Finset.univ fun i : Fin (grid0.bound 1) => ℓ ↦{tq (wid (coordsV c i))} f) := by
  have key : bigSep (Finset.range 32) (fun n => (ℓ ↦{Transfers.shareTokN fullShare n} f : sProp 𝕄))
      = bigSep Finset.univ fun c : Fin (grid0.bound 0) => bigSep Finset.univ fun i : Fin (grid0.bound 1) => (ℓ ↦{tq (wid (coordsV c i))} f : sProp 𝕄) := by
    rw [range32_eq_image, bigSep_image_of_injOn wid_injOn, bigSep_univ_prod]
    rfl
  rw [← key]
  exact Transfers.pointsTo_toks_range (nD := nD) (τ := τ) (sig := sig) (Ix := HIx 1) (Val := Elt F) (Name := ℕ) (U := UU) (Lvl := ℕ)
    (ℓ := ℓ) (S := Finset.univ) (f := f) fullShare 32

end Cert.Proof.KB

end
-- ==== Proof.KBChunks.lean ====
/-
  How each result array splits into the tiles' chunks. The tile at SparseCore `c`, subcore `i` is worker `w = 2·i + c`
  and writes the eight 64-row chunks `[512·w + 64·j, +64)`, `j < 8`, of each result. Over the 2 × 16 tiles and the 8
  chunks these are the row blocks `[64·k, 64·k + 64)` for `k = 8·w + j < 256`: an index lies in chunk `(c, i, j)` exactly
  when its row divided by 64 is `8·(2·i + c) + j`, so the 256 chunks are pairwise disjoint and cover the array, and the
  whole array is the separating conjunction of the tiles' chunks.
-/
import proofs.«204537_g11269994185187_cont_sun_m_1261_11_alg».proof.Proof.KBRes
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The 256 chunks -/

/-- Chunk `j` of the tile at SparseCore `c`, subcore `i`, as the program slices it (for `j = 0 … 7` these are the
    tile's eight rectangles). -/
def chunk (t : Fin (grid0.bound 0) × Fin (grid0.bound 1) × Fin 8) : Finset S16384x128.Idx :=
  (Rect.unit (s := S16384x128) (k0_off2 (coordsV t.1 t.2.1) (BitVec.ofNat 32 (64 * t.2.2.val))) S64x128.size
    (k0_off2_inb (coordsV t.1 t.2.1) t.2.2)).set

/-- An index lies in chunk `(c, i, j)` exactly when its row is in block number `8·(2·i + c) + j` of 64 rows. -/
theorem mem_chunk (t : Fin (grid0.bound 0) × Fin (grid0.bound 1) × Fin 8) (y : S16384x128.Idx) :
    y ∈ chunk t ↔ (y 0).val / 64 = 8 * (2 * t.2.1.val + t.1.val) + t.2.2.val := by
  obtain ⟨c, i, j⟩ := t
  unfold chunk
  rw [Rect.mem_set_unit, k0_off2_eq (coordsV c i) j, Fin.forall_fin_two]
  show (1024 * i.val + 512 * c.val + 64 * j.val ≤ (y 0).val ∧ (y 0).val < 1024 * i.val + 512 * c.val + 64 * j.val + 64)
      ∧ (0 ≤ (y 1).val ∧ (y 1).val < 0 + 128) ↔ (y 0).val / 64 = 8 * (2 * i.val + c.val) + j.val
  have h1 : (y 1).val < 128 := ValueIdx.idx2_lt1 y
  omega

/-- Distinct chunks are disjoint: they are distinct blocks of 64 rows. -/
theorem chunk_disjoint :
    ∀ t ∈ (Finset.univ : Finset (Fin (grid0.bound 0) × Fin (grid0.bound 1) × Fin 8)),
      ∀ t' ∈ (Finset.univ : Finset (Fin (grid0.bound 0) × Fin (grid0.bound 1) × Fin 8)), t ≠ t' → Disjoint (chunk t) (chunk t') := by
  intro t _ t' _ hne
  rw [Finset.disjoint_left]
  intro y hy hy'
  rw [mem_chunk] at hy hy'
  apply hne
  obtain ⟨c, i, j⟩ := t
  obtain ⟨c', i', j'⟩ := t'
  have hc : c.val < 2 := c.isLt
  have hc' : c'.val < 2 := c'.isLt
  have hj : j.val < 8 := j.isLt
  have hj' : j'.val < 8 := j'.isLt
  have e : 8 * (2 * i.val + c.val) + j.val = 8 * (2 * i'.val + c'.val) + j'.val := hy.symm.trans hy'
  exact Prod.ext (Fin.ext (by show c.val = c'.val; omega))
    (Prod.ext (Fin.ext (by show i.val = i'.val; omega)) (Fin.ext (by show j.val = j'.val; omega)))

/-- Every index lies in a chunk: the one its row's block number names. -/
theorem chunk_cover :
    (Finset.univ : Finset (Fin (grid0.bound 0) × Fin (grid0.bound 1) × Fin 8)).biUnion chunk = Finset.univ := by
  ext y
  simp only [Finset.mem_biUnion, Finset.mem_univ, true_and, iff_true]
  have h0 : (y 0).val < 16384 := ValueIdx.idx2_lt0 y
  refine ⟨(⟨(y 0).val / 64 / 8 % 2, Nat.mod_lt _ (by decide)⟩, ⟨(y 0).val / 64 / 8 / 2, by show (y 0).val / 64 / 8 / 2 < 16; omega⟩,
    ⟨(y 0).val / 64 % 8, Nat.mod_lt _ (by decide)⟩), ?_⟩
  rw [mem_chunk]
  show (y 0).val / 64 = 8 * (2 * ((y 0).val / 64 / 8 / 2) + (y 0).val / 64 / 8 % 2) + (y 0).val / 64 % 8
  omega

/-! ## A whole result array is the tiles' chunks -/

/-- A separating conjunction over the eight chunk numbers, written out. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The first result, whole, is its 256 chunks … -/
theorem o1_chunks (d : Dev nD) (f : Buf (Elt F) (o1Loc d)) :
    (o1Loc d ↦{fullShare} f : sProp 𝕄)
      = bigSep Finset.univ fun t : Fin (grid0.bound 0) × Fin (grid0.bound 1) × Fin 8 => o1Loc d ↦[chunk t]{fullShare} f := by
  rw [← pointsTo_biUnion Finset.univ (ℓ := o1Loc d) chunk chunk_disjoint, chunk_cover]

/-- … and so is the second. -/
theorem o2_chunks (d : Dev nD) (f : Buf (Elt F) (o2Loc d)) :
    (o2Loc d ↦{fullShare} f : sProp 𝕄)
      = bigSep Finset.univ fun t : Fin (grid0.bound 0) × Fin (grid0.bound 1) × Fin 8 => o2Loc d ↦[chunk t]{fullShare} f := by
  rw [← pointsTo_biUnion Finset.univ (ℓ := o2Loc d) chunk chunk_disjoint, chunk_cover]

/-- The first result, whole, is every tile's eight chunks of it. -/
theorem chunks1_split (d : Dev nD) (f : Buf (Elt F) (o1Loc d)) :
    (o1Loc d ↦{fullShare} f : sProp 𝕄) = bigSep Finset.univ fun c : Fin (grid0.bound 0) => bigSep Finset.univ fun i : Fin (grid0.bound 1) => chunks1 d (coordsV c i) f := by
  rw [o1_chunks, bigSep_univ_prod]
  refine bigSep_congr fun c _ => ?_
  rw [bigSep_univ_prod]
  refine bigSep_congr fun i _ => ?_
  rw [bigSep_fin8]
  rfl

/-- The second result, whole, is every tile's eight chunks of it. -/
theorem chunks2_split (d : Dev nD) (f : Buf (Elt F) (o2Loc d)) :
    (o2Loc d ↦{fullShare} f : sProp 𝕄) = bigSep Finset.univ fun c : Fin (grid0.bound 0) => bigSep Finset.univ fun i : Fin (grid0.bound 1) => chunks2 d (coordsV c i) f := by
  rw [o2_chunks, bigSep_univ_prod]
  refine bigSep_congr fun c _ => ?_
  rw [bigSep_univ_prod]
  refine bigSep_congr fun i _ => ?_
  rw [bigSep_fin8]
  rfl

end Cert.Proof.KB

end
-- ==== Proof.KBIds.lean ====
/-
  The ids as the kernel reads them. The entry function's one host operation reshapes the 16384 flat ids into 256 rows
  of 64, row-major: element `(r, c)` of the reshaped array is flat id `64·r + c`. So the reshaped ids are row numbers
  when the flat ones are, and the lookup through the 256×64 layout is the lookup through the flat ids.
-/
import proofs.«204537_g11269994185187_cont_sun_m_1261_11_alg».proof.Proof.KBRes
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The reshaped ids at `(r, c)`: flat id `64·r + c` (both sit at row-major position `64·r + c`). -/
theorem ids2_apply (m : (ℓ : Loc nD τ sig) → Buf (Elt F) ℓ) (d : Dev nD) (r : Fin 256) (c : Fin 64) :
    ids2 m d (ValueIdx.ix2 r c) = m (aLoc d) (ValueIdx.ix1 (⟨64 * r.val + c.val, by omega⟩ : Fin 16384)) := by
  unfold ids2
  rw [StableHlo.reshape_result]
  show shapeCast S256x64 (V0 m d a') shapeCasts_S16384_S256x64 (ValueIdx.ix2 r c) = _
  have hk : (S16384.rowMajor (ValueIdx.ix1 (⟨64 * r.val + c.val, by omega⟩ : Fin 16384))).val
      = (S256x64.rowMajor (ValueIdx.ix2 r c)).val :=
    (Shape.rowMajor_val_one (d := ![16384]) (ValueIdx.ix1 (⟨64 * r.val + c.val, by omega⟩ : Fin 16384))).trans
      (Eq.trans (show 64 * r.val + c.val = r.val * 64 + c.val by omega)
        (Shape.rowMajor_val_two (d := ![256, 64]) (ValueIdx.ix2 r c)).symm)
  exact shapeCast_apply (V0 m d a') shapeCasts_S16384_S256x64 (ValueIdx.ix2 r c)
    (ValueIdx.ix1 (⟨64 * r.val + c.val, by omega⟩ : Fin 16384)) hk

/-- The reshaped ids are row numbers when the flat ids are. -/
theorem ids2_range (m : (ℓ : Loc nD τ sig) → Buf (Elt F) ℓ) (d : Dev nD) (h : Cert.Spec.InRange (m (aLoc d))) :
    ∀ y, (ids2 m d y).toNat < 100000 := by
  intro y
  have e := (congrArg (fun z => ids2 m d z) (ValueIdx.eq_ix2 (n0 := 256) (n1 := 64) y)).trans (ids2_apply m d (y 0) (y 1))
  rw [e]
  exact (h _).2

/-- The lookup through the reshaped ids is the lookup through the flat ids. -/
theorem take2_ids2 {α : Type} (m : (ℓ : Loc nD τ sig) → Buf (Elt F) ℓ) (d : Dev nD) (tab : Cert.Spec.STab.Idx → α) :
    Cert.Spec.take2 (ids2 m d) tab = Cert.Spec.take (m (aLoc d)) tab :=
  Cert.Spec.take2_eq_take _ _ tab (fun r c => ids2_apply m d r c)

end Cert.Proof.KB

end
-- ==== Proof.KBMain.lean ====
/-
  The entry function on a device's TensorCore. It holds the six arrays whole. The reshape leaves the 256×64 ids at the
  row-major reshape of the flat ids and every other array as it was. Then the whole arrays split into what the call
  takes: of the reshaped ids and of each table, 32 read shares (the remainders kept aside across the call); of each
  result, the tiles' chunks. The call returns the same with the chunks at the lookup; the tables' shares rejoin their
  remainders and the chunks rejoin into the whole results.
-/
import proofs.«204537_g11269994185187_cont_sun_m_1261_11_alg».proof.Proof.KBRes
import proofs.«204537_g11269994185187_cont_sun_m_1261_11_alg».proof.Proof.KBPay
import proofs.«204537_g11269994185187_cont_sun_m_1261_11_alg».proof.Proof.KBSplit
import proofs.«204537_g11269994185187_cont_sun_m_1261_11_alg».proof.Proof.KBChunks
import proofs.«204537_g11269994185187_cont_sun_m_1261_11_alg».proof.Proof.KBIds

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays -/

/-- The TensorCore's arrays, all unscoped: the flat ids, the reshaped ids, the two tables, the two results. -/
abbrev S6 : Finset (DevRef τ sig) := {a', i', t1', t2', o1', o2'}

theorem held_S6 (d : Dev nD) (W : Valuation τ sig (Elt F)) :
    (held (T d) S6 W : sProp 𝕄) = iprop((aLoc d ↦{fullShare} W a') ∗ (iLoc d ↦{fullShare} W i') ∗ (t1Loc d ↦{fullShare} W t1')
      ∗ (t2Loc d ↦{fullShare} W t2') ∗ (o1Loc d ↦{fullShare} W o1') ∗ (o2Loc d ↦{fullShare} W o2')) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (iLoc d ↦{fullShare} W main_v0) ∗ (t1Loc d ↦{fullShare} W main_arg1)
      ∗ (t2Loc d ↦{fullShare} W main_arg2) ∗ (o1Loc d ↦{fullShare} W main_v1_0) ∗ (o2Loc d ↦{fullShare} W main_v1_1)) := by
  unfold unscopedBufs
  rw [show (Finset.univ.filter fun b : Ref sig .tc => ¬ b.isScoped) = {main_arg0, main_v0, main_arg1, main_arg2, main_v1_0, main_v1_1} by decide,
    SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (T d) S6 (V0 m d) := by
  rw [unscopedBufs_eq, held_S6]; rfl

/-- The reshape reads the flat ids and writes the reshaped ids. -/
theorem hR : (opR (F := F)).bufs ⊆ S6 := show ({a', i'} : Finset (DevRef τ sig)) ⊆ S6 by decide

/-- After the reshape: the reshaped ids at the reshape of the flat ids, the other five arrays as launched. -/
theorem held_after (d : Dev nD) :
    (held (T d) S6 ((opR (F := F)).result (V0 m d)) : sProp 𝕄)
      = iprop((aLoc d ↦{fullShare} m (aLoc d)) ∗ (iLoc d ↦{fullShare} ids2 m d) ∗ (t1Loc d ↦{fullShare} m (t1Loc d))
        ∗ (t2Loc d ↦{fullShare} m (t2Loc d)) ∗ (o1Loc d ↦{fullShare} m (o1Loc d)) ∗ (o2Loc d ↦{fullShare} m (o2Loc d))) := by
  rw [held_S6,
    (opR (F := F)).result_of_not_mem (V0 m d) (b := a') (show a' ∉ ({i'} : Finset (DevRef τ sig)) by decide),
    (opR (F := F)).result_of_not_mem (V0 m d) (b := t1') (show t1' ∉ ({i'} : Finset (DevRef τ sig)) by decide),
    (opR (F := F)).result_of_not_mem (V0 m d) (b := t2') (show t2' ∉ ({i'} : Finset (DevRef τ sig)) by decide),
    (opR (F := F)).result_of_not_mem (V0 m d) (b := o1') (show o1' ∉ ({i'} : Finset (DevRef τ sig)) by decide),
    (opR (F := F)).result_of_not_mem (V0 m d) (b := o2') (show o2' ∉ ({i'} : Finset (DevRef τ sig)) by decide)]
  rfl

/-! ## What the call takes and hands back, array by array -/

/-- A double separating conjunction of five-fold conjunctions is the five double conjunctions. -/
theorem bigSep2_sep5 {α β : Type} (s : Finset α) (t : Finset β) (A B C D E : α → β → sProp 𝕄) :
    (bigSep s fun c => bigSep t fun i => iprop(A c i ∗ B c i ∗ C c i ∗ D c i ∗ E c i))
      = iprop((bigSep s fun c => bigSep t fun i => A c i) ∗ (bigSep s fun c => bigSep t fun i => B c i)
          ∗ (bigSep s fun c => bigSep t fun i => C c i) ∗ (bigSep s fun c => bigSep t fun i => D c i)
          ∗ (bigSep s fun c => bigSep t fun i => E c i)) := by
  simp only [bigSep_sep']

theorem st0_eq (d : Dev nD) :
    (bigSep Finset.univ fun c : Fin ((K (F := F)).nCore 0) => (P m).st 0 d c)
      = iprop((bigSep Finset.univ fun c : Fin (grid0.bound 0) => bigSep Finset.univ fun i : Fin (grid0.bound 1) => iLoc d ↦{tq (wid (coordsV c i))} ids2 m d)
          ∗ (bigSep Finset.univ fun c : Fin (grid0.bound 0) => bigSep Finset.univ fun i : Fin (grid0.bound 1) => t1Loc d ↦{tq (wid (coordsV c i))} m (t1Loc d))
          ∗ (bigSep Finset.univ fun c : Fin (grid0.bound 0) => bigSep Finset.univ fun i : Fin (grid0.bound 1) => t2Loc d ↦{tq (wid (coordsV c i))} m (t2Loc d))
          ∗ (bigSep Finset.univ fun c : Fin (grid0.bound 0) => bigSep Finset.univ fun i : Fin (grid0.bound 1) => chunks1 d (coordsV c i) (m (o1Loc d)))
          ∗ (bigSep Finset.univ fun c : Fin (grid0.bound 0) => bigSep Finset.univ fun i : Fin (grid0.bound 1) => chunks2 d (coordsV c i) (m (o2Loc d)))) := by
  simp only [P_st]
  rw [bigSep_cores (F := F) (fun c => bigSep Finset.univ fun i : Fin (grid0.bound 1) => tileIn m d (ids2 m d) (coordsV c i))]
  exact bigSep2_sep5 Finset.univ Finset.univ
    (fun c i => iLoc d ↦{tq (wid (coordsV c i))} ids2 m d) (fun c i => t1Loc d ↦{tq (wid (coordsV c i))} m (t1Loc d))
    (fun c i => t2Loc d ↦{tq (wid (coordsV c i))} m (t2Loc d)) (fun c i => chunks1 d (coordsV c i) (m (o1Loc d)))
    (fun c i => chunks2 d (coordsV c i) (m (o2Loc d)))

theorem dn0_eq (d : Dev nD) :
    (bigSep Finset.univ fun c : Fin ((K (F := F)).nCore 0) => (P m).dn 0 d c)
      = iprop((bigSep Finset.univ fun c : Fin (grid0.bound 0) => bigSep Finset.univ fun i : Fin (grid0.bound 1) => iLoc d ↦{tq (wid (coordsV c i))} ids2 m d)
          ∗ (bigSep Finset.univ fun c : Fin (grid0.bound 0) => bigSep Finset.univ fun i : Fin (grid0.bound 1) => t1Loc d ↦{tq (wid (coordsV c i))} m (t1Loc d))
          ∗ (bigSep Finset.univ fun c : Fin (grid0.bound 0) => bigSep Finset.univ fun i : Fin (grid0.bound 1) => t2Loc d ↦{tq (wid (coordsV c i))} m (t2Loc d))
          ∗ (bigSep Finset.univ fun c : Fin (grid0.bound 0) => bigSep Finset.univ fun i : Fin (grid0.bound 1) => chunks1 d (coordsV c i) (G1 m d (ids2 m d)))
          ∗ (bigSep Finset.univ fun c : Fin (grid0.bound 0) => bigSep Finset.univ fun i : Fin (grid0.bound 1) => chunks2 d (coordsV c i) (G2 m d (ids2 m d)))) := by
  simp only [P_dn]
  rw [bigSep_cores (F := F) (fun c => bigSep Finset.univ fun i : Fin (grid0.bound 1) => tileOut m d (ids2 m d) (coordsV c i))]
  exact bigSep2_sep5 Finset.univ Finset.univ
    (fun c i => iLoc d ↦{tq (wid (coordsV c i))} ids2 m d) (fun c i => t1Loc d ↦{tq (wid (coordsV c i))} m (t1Loc d))
    (fun c i => t2Loc d ↦{tq (wid (coordsV c i))} m (t2Loc d)) (fun c i => chunks1 d (coordsV c i) (G1 m d (ids2 m d)))
    (fun c i => chunks2 d (coordsV c i) (G2 m d (ids2 m d)))

/-! ## The entry function -/

variable [FloatOps F]

/-- What the entry function leaves the claim: the flat ids and the tables as launched, the results at the lookup. -/
abbrev FIN (d : Dev nD) : sProp 𝕄 :=
  iprop((aLoc d ↦{fullShare} m (aLoc d)) ∗ (t1Loc d ↦{fullShare} m (t1Loc d)) ∗ (t2Loc d ↦{fullShare} m (t2Loc d))
    ∗ (o1Loc d ↦{fullShare} G1 m d (ids2 m d)) ∗ (o2Loc d ↦{fullShare} G2 m d (ids2 m d)))

/-- The entry function on device `d`'s TensorCore: the reshape, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape, over the flat and the reshaped ids
  iapply (wp_hlo_within 𝒱 (SparseCore.T d) none Set.univ (op := opR) (S := S6) hR (V := V0 m d)) $$ [Hb Hheld]
  · isplitl [Hb]; · iexact Hb
    iexact Hheld
  iintro ⟨Hb, Hheld⟩
  rw [wp_ret]; imodintro
  ihave Hh := (Entails.of_eq (held_after (F := F) m d)) $$ Hheld
  icases Hh with ⟨Ha, Hi, Ht1, Ht2, Ho1, Ho2⟩
  -- the whole arrays split into what the call takes
  ihave Hi' := (shares_split (F := F) (ids2 m d)).1 $$ Hi
  icases Hi' with ⟨-, His⟩
  ihave Ht1' := (shares_split (F := F) (m (t1Loc d))).1 $$ Ht1
  icases Ht1' with ⟨Ht1r, Ht1s⟩
  ihave Ht2' := (shares_split (F := F) (m (t2Loc d))).1 $$ Ht2
  icases Ht2' with ⟨Ht2r, Ht2s⟩
  ihave Ho1s := (Entails.of_eq (chunks1_split (F := F) d (m (o1Loc d)))) $$ Ho1
  ihave Ho2s := (Entails.of_eq (chunks2_split (F := F) d (m (o2Loc d)))) $$ Ho2
  -- the call
  iapply ((K (F := F)).wp_run (D (F := F)) 𝒱 (EH := EH) (P := P m) κ d 0) $$ [Hst His Ht1s Ht2s Ho1s Ho2s Ha Ht1r Ht2r]
  isplitr; · iexact Hctx
  isplitl [Hst]; · iexact Hst
  isplitl [His Ht1s Ht2s Ho1s Ho2s]
  · rw [st0_eq]
    isplitl [His]; · iexact His
    isplitl [Ht1s]; · iexact Ht1s
    isplitl [Ht2s]; · iexact Ht2s
    isplitl [Ho1s]; · iexact Ho1s
    iexact Ho2s
  iintro ⟨Hst, Hdn⟩
  ihave Hdn' := (Entails.of_eq (dn0_eq (F := F) m d)) $$ Hdn
  icases Hdn' with ⟨-, Ht1s, Ht2s, Ho1s, Ho2s⟩
  -- coming back: the tables' shares rejoin their remainders, the chunks the whole results
  ihave Ht1 := (shares_split (F := F) (m (t1Loc d))).2 $$ [Ht1r Ht1s]
  · isplitl [Ht1r]; · iexact Ht1r
    iexact Ht1s
  ihave Ht2 := (shares_split (F := F) (m (t2Loc d))).2 $$ [Ht2r Ht2s]
  · isplitl [Ht2r]; · iexact Ht2r
    iexact Ht2s
  ihave Ho1 := (Entails.of_eq (chunks1_split (F := F) d (G1 m d (ids2 m d))).symm) $$ Ho1s
  ihave Ho2 := (Entails.of_eq (chunks2_split (F := F) d (G2 m d (ids2 m d))).symm) $$ Ho2s
  imodintro
  isplitl [Hst]; · iexact Hst
  isplitl [Ha]; · iexact Ha
  isplitl [Ht1]; · iexact Ht1
  isplitl [Ht2]; · iexact Ht2
  isplitl [Ho1]; · iexact Ho1
  iexact Ho2

/-! ## Reading the final memory -/

/-- What the final memory holds of the five arrays the claim names. -/
def fq (d : Dev nD) (s' : Phys nD τ sig (Elt F)) : Prop :=
  s'.mem.mem (aLoc d) = m (aLoc d) ∧ s'.mem.mem (t1Loc d) = m (t1Loc d) ∧ s'.mem.mem (t2Loc d) = m (t2Loc d)
    ∧ s'.mem.mem (o1Loc d) = G1 m d (ids2 m d) ∧ s'.mem.mem (o2Loc d) = G2 m d (ids2 m d)

set_option maxRecDepth 16384 in
theorem hfin (d : Dev nD) (s' : Phys nD τ sig (Elt F)) : iprop(FIN m d ∗ SI s') ⊢ (⌜fq m d s'⌝ : sProp 𝕄) := by
  iintro ⟨⟨Ha, Ht1, Ht2, Ho1, Ho2⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := t1Loc d) (I := Finset.univ) (q := fullShare) (f := m (t1Loc d)))) $$ [HSI Ht1]
  · isplitl [HSI] <;> iassumption
  icases H with ⟨%h2, HSI, -⟩
  ihave H := (persistent_entails_right (SI_pointsTo_agree (st := s') (ℓ := t2Loc d) (I := Finset.univ) (q := fullShare) (f := m (t2Loc d)))) $$ [HSI Ht2]
  · isplitl [HSI] <;> iassumption
  icases H with ⟨%h3, HSI, -⟩
  ihave H := (persistent_entails_right (SI_pointsTo_agree (st := s') (ℓ := o1Loc d) (I := Finset.univ) (q := fullShare) (f := G1 m d (ids2 m d)))) $$ [HSI Ho1]
  · isplitl [HSI] <;> iassumption
  icases H with ⟨%h4, HSI, -⟩
  ihave H := (SI_pointsTo_agree (st := s') (ℓ := o2Loc d) (I := Finset.univ) (q := fullShare) (f := G2 m d (ids2 m d))) $$ [HSI Ho2]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

end Cert.Proof.KB

end
-- ==== Proof.KBLaunch.lean ====
/-
  The kernel program's run. With each tile's task, the split of a SparseCore's operands among its tiles, the entry
  function on the TensorCore and the launch element in hand, the launch theorem gives: from any memory with zero
  counters whose flat ids are row numbers on every device, every weakly fair execution of the device's threads
  terminates, each result holding the lookup of the ids in its table, the ids and the tables unchanged.
-/
import proofs.«204537_g11269994185187_cont_sun_m_1261_11_alg».proof.Proof.KBRes
import proofs.«204537_g11269994185187_cont_sun_m_1261_11_alg».proof.Proof.KBObl
import proofs.«204537_g11269994185187_cont_sun_m_1261_11_alg».proof.Proof.KBMain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The claim's post: on every device the results are the lookups and the arguments are as launched. -/
def QC : PUnit × MemSt nD τ sig (Elt F) → Prop := fun r => ∀ c : Dev nD,
  r.2.mem (o1Loc c) = Cert.Spec.take (m (aLoc c)) (m (t1Loc c)) ∧ r.2.mem (o2Loc c) = Cert.Spec.take (m (aLoc c)) (m (t2Loc c))
    ∧ r.2.mem (aLoc c) = m (aLoc c) ∧ r.2.mem (t1Loc c) = m (t1Loc c) ∧ r.2.mem (t2Loc c) = m (t2Loc c)

/-- What the final memory holds is what the claim says: the lookup through the reshaped ids is the lookup through the
    flat ids. -/
theorem QC_of_fq (r : PUnit × MemSt nD τ sig (Elt F)) (h : ∀ d : Dev nD,
    r.2.mem (aLoc d) = m (aLoc d) ∧ r.2.mem (t1Loc d) = m (t1Loc d) ∧ r.2.mem (t2Loc d) = m (t2Loc d)
      ∧ r.2.mem (o1Loc d) = G1 m d (ids2 m d) ∧ r.2.mem (o2Loc d) = G2 m d (ids2 m d)) : QC m r := by
  intro c
  obtain ⟨ha, h1, h2, ho1, ho2⟩ := h c
  refine ⟨ho1.trans ?_, ho2.trans ?_, ha, h1, h2⟩
  · unfold G1; exact take2_ids2 m c (m (t1Loc c))
  · unfold G2; exact take2_ids2 m c (m (t2Loc c))

theorem run_main [∀ e, Nonempty (Elt F e)] (hpre : ∀ d : Dev nD, Cert.Spec.InRange (m (aLoc d))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts (fun d => ids2_range m d (hpre d)))
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h => QC_of_fq m (⟨⟩, s'.mem) h)

end Cert.Proof.KB

end
-- ==== Proof.RefValue.lean ====
/-
  One call of the lookup function, as a pure function of the ids and the table, and what it computes when every id is a
  row number. The function moves a negative id up by the row count, gathers the table's rows at the ids (the gather clamps
  a start index into the table), and replaces a row by a constant wherever the moved id still falls outside
  `[0, 99999]`. For ids that are row numbers nothing is moved, nothing is clamped and nothing is replaced: element
  `(b, l)` of the result is element `(ids[b], l)` of the table.
-/
import proofs.«204537_g11269994185187_cont_sun_m_1261_11_alg».proof.ReferenceIdeal
import proofs.«204537_g11269994185187_cont_sun_m_1261_11_alg».proof.Proof.Gen.ReferenceIdeal
import proofs.«204537_g11269994185187_cont_sun_m_1261_11_alg».proof.Proof.Spec
import Idealize.ShloMosaic.Lib.Affine
import Idealize.ShloMosaic.Lib.ValueIdx
import Idealize.ShloMosaic.PureOps.Reduce

noncomputable section

namespace Cert.ReferenceIdeal.RefRun

open Cert.ReferenceIdeal Cert.ReferenceIdeal.Facts₀ Idealize.ShloMosaic Idealize.ShloMosaic.ValueIdx

variable {F : FTy → Type} [FloatOps F]

/-! ## The call's pure term -/

/-- The start indices of the gather, an `[16384, 1]` array: each id, moved up by 100000 when it is negative. -/
def idsCol (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 100000#32))) ids)

/-- Per id, whether the moved id lies in `[0, 99999]` (both comparisons signed; the reduction is over the unit axis). -/
def inBounds (ids : IVec S16384 32) : IVec S16384 1 :=
  Host.reduce IntOp.andi
    (andi (cmpi .sge (idsCol ids) (broadcastInDim S16384x1 ![] bcast_S_S16384x1 (constantI S_ 32 0#32)))
      (cmpi .sle (idsCol ids)
        (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- One call: the gathered rows where the moved id is in bounds, the constant elsewhere. -/
def takeTerm (ids : IVec S16384 32) (tab : FVec F S100000x128 .f32) : FVec F S16384x128 .f32 :=
  select (broadcastInDim S16384x128 ![0] bcast_S16384_S16384x128_0 (inBounds ids))
    (Host.gather gather_S100000x128_S16384x1_S16384x128_1_0_n_n_0_1_1128 tab (idsCol ids))
    (broadcastInDim S16384x128 ![] bcast_S_S16384x128 (constant S_ .f32 0x7FC00000#32))

/-! ## Words -/

/-- A word that is non-negative signed and below 100000 unsigned is its unsigned value as a signed integer. -/
theorem toInt_of_range {w : BitVec 32} (h : 0 ≤ w.toInt ∧ w.toNat < 100000) : w.toInt = (w.toNat : Int) := by
  have ht := BitVec.toInt_eq_toNat_cond w
  split at ht <;> omega

/-- On a non-negative word the move is not taken. -/
theorem fix_of_nonneg {w : BitVec 32} (h : 0 ≤ w.toInt) (a : BitVec 32) :
    Scalar.select (IntOp.cmpi .slt w 0#32) a w = w := by
  have hz : IntOp.cmpi .slt w 0#32 = 0#1 := by
    refine eq_zero_of_ne_one fun e => ?_
    rw [IntOp.cmpi_slt] at e
    have e0 : (0#32 : BitVec 32).toInt = 0 := by decide
    omega
  rw [hz, select_zero]

/-- A row number passes both bounds. -/
theorem bounds_of_range {w : BitVec 32} (h : 0 ≤ w.toInt ∧ w.toNat < 100000) :
    IntOp.andi (IntOp.cmpi .sge w 0#32) (IntOp.cmpi .sle w 99999#32) = 1#1 := by
  have e0 : (0#32 : BitVec 32).toInt = 0 := by decide
  have e1 : (99999#32 : BitVec 32).toInt = 99999 := by decide
  have ht := toInt_of_range h
  refine IntOp.andi_eq_one.2 ⟨IntOp.cmpi_sge.2 ?_, IntOp.cmpi_sle.2 ?_⟩ <;> omega

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-! ## The layout operations read at an index -/

/-- The column broadcast `[16384] → [16384, 1]` at `(b, 0)` reads element `b`. -/
theorem col_apply {α : Type} (x : S16384.Idx → α) (i : S16384x1.Idx) :
    broadcastInDim S16384x1 ![0] bcast_S16384_S16384x1_0 x i = x (ix1 (⟨(i 0).val, idx2_lt0 i⟩ : Fin 16384)) := by
  unfold broadcastInDim
  refine congrArg x ?_
  funext a
  match a with
  | ⟨0, _⟩ => rfl

/-- The row broadcast `[16384] → [16384, 128]` at `(b, l)` reads element `b`. -/
theorem row_apply {α : Type} (x : S16384.Idx → α) (y : S16384x128.Idx) :
    broadcastInDim S16384x128 ![0] bcast_S16384_S16384x128_0 x y = x (ix1 (⟨(y 0).val, idx2_lt0 y⟩ : Fin 16384)) := by
  unfold broadcastInDim
  refine congrArg x ?_
  funext a
  match a with
  | ⟨0, _⟩ => rfl

/-- The start-indices index `(b, 0)` that result index `(b, l)` reads. -/
abbrev colIdx (y : S16384x128.Idx) : S16384x1.Idx := ix2 (⟨(y 0).val, idx2_lt0 y⟩ : Fin 16384) (0 : Fin 1)

/-- The call's gather's dimension numbers, under a short name. -/
abbrev gd : GatherDims S100000x128 S16384x1 S16384x128 := gather_S100000x128_S16384x1_S16384x128_1_0_n_n_0_1_1128

/-- THE GATHER READ AT `(b, l)`: row `idx[b, 0]`, read signed and clamped into `[0, 99999]`, column `l` of the operand.
    Axis 0 of the operand is collapsed and indexed by the start index; axis 1 is the result's offset axis. -/
theorem gather_apply {α : Type} (x : S100000x128.Idx → α) (idx : IVec S16384x1 32) (y : S16384x128.Idx) :
    Host.gather gd x idx y
      = x (ix2 (⟨min (idx (colIdx y)).toInt.toNat 99999, by omega⟩ : Fin 100000) (⟨(y 1).val, idx2_lt1 y⟩ : Fin 128)) := by
  unfold Host.gather
  refine congrArg x ?_
  funext a
  refine Fin.ext ?_
  match a with
  | ⟨0, _⟩ =>
    show gd.start y idx 0 + gd.batchCoord y 0 + gd.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx y ⟨List.idxOf (0 : Fin 2) gd.startIndexMap,
        List.idxOf_lt_length_iff.2 (List.mem_singleton.mpr rfl)⟩ = colIdx y := by
      funext b; refine Fin.ext ?_
      match b with
      | ⟨0, _⟩ => rfl
      | ⟨1, _⟩ => rfl
    rw [hsi]
    rfl
  | ⟨1, _⟩ =>
    show gd.start y idx 1 + gd.batchCoord y 1 + gd.offCoord y 1 = (y 1).val
    rw [GatherDims.batchCoord_eq_zero _ _ _ List.not_mem_nil]
    have hs : gd.start y idx 1 = 0 := by
      unfold GatherDims.start
      rw [dif_neg (show ¬(1 : Fin 2) ∈ gd.startIndexMap from by decide)]
    rw [hs]
    simp only [Nat.add_zero, Nat.zero_add]
    unfold GatherDims.offCoord
    rw [dif_pos (show (1 : Fin 2) ∈ gd.sKept from by decide)]
    rfl

/-! ## The call on row numbers -/

section InRange
variable {ids : IVec S16384 32} (h : Cert.Spec.InRange ids)
include h

/-- Nothing is moved: the start index at `(b, 0)` is id `b`. -/
theorem idsCol_apply (i : S16384x1.Idx) : idsCol ids i = ids (ix1 (⟨(i 0).val, idx2_lt0 i⟩ : Fin 16384)) := by
  unfold idsCol
  rw [col_apply]
  exact fix_of_nonneg (h _).1 _

/-- Nothing is out of bounds. -/
theorem inBounds_apply (j : S16384.Idx) : inBounds ids j = 1#1 := by
  unfold inBounds
  rw [Host.reduce_eq_foldl]
  refine foldl_andi_one _ (fun i => ?_) _
  show IntOp.andi (IntOp.cmpi .sge (idsCol ids i) 0#32) (IntOp.cmpi .sle (idsCol ids i) 99999#32) = 1#1
  rw [idsCol_apply h]
  exact bounds_of_range (h _)

/-- The call is the lookup. -/
theorem takeTerm_eq (tab : FVec F S100000x128 .f32) : takeTerm ids tab = Cert.Spec.take ids tab := by
  funext y
  unfold takeTerm
  rw [select_apply, row_apply, inBounds_apply h, select_one]
  show Host.gather gd tab (idsCol ids) y = _
  rw [gather_apply]
  unfold Cert.Spec.take
  refine congrArg tab ?_
  refine congrArg (fun r : Fin 100000 => ix2 r (⟨(y 1).val, idx2_lt1 y⟩ : Fin 128)) (Fin.ext ?_)
  show min (idsCol ids (colIdx y)).toInt.toNat 99999
    = min (ids (ix1 (⟨(y 0).val, idx2_lt0 y⟩ : Fin 16384))).toNat 99999
  rw [idsCol_apply h]
  show min (ids (ix1 (⟨(y 0).val, idx2_lt0 y⟩ : Fin 16384))).toInt.toNat 99999
    = min (ids (ix1 (⟨(y 0).val, idx2_lt0 y⟩ : Fin 16384))).toNat 99999
  rw [toInt_of_range (h (ix1 (⟨(y 0).val, idx2_lt0 y⟩ : Fin 16384))), Int.toNat_natCast]

end InRange

end Cert.ReferenceIdeal.RefRun

end
-- ==== Proof.RefRun.lean ====
/-
  The reference program's run. Its entry function calls the lookup function twice, once per table, on the same ids; with
  the calls opened it is one straight line of 46 host operations (23 per call, the nested select among them), each
  writing a buffer of its own. Every weakly fair execution terminates with each buffer at the operations' fold over the
  launch contents; at the two result buffers the fold is one call's pure term of the ids and that call's table, which on
  ids that are row numbers is the lookup; no operation writes an argument.
-/
import proofs.«204537_g11269994185187_cont_sun_m_1261_11_alg».proof.ReferenceIdeal
import proofs.«204537_g11269994185187_cont_sun_m_1261_11_alg».proof.Proof.Gen.ReferenceIdeal
import proofs.«204537_g11269994185187_cont_sun_m_1261_11_alg».proof.Proof.Spec
import proofs.«204537_g11269994185187_cont_sun_m_1261_11_alg».proof.Proof.RefValue
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
open Idealize.ShloMosaic.StableHlo

variable {F : FTy → Type} [FloatOps F]

/-- The entry function's operations in order, the two calls opened: each call's 23 over that call's own buffers, the
    first on the first table, the second on the second, both on the ids. -/
abbrev ops : List (HloOp τ sig (Elt F)) :=
  [
    TRef.nullary main_call0.c (constantI S_ 32 0#32),
    TRef.unary main_call0.c main_call0.v0 (broadcastInDim S16384 ![] bcast_S_S16384),
    TRef.binary (.of main_arg0 : TRef sig ⟨S16384, .i32⟩) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0 : TRef sig ⟨S16384, .i32⟩) main_call0.v2 main_call0.v3 addi,
    TRef.ternary main_call0.v1 main_call0.v3 (.of main_arg0 : TRef sig ⟨S16384, .i32⟩) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1 : TRef sig ⟨S100000x128, .f32⟩) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg0 : TRef sig ⟨S16384, .i32⟩) main_call1.v0 main_call1.v1 (cmpi .slt),
    TRef.nullary main_call1.c_0 (constantI S_ 32 100000#32),
    TRef.unary main_call1.c_0 main_call1.v2 (broadcastInDim S16384 ![] bcast_S_S16384),
    TRef.binary (.of main_arg0 : TRef sig ⟨S16384, .i32⟩) main_call1.v2 main_call1.v3 addi,
    TRef.ternary main_call1.v1 main_call1.v3 (.of main_arg0 : TRef sig ⟨S16384, .i32⟩) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg2 : TRef sig ⟨S100000x128, .f32⟩) main_call1.v5 main_call1.v13 (fun x i => Host.gather gather_S100000x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select ]

-- the chain of forty-six sequenced steps is re-associated one step at a time: one level of recursion per step
set_option maxRecDepth 2048 in
/-- The entry function is that straight line: the two functions' definitions unfolded at their calls, and sequencing
    re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-! ## The fold at the result and argument buffers -/

attribute [local irreducible] Host.reduce Host.gather in
/-- The first result buffer holds the first call's term of the ids and the first table. -/
theorem v0_eq (V : Valuation τ sig (Elt F)) :
    after ops V (Proc.devRef (τ := τ) .tc main_v0)
      = takeTerm (V (Proc.devRef (τ := τ) .tc main_arg0)) (V (Proc.devRef (τ := τ) .tc main_arg1)) := by
  after_results_simp
  rfl

attribute [local irreducible] Host.reduce Host.gather in
/-- The second result buffer holds the second call's term of the ids and the second table. -/
theorem v1_eq (V : Valuation τ sig (Elt F)) :
    after ops V (Proc.devRef (τ := τ) .tc main_v1)
      = takeTerm (V (Proc.devRef (τ := τ) .tc main_arg0)) (V (Proc.devRef (τ := τ) .tc main_arg2)) := by
  after_results_simp
  rfl

/-- No operation writes the ids … -/
theorem arg0_eq (V : Valuation τ sig (Elt F)) :
    after ops V (Proc.devRef (τ := τ) .tc main_arg0) = V (Proc.devRef (τ := τ) .tc main_arg0) := by
  after_results_simp

/-- … or the first table … -/
theorem arg1_eq (V : Valuation τ sig (Elt F)) :
    after ops V (Proc.devRef (τ := τ) .tc main_arg1) = V (Proc.devRef (τ := τ) .tc main_arg1) := by
  after_results_simp

/-- … or the second. -/
theorem arg2_eq (V : Valuation τ sig (Elt F)) :
    after ops V (Proc.devRef (τ := τ) .tc main_arg2) = V (Proc.devRef (τ := τ) .tc main_arg2) := by
  after_results_simp

/-! ## The run -/

/-- From any memory with zero counters whose ids are row numbers on every device: every weakly fair execution of the
    entry function terminates, each result buffer holding the lookup of the ids in its table, the arguments unchanged. -/
theorem run (m : (ℓ : Loc Cert.ReferenceIdeal.nD Cert.ReferenceIdeal.τ Cert.ReferenceIdeal.sig) → Buf (Elt Ideal) ℓ) (g : Dev Cert.ReferenceIdeal.nD → PrngReg)
    (hr : ∀ c : Dev Cert.ReferenceIdeal.nD, Cert.Spec.InRange (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v0) = Cert.Spec.take (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v1) = Cert.Spec.take (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run defs _ _).mono (fun _ h c =>
      ⟨(h c main_v0).trans ((v0_eq _).trans (takeTerm_eq (hr c) _)),
        (h c main_v1).trans ((v1_eq _).trans (takeTerm_eq (hr c) _)),
        (h c main_arg0).trans (arg0_eq _), (h c main_arg1).trans (arg1_eq _), (h c main_arg2).trans (arg2_eq _)⟩)
    (run_seq scopedRefs_eq scopedSems_eq defs main (fun _ => ops) main_eq (fun _ => ops_sub) m g)

end Cert.ReferenceIdeal.RefRun

end
-- ==== Proof.PreRange.lean ====
/-
  The precondition decoded. Its last conjunct is `all((ids ≥ 0) & (ids ≤ 99999))`, both comparisons signed: a
  reduction by `and` of a one-bit array that comes out 1 had a 1 at every index, so at every index both comparison
  words are 1, and a 32-bit word between 0 and 99999 as a signed integer is that integer as an unsigned one.
-/
import proofs.«204537_g11269994185187_cont_sun_m_1261_11_alg».proof.Pre_input_domain
import proofs.«204537_g11269994185187_cont_sun_m_1261_11_alg».proof.Proof.Gen.Pre_input_domain
import proofs.«204537_g11269994185187_cont_sun_m_1261_11_alg».proof.Proof.Spec
import Idealize.ShloMosaic.Lib.ReduceAll

namespace Cert.PreRange

open Idealize.ShloMosaic Idealize.ShloMosaic.ValueIdx

/-- The scalar shape has one index. -/
instance : Subsingleton Cert.Pre_input_domain.S_.Idx := ⟨fun a b => funext fun d => d.elim0⟩

/-- A word at least 0 and at most 99999, both read signed, is non-negative signed and below 100000 unsigned. -/
theorem word_range (w : BitVec 32) (h0 : IntOp.cmpi .sge w 0#32 = 1#1) (h1 : IntOp.cmpi .sle w 99999#32 = 1#1) :
    0 ≤ w.toInt ∧ w.toNat < 100000 := by
  rw [IntOp.cmpi_sge] at h0
  rw [IntOp.cmpi_sle] at h1
  have e0 : (0#32 : BitVec 32).toInt = 0 := by decide
  have e1 : (99999#32 : BitVec 32).toInt = 99999 := by decide
  rw [e0] at h0
  rw [e1] at h1
  refine ⟨h0, ?_⟩
  have hw := w.isLt
  have ht := BitVec.toInt_eq_toNat_cond w
  split at ht <;> omega

/-- Under the precondition every id is a row number. Only the conjunct on the ids is read; the two on the tables
    (their entries finite) are not needed. -/
theorem inRange_of_pre {F : FTy → Type} [FloatOps F] (ids : IVec Cert.Pre_input_domain.S16384 32)
    (t1 t2 : FVec F Cert.Pre_input_domain.S100000x128 .f32)
    (h : Cert.Pre_input_domain.fn (F := F) ids t1 t2 = fun _ => 1#1) : Cert.Spec.InRange ids := by
  intro j
  have e := congrFun h ValueIdx.ix0
  dsimp only [Cert.Pre_input_domain.fn] at e
  have e2 := (IntOp.andi_eq_one.1 e).2
  have e3 := Host.reduce_andi_all _ _ _ _ _ e2 j
  obtain ⟨a, b⟩ := IntOp.andi_eq_one.1 e3
  exact word_range (ids j) a b

end Cert.PreRange
-- ==== Proof.lean ====
/-
  The claim, assembled. The two kernel programs' frames and the value claim's kernel side are the kernel's run, at the
  word-level floats and at the extended reals: from ids that are row numbers, which the precondition gives, every
  execution terminates with each result the lookup of the ids in its table and the arguments unchanged. The
  reference's frame and the value claim's reference side are the reference's run, which ends with the same two
  lookups. The idealized kernel is the kernel's own text, so nothing was rewritten and there is nothing to preserve.
-/
import proofs.«204537_g11269994185187_cont_sun_m_1261_11_alg».proof.Defs
import proofs.«204537_g11269994185187_cont_sun_m_1261_11_alg».proof.Proof.Gen.Kernel
import proofs.«204537_g11269994185187_cont_sun_m_1261_11_alg».proof.Proof.Gen.Kernel.Skeleton
import proofs.«204537_g11269994185187_cont_sun_m_1261_11_alg».proof.Proof.Gen.KernelIdeal
import proofs.«204537_g11269994185187_cont_sun_m_1261_11_alg».proof.Proof.Gen.KernelIdeal.Skeleton
import proofs.«204537_g11269994185187_cont_sun_m_1261_11_alg».proof.Proof.Gen.ReferenceIdeal
import proofs.«204537_g11269994185187_cont_sun_m_1261_11_alg».proof.Proof.Gen.Pre_input_domain
import proofs.«204537_g11269994185187_cont_sun_m_1261_11_alg».proof.Proof.KILaunch
import proofs.«204537_g11269994185187_cont_sun_m_1261_11_alg».proof.Proof.KBLaunch
import proofs.«204537_g11269994185187_cont_sun_m_1261_11_alg».proof.Proof.RefRun
import proofs.«204537_g11269994185187_cont_sun_m_1261_11_alg».proof.Proof.PreRange
import Idealize.ShloMosaic.Adequacy
import Idealize.ShloMosaic.Init

noncomputable section

namespace Cert.Proof.Claims

open Idealize.ShloMosaic Idealize.SL.Sem

/-- The word-level kernel runs and leaves its arguments unchanged: its run, the two results dropped. -/
theorem frame_k : Cert.frame_Kernel := fun m ρ hpre =>
  (θ_run Cert.Kernel.defs _ _).mono (fun _ h c => (h c).2.2)
    (Cert.Proof.KB.run_main (F := Bits) m ρ (fun d => Cert.PreRange.inRange_of_pre _ _ _ (hpre d)))

/-- The idealized kernel runs and leaves its arguments unchanged: the same run at the extended reals. -/
theorem frame_ki : Cert.frame_KernelIdeal := fun m ρ hpre =>
  (θ_run Cert.KernelIdeal.defs _ _).mono (fun _ h c => (h c).2.2)
    (Cert.Proof.KI.run_main (F := Ideal) m ρ (fun d => Cert.PreRange.inRange_of_pre _ _ _ (hpre d)))

/-- The reference runs and leaves its arguments unchanged: its run, the two results dropped. -/
theorem frame_ri : Cert.frame_ReferenceIdeal := fun m g hpre =>
  (θ_run Cert.ReferenceIdeal.defs _ _).mono (fun _ h c => (h c).2.2)
    (Cert.ReferenceIdeal.RefRun.run m g (fun c => Cert.PreRange.inRange_of_pre _ _ _ (hpre c)))

/-- Nothing was rewritten between the kernel and its idealization. -/
theorem preserves : Cert.preserves_Kernel_KernelIdeal := trivial

/-- At the extended reals both programs end with the lookup of the ids in each table. The kernel's run states it of
    its own memory; the reference starts from a memory that agrees with it on the three arguments, so its ids are
    row numbers too and its two lookups are the same functions. -/
theorem algebraic : Cert.algebraic_KernelIdeal_ReferenceIdeal := fun m g m' g' hpre hag =>
  have hr : ∀ d : Dev Cert.KernelIdeal.nD, Cert.Spec.InRange (m (Cert.Proof.KI.aLoc d)) :=
    fun d => Cert.PreRange.inRange_of_pre _ _ _ (hpre d)
  ⟨fun c => Cert.Spec.take (m (Cert.Proof.KI.aLoc c)) (m (Cert.Proof.KI.t1Loc c)),
    fun c => Cert.Spec.take (m (Cert.Proof.KI.aLoc c)) (m (Cert.Proof.KI.t2Loc c)),
    (θ_run Cert.KernelIdeal.defs _ _).mono (fun _ h c => h c) (Cert.Proof.KI.run_main (F := Ideal) m g hr),
    (θ_run Cert.ReferenceIdeal.defs _ _).mono
      (fun _ h c => by
        obtain ⟨h0, h1, ha, hb, hc⟩ := h c
        obtain ⟨e0, e1, e2⟩ := hag c
        refine ⟨h0.trans ?_, h1.trans ?_, ha, hb, hc⟩
        · rw [e0, e1]
        · rw [e0, e2])
      (Cert.ReferenceIdeal.RefRun.run m' g' (fun c => by rw [(hag c).1]; exact hr c))⟩

end Cert.Proof.Claims

namespace Cert.Proof

theorem claim : Cert.Claim :=
  ⟨Cert.Kernel.Gen.facts, Cert.KernelIdeal.Gen.facts, Cert.ReferenceIdeal.Gen.facts, Cert.Pre_input_domain.Gen.facts,
    Claims.frame_k, Claims.frame_ki, Claims.frame_ri, Claims.preserves, Claims.algebraic⟩

end Cert.Proof

end
